-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x131072x64 : Shape := ⟨3, ![8, 131072, 64]⟩
abbrev S64x64x32x64 : Shape := ⟨4, ![64, 64, 32, 64]⟩
abbrev S64x64 : Shape := ⟨2, ![64, 64]⟩
abbrev S64 : Shape := ⟨1, ![64]⟩
abbrev S_ : Shape := ⟨0, ![]⟩

class Facts : Prop where
  bcast_S_S8x131072x64 : S_.BroadcastsInDim S8x131072x64 (![] : Fin 0 → Fin S8x131072x64.rank)
  reducesTo_S8x131072x64_S_d0_1_2 : S8x131072x64.ReducesTo [0, 1, 2] S_
  h_S_ : 0 < S_.numel
  bcast_S_S64x64x32x64 : S_.BroadcastsInDim S64x64x32x64 (![] : Fin 0 → Fin S64x64x32x64.rank)
  reducesTo_S64x64x32x64_S_d0_1_2_3 : S64x64x32x64.ReducesTo [0, 1, 2, 3] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S8x131072x64 .f32) (main_arg1 : FVec F S64x64x32x64 .f32) (main_arg2 : FVec F S64x64 .f32) (main_arg3 : FVec F S64 .f32) : IVec S_ 1 :=
  let main_v0 : FVec F S8x131072x64 .f32 := Host.absf main_arg0
  let main_cst : FVec F S_ .f32 := constant S_ .f32 0x7F800000#32
  let main_v1 : FVec F S8x131072x64 .f32 := broadcastInDim S8x131072x64 ![] bcast_S_S8x131072x64 main_cst
  let main_v2 : IVec S8x131072x64 1 := cmpf .olt main_v0 main_v1
  let main_c : IVec S_ 1 := constantI S_ 1 1#1
  let main_v3 : IVec S_ 1 := (fun x v => Host.reduce IntOp.andi x v reducesTo_S8x131072x64_S_d0_1_2 h_S_) main_v2 main_c
  let main_v4 : FVec F S64x64x32x64 .f32 := Host.absf main_arg1
  let main_cst_0 : FVec F S_ .f32 := constant S_ .f32 0x7F800000#32
  let main_v5 : FVec F S64x64x32x64 .f32 := broadcastInDim S64x64x32x64 ![] bcast_S_S64x64x32x64 main_cst_0
  let main_v6 : IVec S64x64x32x64 1 := cmpf .olt main_v4 main_v5
  let main_c_1 : IVec S_ 1 := constantI S_ 1 1#1
  let main_v7 : IVec S_ 1 := (fun x v => Host.reduce IntOp.andi x v reducesTo_S64x64x32x64_S_d0_1_2_3 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S8x131072x64 : Shape := ⟨3, ![8, 131072, 64]⟩
abbrev S64x64x32x64 : Shape := ⟨4, ![64, 64, 32, 64]⟩
abbrev S64x64 : Shape := ⟨2, ![64, 64]⟩
abbrev S64 : Shape := ⟨1, ![64]⟩
abbrev S131072x64 : Shape := ⟨2, ![131072, 64]⟩
abbrev S8x65536x128 : Shape := ⟨3, ![8, 65536, 128]⟩
abbrev S65536x128 : Shape := ⟨2, ![65536, 128]⟩
abbrev S_ : Shape := ⟨0, ![]⟩
abbrev S64x128 : Shape := ⟨2, ![64, 128]⟩
abbrev S128x128 : Shape := ⟨2, ![128, 128]⟩
abbrev S128 : Shape := ⟨1, ![128]⟩
abbrev S1x128 : Shape := ⟨2, ![1, 128]⟩
abbrev S1x8192x128 : Shape := ⟨3, ![1, 8192, 128]⟩
abbrev S8192x128 : Shape := ⟨2, ![8192, 128]⟩

abbrev nBuf : Space → Nat
  | .hbm => 17
  | .vmem => 8
  | .smem => 0
  | _ => 0

abbrev bufTy : (tb : Table) → Fin (tcTables nBuf tb) → BufTy
  | .hbm, ⟨0, _⟩ => ⟨S8x131072x64, .f32⟩
  | .hbm, ⟨1, _⟩ => ⟨S64x64x32x64, .f32⟩
  | .hbm, ⟨2, _⟩ => ⟨S64x64, .f32⟩
  | .hbm, ⟨3, _⟩ => ⟨S64, .f32⟩
  | .hbm, ⟨4, _⟩ => ⟨S131072x64, .f32⟩
  | .hbm, ⟨5, _⟩ => ⟨S8x65536x128, .f32⟩
  | .hbm, ⟨6, _⟩ => ⟨S65536x128, .f32⟩
  | .hbm, ⟨7, _⟩ => ⟨S64x64, .f32⟩
  | .hbm, ⟨8, _⟩ => ⟨S_, .f32⟩
  | .hbm, ⟨9, _⟩ => ⟨S64x64, .f32⟩
  | .hbm, ⟨10, _⟩ => ⟨S64x128, .f32⟩
  | .hbm, ⟨11, _⟩ => ⟨S64x128, .f32⟩
  | .hbm, ⟨12, _⟩ => ⟨S128x128, .f32⟩
  | .hbm, ⟨13, _⟩ => ⟨S128, .f32⟩
  | .hbm, ⟨14, _⟩ => ⟨S1x128, .f32⟩
  | .hbm, ⟨15, _⟩ => ⟨S8x65536x128, .f32⟩
  | .hbm, ⟨16, _⟩ => ⟨S8x131072x64, .f32⟩
  | .local _ .vmem, ⟨0, _⟩ => ⟨S1x8192x128, .f32⟩
  | .local _ .vmem, ⟨1, _⟩ => ⟨S1x8192x128, .f32⟩
  | .local _ .vmem, ⟨2, _⟩ => ⟨S8192x128, .f32⟩
  | .local _ .vmem, ⟨3, _⟩ => ⟨S8192x128, .f32⟩
  | .local _ .vmem, ⟨4, _⟩ => ⟨S128x128, .f32⟩
  | .local _ .vmem, ⟨5, _⟩ => ⟨S1x128, .f32⟩
  | .local _ .vmem, ⟨6, _⟩ => ⟨S1x8192x128, .f32⟩
  | .local _ .vmem, ⟨7, _⟩ => ⟨S1x8192x128, .f32⟩
  | _, _ => ⟨S8x131072x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S64x64x32x64_S131072x64 : S64x64x32x64.ShapeCasts S131072x64
  shapeCasts_S8x131072x64_S8x65536x128 : S8x131072x64.ShapeCasts S8x65536x128
  shapeCasts_S131072x64_S65536x128 : S131072x64.ShapeCasts S65536x128
  transposes_S64x64_S64x64_1_0 : S64x64.Transposes [1, 0] S64x64
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  concatenates_S64_S64_S128_d0 : Shape.Concatenates [S64, S64] S128 0
  shapeCasts_S128_S1x128 : S128.ShapeCasts S1x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  inb_S1x8192x128_S1x8192x128_0_0_0 : ∀ a, (![0, 0, 0] : Fin 3 → Nat) a + S1x8192x128.size a ≤ S1x8192x128.size a
  h_S1x8192x128 : 0 < S1x8192x128.numel
  shapeCasts_S1x8192x128_S1x8192x128 : S1x8192x128.ShapeCasts S1x8192x128
  shapeCasts_S8192x128_S1x8192x128 : S8192x128.ShapeCasts S1x8192x128
  shapeCasts_S8x65536x128_S8x131072x64 : S8x65536x128.ShapeCasts S8x131072x64
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x128.size a ≤ S8x65536x128.size a
  hwx0_0 : ∀ i : grid0.Coords, EltTy.bits .f32 = 32 ∨ (Rect.block (s := S8x65536x128) S1x8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S65536x128.size a
  hwx0_1 : ∀ i : grid0.Coords, EltTy.bits .f32 = 32 ∨ (Rect.block (s := S65536x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8192x128.size a ≤ S8x65536x128.size a
  hwx0_4 : ∀ i : grid0.Coords, EltTy.bits .f32 = 32 ∨ (Rect.block (s := S8x65536x128) S1x8192x128.size (cc0_transform_4 i) (hinb0_4 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_v1) S1x8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x8192x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x131072x64 : Shape := ⟨3, ![8, 131072, 64]⟩
abbrev S64x64x32x64 : Shape := ⟨4, ![64, 64, 32, 64]⟩
abbrev S64x64 : Shape := ⟨2, ![64, 64]⟩
abbrev S64 : Shape := ⟨1, ![64]⟩
abbrev S131072 : Shape := ⟨1, ![131072]⟩
abbrev S_ : Shape := ⟨0, ![]⟩
abbrev S131072x1 : Shape := ⟨2, ![131072, 1]⟩
abbrev S131072x3 : Shape := ⟨2, ![131072, 3]⟩
abbrev S131072x64 : Shape := ⟨2, ![131072, 64]⟩
abbrev S1x64 : Shape := ⟨2, ![1, 64]⟩
abbrev S1x131072x64 : Shape := ⟨3, ![1, 131072, 64]⟩

abbrev nBuf : Space → Nat
  | .hbm => 119
  | .vmem => 0
  | .smem => 0
  | _ => 0

abbrev bufTy : (tb : Table) → Fin (tcTables nBuf tb) → BufTy
  | .hbm, ⟨0, _⟩ => ⟨S8x131072x64, .f32⟩
  | .hbm, ⟨1, _⟩ => ⟨S64x64x32x64, .f32⟩
  | .hbm, ⟨2, _⟩ => ⟨S64x64, .f32⟩
  | .hbm, ⟨3, _⟩ => ⟨S64, .f32⟩
  | .hbm, ⟨4, _⟩ => ⟨S131072, .i32⟩
  | .hbm, ⟨5, _⟩ => ⟨S_, .i32⟩
  | .hbm, ⟨6, _⟩ => ⟨S_, .i32⟩
  | .hbm, ⟨7, _⟩ => ⟨S131072, .i32⟩
  | .hbm, ⟨8, _⟩ => ⟨S131072, .i32⟩
  | .hbm, ⟨9, _⟩ => ⟨S131072, .i32⟩
  | .hbm, ⟨10, _⟩ => ⟨S_, .i32⟩
  | .hbm, ⟨11, _⟩ => ⟨S131072, .i32⟩
  | .hbm, ⟨12, _⟩ => ⟨S131072, .i1⟩
  | .hbm, ⟨13, _⟩ => ⟨S131072, .i32⟩
  | .hbm, ⟨14, _⟩ => ⟨S131072, .i32⟩
  | .hbm, ⟨15, _⟩ => ⟨S_, .i32⟩
  | .hbm, ⟨16, _⟩ => ⟨S131072, .i32⟩
  | .hbm, ⟨17, _⟩ => ⟨S131072, .i1⟩
  | .hbm, ⟨18, _⟩ => ⟨S131072, .i1⟩
  | .hbm, ⟨19, _⟩ => ⟨S_, .i32⟩
  | .hbm, ⟨20, _⟩ => ⟨S131072, .i32⟩
  | .hbm, ⟨21, _⟩ => ⟨S131072, .i32⟩
  | .hbm, ⟨22, _⟩ => ⟨S131072, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S131072, .i32⟩
  | .hbm, ⟨30, _⟩ => ⟨S131072, .i32⟩
  | .hbm, ⟨31, _⟩ => ⟨S_, .i32⟩
  | .hbm, ⟨32, _⟩ => ⟨S131072, .i32⟩
  | .hbm, ⟨33, _⟩ => ⟨S131072, .i1⟩
  | .hbm, ⟨34, _⟩ => ⟨S_, .i32⟩
  | .hbm, ⟨35, _⟩ => ⟨S131072, .i32⟩
  | .hbm, ⟨36, _⟩ => ⟨S131072, .i1⟩
  | .hbm, ⟨37, _⟩ => ⟨S_, .i32⟩
  | .hbm, ⟨38, _⟩ => ⟨S_, .i1⟩
  | .hbm, ⟨39, _⟩ => ⟨S131072, .i1⟩
  | .hbm, ⟨40, _⟩ => ⟨S131072, .i1⟩
  | .hbm, ⟨41, _⟩ => ⟨S131072, .i1⟩
  | .hbm, ⟨42, _⟩ => ⟨S131072, .i32⟩
  | .hbm, ⟨43, _⟩ => ⟨S131072, .i32⟩
  | .hbm, ⟨44, _⟩ => ⟨S131072, .i32⟩
  | .hbm, ⟨45, _⟩ => ⟨S_, .i32⟩
  | .hbm, ⟨46, _⟩ => ⟨S_, .i32⟩
  | .hbm, ⟨47, _⟩ => ⟨S131072, .i32⟩
  | .hbm, ⟨48, _⟩ => ⟨S131072, .i32⟩
  | .hbm, ⟨49, _⟩ => ⟨S131072, .i32⟩
  | .hbm, ⟨50, _⟩ => ⟨S_, .i32⟩
  | .hbm, ⟨51, _⟩ => ⟨S131072, .i32⟩
  | .hbm, ⟨52, _⟩ => ⟨S131072, .i1⟩
  | .hbm, ⟨53, _⟩ => ⟨S131072, .i32⟩
  | .hbm, ⟨54, _⟩ => ⟨S131072, .i32⟩
  | .hbm, ⟨55, _⟩ => ⟨S_, .i32⟩
  | .hbm, ⟨56, _⟩ => ⟨S131072, .i32⟩
  | .hbm, ⟨57, _⟩ => ⟨S131072, .i1⟩
  | .hbm, ⟨58, _⟩ => ⟨S131072, .i1⟩
  | .hbm, ⟨59, _⟩ => ⟨S_, .i32⟩
  | .hbm, ⟨60, _⟩ => ⟨S131072, .i32⟩
  | .hbm, ⟨61, _⟩ => ⟨S131072, .i32⟩
  | .hbm, ⟨62, _⟩ => ⟨S131072, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i1⟩
  | .hbm, ⟨67, _⟩ => ⟨S_, .i32⟩
  | .hbm, ⟨68, _⟩ => ⟨S_, .i32⟩
  | .hbm, ⟨69, _⟩ => ⟨S131072, .i32⟩
  | .hbm, ⟨70, _⟩ => ⟨S131072, .i32⟩
  | .hbm, ⟨71, _⟩ => ⟨S_, .i32⟩
  | .hbm, ⟨72, _⟩ => ⟨S131072, .i32⟩
  | .hbm, ⟨73, _⟩ => ⟨S131072, .i1⟩
  | .hbm, ⟨74, _⟩ => ⟨S_, .i32⟩
  | .hbm, ⟨75, _⟩ => ⟨S131072, .i32⟩
  | .hbm, ⟨76, _⟩ => ⟨S131072, .i1⟩
  | .hbm, ⟨77, _⟩ => ⟨S_, .i32⟩
  | .hbm, ⟨78, _⟩ => ⟨S_, .i1⟩
  | .hbm, ⟨79, _⟩ => ⟨S131072, .i1⟩
  | .hbm, ⟨80, _⟩ => ⟨S131072, .i1⟩
  | .hbm, ⟨81, _⟩ => ⟨S131072, .i1⟩
  | .hbm, ⟨82, _⟩ => ⟨S131072, .i32⟩
  | .hbm, ⟨83, _⟩ => ⟨S131072, .i32⟩
  | .hbm, ⟨84, _⟩ => ⟨S131072, .i32⟩
  | .hbm, ⟨85, _⟩ => ⟨S_, .i32⟩
  | .hbm, ⟨86, _⟩ => ⟨S131072, .i32⟩
  | .hbm, ⟨87, _⟩ => ⟨S131072, .i1⟩
  | .hbm, ⟨88, _⟩ => ⟨S_, .i32⟩
  | .hbm, ⟨89, _⟩ => ⟨S131072, .i32⟩
  | .hbm, ⟨90, _⟩ => ⟨S131072, .i32⟩
  | .hbm, ⟨91, _⟩ => ⟨S131072, .i32⟩
  | .hbm, ⟨92, _⟩ => ⟨S_, .i32⟩
  | .hbm, ⟨93, _⟩ => ⟨S131072, .i32⟩
  | .hbm, ⟨94, _⟩ => ⟨S131072, .i1⟩
  | .hbm, ⟨95, _⟩ => ⟨S_, .i32⟩
  | .hbm, ⟨96, _⟩ => ⟨S131072, .i32⟩
  | .hbm, ⟨97, _⟩ => ⟨S131072, .i32⟩
  | .hbm, ⟨98, _⟩ => ⟨S131072, .i32⟩
  | .hbm, ⟨99, _⟩ => ⟨S_, .i32⟩
  | .hbm, ⟨100, _⟩ => ⟨S131072, .i32⟩
  | .hbm, ⟨101, _⟩ => ⟨S131072, .i1⟩
  | .hbm, ⟨102, _⟩ => ⟨S_, .i32⟩
  | .hbm, ⟨103, _⟩ => ⟨S131072, .i32⟩
  | .hbm, ⟨104, _⟩ => ⟨S131072, .i32⟩
  | .hbm, ⟨105, _⟩ => ⟨S131072, .i32⟩
  | .hbm, ⟨106, _⟩ => ⟨S131072x1, .i32⟩
  | .hbm, ⟨107, _⟩ => ⟨S131072x1, .i32⟩
  | .hbm, ⟨108, _⟩ => ⟨S131072x1, .i32⟩
  | .hbm, ⟨109, _⟩ => ⟨S131072x3, .i32⟩
  | .hbm, ⟨110, _⟩ => ⟨S131072x64, .f32⟩
  | .hbm, ⟨111, _⟩ => ⟨S64x64, .f32⟩
  | .hbm, ⟨112, _⟩ => ⟨S131072x64, .f32⟩
  | .hbm, ⟨113, _⟩ => ⟨S1x64, .f32⟩
  | .hbm, ⟨114, _⟩ => ⟨S131072x64, .f32⟩
  | .hbm, ⟨115, _⟩ => ⟨S131072x64, .f32⟩
  | .hbm, ⟨116, _⟩ => ⟨S1x131072x64, .f32⟩
  | .hbm, ⟨117, _⟩ => ⟨S8x131072x64, .f32⟩
  | .hbm, ⟨118, _⟩ => ⟨S8x131072x64, .f32⟩
  | _, _ => ⟨S8x131072x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v2 : Ref sig .tc := ⟨.hbm, 44, rfl⟩
abbrev main_c_1 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_c : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_c_0 : Ref sig .tc := ⟨.hbm, 59, rfl⟩
abbrev main_call2_v12 : Ref sig .tc := ⟨.hbm, 60, rfl⟩
abbrev main_call2_v13 : Ref sig .tc := ⟨.hbm, 61, rfl⟩
abbrev main_v3 : Ref sig .tc := ⟨.hbm, 62, rfl⟩
abbrev main_c_2 : Ref sig .tc := ⟨.hbm, 63, rfl⟩
abbrev main_call3_v0 : Ref sig .tc := ⟨.hbm, 64, rfl⟩
abbrev main_call3_c : Ref sig .tc := ⟨.hbm, 65, rfl⟩
abbrev main_call3_v1 : Ref sig .tc := ⟨.hbm, 66, rfl⟩
abbrev main_call3_c_0 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_c_1 : Ref sig .tc := ⟨.hbm, 71, rfl⟩
abbrev main_call3_v5 : Ref sig .tc := ⟨.hbm, 72, rfl⟩
abbrev main_call3_v6 : Ref sig .tc := ⟨.hbm, 73, rfl⟩
abbrev main_call3_c_2 : Ref sig .tc := ⟨.hbm, 74, rfl⟩
abbrev main_call3_v7 : Ref sig .tc := ⟨.hbm, 75, rfl⟩
abbrev main_call3_v8 : Ref sig .tc := ⟨.hbm, 76, rfl⟩
abbrev main_call3_c_3 : Ref sig .tc := ⟨.hbm, 77, rfl⟩
abbrev main_call3_v9 : Ref sig .tc := ⟨.hbm, 78, rfl⟩
abbrev main_call3_v10 : Ref sig .tc := ⟨.hbm, 79, rfl⟩
abbrev main_call3_v11 : Ref sig .tc := ⟨.hbm, 80, rfl⟩
abbrev main_call3_v12 : Ref sig .tc := ⟨.hbm, 81, rfl⟩
abbrev main_call3_v13 : Ref sig .tc := ⟨.hbm, 82, rfl⟩
abbrev main_call3_v14 : Ref sig .tc := ⟨.hbm, 83, rfl⟩
abbrev main_v4 : Ref sig .tc := ⟨.hbm, 84, rfl⟩
abbrev main_c_3 : Ref sig .tc := ⟨.hbm, 85, rfl⟩
abbrev main_v5 : Ref sig .tc := ⟨.hbm, 86, rfl⟩
abbrev main_v6 : Ref sig .tc := ⟨.hbm, 87, rfl⟩
abbrev main_c_4 : Ref sig .tc := ⟨.hbm, 88, rfl⟩
abbrev main_v7 : Ref sig .tc := ⟨.hbm, 89, rfl⟩
abbrev main_v8 : Ref sig .tc := ⟨.hbm, 90, rfl⟩
abbrev main_v9 : Ref sig .tc := ⟨.hbm, 91, rfl⟩
abbrev main_c_5 : Ref sig .tc := ⟨.hbm, 92, rfl⟩
abbrev main_v10 : Ref sig .tc := ⟨.hbm, 93, rfl⟩
abbrev main_v11 : Ref sig .tc := ⟨.hbm, 94, rfl⟩
abbrev main_c_6 : Ref sig .tc := ⟨.hbm, 95, rfl⟩
abbrev main_v12 : Ref sig .tc := ⟨.hbm, 96, rfl⟩
abbrev main_v13 : Ref sig .tc := ⟨.hbm, 97, rfl⟩
abbrev main_v14 : Ref sig .tc := ⟨.hbm, 98, rfl⟩
abbrev main_c_7 : Ref sig .tc := ⟨.hbm, 99, rfl⟩
abbrev main_v15 : Ref sig .tc := ⟨.hbm, 100, rfl⟩
abbrev main_v16 : Ref sig .tc := ⟨.hbm, 101, rfl⟩
abbrev main_c_8 : Ref sig .tc := ⟨.hbm, 102, rfl⟩
abbrev main_v17 : Ref sig .tc := ⟨.hbm, 103, rfl⟩
abbrev main_v18 : Ref sig .tc := ⟨.hbm, 104, rfl⟩
abbrev main_v19 : Ref sig .tc := ⟨.hbm, 105, rfl⟩
abbrev main_v20 : Ref sig .tc := ⟨.hbm, 106, rfl⟩
abbrev main_v21 : Ref sig .tc := ⟨.hbm, 107, rfl⟩
abbrev main_v22 : Ref sig .tc := ⟨.hbm, 108, rfl⟩
abbrev main_v23 : Ref sig .tc := ⟨.hbm, 109, rfl⟩
abbrev main_v24 : Ref sig .tc := ⟨.hbm, 110, rfl⟩
abbrev main_v25 : Ref sig .tc := ⟨.hbm, 111, rfl⟩
abbrev main_v26 : Ref sig .tc := ⟨.hbm, 112, rfl⟩
abbrev main_v27 : Ref sig .tc := ⟨.hbm, 113, rfl⟩
abbrev main_v28 : Ref sig .tc := ⟨.hbm, 114, rfl⟩
abbrev main_v29 : Ref sig .tc := ⟨.hbm, 115, rfl⟩
abbrev main_v30 : Ref sig .tc := ⟨.hbm, 116, rfl⟩
abbrev main_v31 : Ref sig .tc := ⟨.hbm, 117, rfl⟩
abbrev main_v32 : Ref sig .tc := ⟨.hbm, 118, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x1_S131072x3_d1 : Shape.Concatenates [S131072x1, S131072x1, S131072x1] S131072x3 1
  transposes_S64x64_S64x64_1_0 : S64x64.Transposes [1, 0] S64x64
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S131072x64_S1x131072x64_1_2 : S131072x64.BroadcastsInDim S1x131072x64 (![1, 2] : Fin 2 → Fin S1x131072x64.rank)
  bcast_S1x131072x64_S8x131072x64_0_1_2 : S1x131072x64.BroadcastsInDim S8x131072x64 (![0, 1, 2] : Fin 3 → Fin S8x131072x64.rank)
  gather_S64x64x32x64_S131072x3_S131072x64_1_012_n_n_012_1_11164_wf : GatherDims.WF S64x64x32x64 S131072x3 S131072x64 [1] [0, 1, 2] [] [0, 1, 2] [] 1 ![1, 1, 1, 64]
  dot_S131072x64_S64x64_S131072x64_1_0_0_1_n_n_wf : DotDims.WF S131072x64 S64x64 S131072x64 [1] [0] [0] [1] [] []

variable [Facts₀]

def gather_S64x64x32x64_S131072x3_S131072x64_1_012_n_n_012_1_11164 : GatherDims S64x64x32x64 S131072x3 S131072x64 where
  offsetDims := [1]
  collapsedSliceDims := [0, 1, 2]
  operandBatchingDims := []
  startIndicesBatchingDims := []
  startIndexMap := [0, 1, 2]
  indexVectorDim := 1
  sliceSizes := ![1, 1, 1, 64]
  wf := gather_S64x64x32x64_S131072x3_S131072x64_1_012_n_n_012_1_11164_wf
def dot_S131072x64_S64x64_S131072x64_1_0_0_1_n_n : DotDims S131072x64 S64x64 S131072x64 where
  lhsContracting := [1]
  rhsContracting := [0]
  lhsNonContracting := [0]
  rhsNonContracting := [1]
  lhsBatch := []
  rhsBatch := []
  wf := dot_S131072x64_S64x64_S131072x64_1_0_0_1_n_n_wf

class Facts : Prop extends Facts₀ where

variable [Facts]
-- ==== Proof.LibDense.lean ====
/-
  Dense layers read as functions of rows, at the ideal values.

  A dense layer of an MLP takes an [A, K] matrix of rows, a [K, N] weight matrix and an [N] bias to the [A, N]
  matrix whose entry (r, n) is  sum_k x(r, k) * w(k, n) + b(n).  Entry (r, n) depends on row r of x only, so the
  layer applied to a block of rows is the block of the layer applied to all rows; that is what lets a kernel
  that walks over row blocks be compared with a reference that multiplies whole matrices.

  Two spellings of the layer are read to this one function: the kernel's (the operands narrowed to bf16, which
  changes nothing at the ideal values; a matrix product accumulated into a zero splat; the bias cast to one row
  and broadcast down the rows) and the host's (a dot_general; the bias broadcast to one row, then down the rows).
  Likewise the tanh form of gelu,  x * (1/2 * (1 + tanh (c1 * (x + c0 * x^3)))),  is read pointwise in the
  kernel's spelling (x^3 as x * (x * x), splatted scalars) and the host's (x^3 as (x * x) * x, broadcast
  constants); the two cubes agree because multiplication of extended reals is commutative.  All of it is generic in the extents.
-/
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace Cert.LibDense

open Idealize.ShloMosaic Idealize.ShloMosaic.ValueIdx

/-! ## The contraction of a plain matrix product as a sum over the shared axis -/

/-- For the plain dimension numbers (rows x contraction times contraction x columns) the contraction index is
    its one coordinate, and the operand indices at output (r, n) and contraction k are (r, k) and (k, n). -/
theorem plain_sum (A K N : Nat) (l : (⟨2, ![A, K]⟩ : Shape).Idx → EReal) (r : (⟨2, ![K, N]⟩ : Shape).Idx → EReal)
    (j : (⟨2, ![A, N]⟩ : Shape).Idx) :
    ∑ k : (DotDims.plain A K N).contr.Idx, l ((DotDims.plain A K N).lhsIdx j k) * r ((DotDims.plain A K N).rhsIdx j k)
      = ∑ k : Fin K, l (ix2 (j 0 : Fin A) k) * r (ix2 k (j 1 : Fin N)) := by
  rw [← Equiv.sum_comp (contrEquiv1 (DotDims.plain A K N) K rfl rfl).symm]
  refine Finset.sum_congr rfl fun k _ => ?_
  have hk := contrEquiv1_symm_val (DotDims.plain A K N) K rfl rfl k
  have el : (DotDims.plain A K N).lhsIdx j ((contrEquiv1 (DotDims.plain A K N) K rfl rfl).symm k) = ix2 (j 0 : Fin A) k := by
    funext a
    match a with
    | ⟨0, _⟩ => rfl
    | ⟨1, _⟩ => exact Fin.ext hk
  have er : (DotDims.plain A K N).rhsIdx j ((contrEquiv1 (DotDims.plain A K N) K rfl rfl).symm k) = ix2 k (j 1 : Fin N) := by
    funext a
    match a with
    | ⟨0, _⟩ => exact Fin.ext hk
    | ⟨1, _⟩ => rfl
  exact congrArg₂ (· * ·) (congrArg l el) (congrArg r er)

/-! ## The bias laid along every row -/

/-- The kernel's spelling: the bias cast to one row and broadcast down the rows reads the bias at the column. -/
theorem bias_rows_kernel {A N : Nat} {α : Type} (b : (⟨1, ![N]⟩ : Shape).Idx → α)
    (h1 : (⟨1, ![N]⟩ : Shape).ShapeCasts ⟨2, ![1, N]⟩) (hb : (⟨2, ![1, N]⟩ : Shape).Broadcasts ⟨2, ![A, N]⟩)
    (i : (⟨2, ![A, N]⟩ : Shape).Idx) :
    broadcastTo ⟨2, ![A, N]⟩ (shapeCast ⟨2, ![1, N]⟩ b h1) hb i = b (ix1 (i 1 : Fin N)) := by
  have e1 := broadcastTo_apply (shapeCast ⟨2, ![1, N]⟩ b h1) hb i (ix2 (0 : Fin 1) (i 1 : Fin N)) (by
    intro a
    match a with
    | ⟨0, _⟩ => rfl
    | ⟨1, _⟩ =>
      show (i 1).val = if N = 1 then 0 else (i 1).val
      split
      · have := (i 1).isLt; have e : (i 1).val < N := this; omega
      · rfl)
  have e2 := shapeCast_apply b h1 (ix2 (0 : Fin 1) (i 1 : Fin N)) (ix1 (i 1 : Fin N)) (by
    rw [Shape.rowMajor_val_two, Shape.rowMajor_val_one]; show (i 1).val = 0 * N + (i 1).val; omega)
  exact e1.trans e2

/-- The host's spelling: the bias broadcast to one row along axis 1, then down the rows, reads the bias at the column. -/
theorem bias_rows_host_ix {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1]) (p : Fin A) (q : Fin N) :
    broadcastInDim ⟨2, ![A, N]⟩ ![0, 1] hbc (broadcastInDim ⟨2, ![1, N]⟩ ![1] hd b) (ix2 p q) = b (ix1 q) := by
  rw [broadcastInDim_oneRow_apply hbc _ p q]
  refine broadcastInDim_apply ![1] hd b (ix2 (0 : Fin 1) q) (ix1 q) ?_
  intro a
  match a with
  | ⟨0, _⟩ =>
    show q.val = if N = 1 then 0 else q.val
    split
    · have := q.isLt; omega
    · rfl

/-- The same at any index. -/
theorem bias_rows_host {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1])
    (i : (⟨2, ![A, N]⟩ : Shape).Idx) :
    broadcastInDim ⟨2, ![A, N]⟩ ![0, 1] hbc (broadcastInDim ⟨2, ![1, N]⟩ ![1] hd b) i = b (ix1 (i 1 : Fin N)) := by
  obtain ⟨p, q, rfl⟩ : ∃ (p : Fin A) (q : Fin N), i = ix2 p q := ⟨i 0, i 1, eq_ix2 i⟩
  exact bias_rows_host_ix b hd hbc p q

/-! ## The dense layer -/

/-- The dense layer on rows: entry (r, n) is the sum over k of x(r, k) * w(k, n), plus b(n). -/
def dense (A K N : Nat) (x : (⟨2, ![A, K]⟩ : Shape).Idx → EReal) (w : (⟨2, ![K, N]⟩ : Shape).Idx → EReal)
    (b : (⟨1, ![N]⟩ : Shape).Idx → EReal) : (⟨2, ![A, N]⟩ : Shape).Idx → EReal :=
  fun j => (∑ k : Fin K, x (ix2 (j 0 : Fin A) k) * w (ix2 k (j 1 : Fin N))) + b (ix1 (j 1 : Fin N))

/-- The kernel's layer (bf16 operands, zero accumulator, bias cast and broadcast) is the dense layer. -/
theorem dense_kernel {A K N : Nat} (x : FVec Ideal ⟨2, ![A, K]⟩ .f32) (w : FVec Ideal ⟨2, ![K, N]⟩ .f32)
    (b : FVec Ideal ⟨1, ![N]⟩ .f32) (hlt : FTy.bits .bf16 < FTy.bits .f32)
    (h1 : (⟨1, ![N]⟩ : Shape).ShapeCasts ⟨2, ![1, N]⟩) (hb : (⟨2, ![1, N]⟩ : Shape).Broadcasts ⟨2, ![A, N]⟩) :
    addf (matmul (DotDims.plain A K N) none (truncf .bf16 x hlt) (truncf .bf16 w hlt) (constant ⟨2, ![A, N]⟩ .f32 0x00000000#32))
      (broadcastTo ⟨2, ![A, N]⟩ (shapeCast ⟨2, ![1, N]⟩ b h1) hb) = dense A K N x w b := by
  funext j
  rw [addf_apply, bias_rows_kernel b h1 hb j]
  refine congrArg (· + b (ix1 (j 1 : Fin N))) ?_
  refine (Ideal.matmul_constant_zero_apply (DotDims.plain A K N) none (truncf .bf16 x hlt) (truncf .bf16 w hlt) j).trans ?_
  exact plain_sum A K N x w j

/-- The host's layer (dot_general, bias broadcast twice) is the dense layer. -/
theorem dense_host {A K N : Nat} (x : FVec Ideal ⟨2, ![A, K]⟩ .f32) (w : FVec Ideal ⟨2, ![K, N]⟩ .f32)
    (b : FVec Ideal ⟨1, ![N]⟩ .f32)
    (hd : (⟨1, ![N]⟩ : Shape).BroadcastsInDim ⟨2, ![1, N]⟩ ![1])
    (hbc : (⟨2, ![1, N]⟩ : Shape).BroadcastsInDim ⟨2, ![A, N]⟩ ![0, 1]) :
    addf (Host.dotGeneral (DotDims.plain A K N) none x w)
      (broadcastInDim ⟨2, ![A, N]⟩ ![0, 1] hbc (broadcastInDim ⟨2, ![1, N]⟩ ![1] hd b)) = dense A K N x w b := by
  funext j
  rw [addf_apply, bias_rows_host b hd hbc j]
  refine congrArg (· + b (ix1 (j 1 : Fin N))) ?_
  refine (Ideal.dotGeneral_apply (DotDims.plain A K N) none _ x w j).trans ?_
  exact plain_sum A K N x w j

/-- Entry (p, q) of the layer depends on row p only: two matrices that agree on a row give the same entry there. -/
theorem dense_row {A A' K N : Nat} (x : (⟨2, ![A, K]⟩ : Shape).Idx → EReal) (x' : (⟨2, ![A', K]⟩ : Shape).Idx → EReal)
    (w : (⟨2, ![K, N]⟩ : Shape).Idx → EReal) (b : (⟨1, ![N]⟩ : Shape).Idx → EReal) (p : Fin A) (r : Fin A') (q : Fin N)
    (h : ∀ k : Fin K, x (ix2 p k) = x' (ix2 r k)) :
    dense A K N x w b (ix2 p q) = dense A' K N x' w b (ix2 r q) := by
  show (∑ k : Fin K, x (ix2 p k) * w (ix2 k q)) + b (ix1 q) = (∑ k : Fin K, x' (ix2 r k) * w (ix2 k q)) + b (ix1 q)
  rw [Finset.sum_congr rfl fun k _ => by rw [h k]]

/-! ## gelu, tanh form -/

/-- gelu's tanh approximation on one extended real, the four f32 constants at their binary values. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The kernel's spelling, pointwise: splatted scalars, the cube as x * (x * x). -/
theorem gelu_kernel {s : Shape} (v : FVec Ideal s .f32) :
    mulf v (mulf (broadcast s (Scalar.ofBits (F := Ideal) .f32 0x3F000000#32))
      (addf (broadcast s (Scalar.ofBits (F := Ideal) .f32 0x3F800000#32))
        (tanh (mulf (broadcast s (Scalar.ofBits (F := Ideal) .f32 0x3F4C422A#32))
          (addf v (mulf (broadcast s (Scalar.ofBits (F := Ideal) .f32 0x3D372713#32)) (mulf v (mulf v v))))))))
      = fun j => gelu (v j) := rfl

/-- The host's spelling, pointwise: broadcast constants, the cube as (x * x) * x. -/
theorem gelu_host {s : Shape} (v : FVec Ideal s .f32) (hS : (⟨0, ![]⟩ : Shape).BroadcastsInDim s (![] : Fin 0 → Fin s.rank)) :
    mulf v (mulf (broadcastInDim s ![] hS (constant (F := Ideal) ⟨0, ![]⟩ .f32 0x3F000000#32))
      (addf (broadcastInDim s ![] hS (constant (F := Ideal) ⟨0, ![]⟩ .f32 0x3F800000#32))
        (Host.tanh (mulf (broadcastInDim s ![] hS (constant (F := Ideal) ⟨0, ![]⟩ .f32 0x3F4C422A#32))
          (addf v (mulf (broadcastInDim s ![] hS (constant (F := Ideal) ⟨0, ![]⟩ .f32 0x3D372713#32)) (mulf (mulf v v) v)))))))
      = fun j => gelu (v j) := by
  funext j
  show v j * (Ideal.ofBits .f32 0x3F000000#32 * (Ideal.ofBits .f32 0x3F800000#32
    + Ideal.tanh (Ideal.ofBits .f32 0x3F4C422A#32 * (v j + Ideal.ofBits .f32 0x3D372713#32 * ((v j * v j) * v j))))) = gelu (v j)
  rw [mul_comm (v j * v j) (v j)]
  rfl

end Cert.LibDense

end
-- ==== Proof.KerPayload.lean ====
/-
  The kernel body's one stored value, read at an index.

  At a grid point the body holds a [1, 8192, 128] block `x0` of packed features, an [8192, 128] block `x1` of packed
  table rows, the [128, 128] matrix `x2` and the [1, 128] bias row `x3`.  It stores, at row `r` and lane `l`,

      x0[0, r, l] + ( Σ_{k < 128} x1[r, k] · x2[k, l]  +  x3[0, l] ):

  narrowing the matrix product's operands to bf16 changes nothing at the ideal values, the product is accumulated
  into a zero splat, the bias row is repeated down the rows, and the [8192, 128] sum is viewed as one [1, 8192, 128] block.
-/
import proofs.«141609_j22247930593290_2_alg».proof.Proof.Gen.KernelIdeal.Skeleton
import proofs.«141609_j22247930593290_2_alg».proof.Proof.LibDense
import Idealize.ShloMosaic.Lib.ValueLayout
import Idealize.ShloMosaic.Lib.Pipeline.Value

noncomputable section

open scoped BigOperators

namespace Cert.KernelIdeal.KerValue

open Cert.KernelIdeal Cert.KernelIdeal.Facts₀ Idealize.ShloMosaic Idealize.ShloMosaic.ValueIdx
open Cert.KernelIdeal.Gen (k0_pay1)

/-- The matrix product of the body at row `r`, lane `l`: the sum over the 128 shared lanes. -/
theorem matmul_apply (x1 : FVec Ideal S8192x128 .f32) (x2 : FVec Ideal S128x128 .f32) (r : Fin 8192) (l : Fin 128) :
    matmul dot_S8192x128_S128x128_S8192x128_1_0_0_1_n_n none (truncf .bf16 x1 bitsLt_bf16_f32) (truncf .bf16 x2 bitsLt_bf16_f32)
        (constant S8192x128 .f32 0x00000000#32) (ix2 r l)
      = ∑ k : Fin 128, x1 (ix2 r k) * x2 (ix2 k l) := by
  refine (Ideal.matmul_constant_zero_apply (DotDims.plain 8192 128 128) none (truncf .bf16 x1 bitsLt_bf16_f32)
    (truncf .bf16 x2 bitsLt_bf16_f32) (ix2 r l)).trans ?_
  exact Cert.LibDense.plain_sum 8192 128 128 x1 x2 (ix2 r l)

/-- The stored value at row `r`, lane `l`. -/
theorem pay_apply (x1 : Vec Ideal S8192x128 .f32) (x2 : Vec Ideal S128x128 .f32) (x3 : Vec Ideal S1x128 .f32)
    (x0 : Vec Ideal S1x8192x128 .f32) (u : Fin 1) (r : Fin 8192) (l : Fin 128) :
    k0_pay1 x1 x2 x3 x0 (ix3 u r l)
      = x0 (ix3 u r l) + ((∑ k : Fin 128, x1 (ix2 r k) * x2 (ix2 k l)) + x3 (ix2 (0 : Fin 1) l)) := by
  unfold k0_pay1
  rw [shapeCast_self, shapeCast_self, shapeCast_self, shapeCast_self]
  refine (addf_apply _ _ _).trans ?_
  refine congrArg (x0 (ix3 u r l) + ·) ?_
  refine (shapeCast_ab_1ab_apply _ shapeCasts_S8192x128_S1x8192x128 u r l).trans ?_
  refine (addf_apply _ _ _).trans ?_
  refine congrArg₂ (· + ·) (matmul_apply x1 x2 r l) ?_
  exact broadcastTo_1b_ab_apply x3 broadcasts_S1x128_S8192x128 r l

end Cert.KernelIdeal.KerValue

end
-- ==== Proof.LibJoin.lean ====
/-
  Two matrices with the same number of rows joined along the lane axis, read at an index written by its coordinates:
  a lane inside the first matrix's width reads the first matrix at the same place, a later lane reads the second
  matrix at that lane less the first matrix's width. Both are the library's general reading of a two-piece
  concatenation with the coordinates worked out for rank two.
-/
import Idealize.ShloMosaic.Lib.Pipeline.Value
import Idealize.ShloMosaic.Lib.ValueIdx

namespace Cert.LibJoin

open Idealize.ShloMosaic Idealize.ShloMosaic.ValueIdx

variable {α : Type}

/-- Lane `j` of the join, when `j` lies in the first matrix: the first matrix at `(r, j)`. -/
theorem join_left {a b₁ b₂ c : ℕ} (x₁ : (⟨2, ![a, b₁]⟩ : Shape).Idx → α) (x₂ : (⟨2, ![a, b₂]⟩ : Shape).Idx → α)
    (h : Shape.Concatenates [(⟨2, ![a, b₁]⟩ : Shape), (⟨2, ![a, b₂]⟩ : Shape)] (⟨2, ![a, c]⟩ : Shape) 1)
    (r : Fin a) (j : Fin c) (j₁ : Fin b₁) (hj : j₁.val = j.val) :
    concatenate (⟨2, ![a, c]⟩ : Shape) 1 [⟨(⟨2, ![a, b₁]⟩ : Shape), x₁⟩, ⟨(⟨2, ![a, b₂]⟩ : Shape), x₂⟩] h (ix2 r j)
      = x₁ (ix2 r j₁) :=
  concatenate_pair_apply_left 1 x₁ x₂ h (ix2 r j) rfl (ix2 r j₁) fun d => by
    match d with
    | ⟨0, _⟩ => rfl
    | ⟨1, _⟩ => exact hj

/-- Lane `j` of the join, when `j` lies past the first matrix: the second matrix at `(r, j - b₁)`. -/
theorem join_right {a b₁ b₂ c : ℕ} (x₁ : (⟨2, ![a, b₁]⟩ : Shape).Idx → α) (x₂ : (⟨2, ![a, b₂]⟩ : Shape).Idx → α)
    (h : Shape.Concatenates [(⟨2, ![a, b₁]⟩ : Shape), (⟨2, ![a, b₂]⟩ : Shape)] (⟨2, ![a, c]⟩ : Shape) 1)
    (r : Fin a) (j : Fin c) (j₂ : Fin b₂) (hj : j₂.val + b₁ = j.val) :
    concatenate (⟨2, ![a, c]⟩ : Shape) 1 [⟨(⟨2, ![a, b₁]⟩ : Shape), x₁⟩, ⟨(⟨2, ![a, b₂]⟩ : Shape), x₂⟩] h (ix2 r j)
      = x₂ (ix2 r j₂) :=
  concatenate_pair_apply_right 1 x₁ x₂ h (ix2 r j) rfl rfl (ix2 r j₂)
    (fun d hd => by
      match d with
      | ⟨0, _⟩ => rfl
      | ⟨1, _⟩ => exact absurd rfl hd)
    hj

end Cert.LibJoin
-- ==== Proof.Spec.lean ====
/-
  The result both programs compute, index by index, over the extended reals.

  Position `n` of the 131072 positions is the voxel `(n div 2048, (n mod 2048) div 32, n mod 32)` of the
  64 × 64 × 32 grid (row-major order), and the result at batch `b`, position `n`, channel `c` is

      feat[b, n, c] + ( Σ_{k < 64} pe[voxel n, k] · W[c, k]  +  bias[c] ).
-/
import Idealize.ShloMosaic.PureOps.Ideal
import Idealize.ShloMosaic.Lib.ValueIdx

noncomputable section

open scoped BigOperators

namespace Cert.Spec

open Idealize.ShloMosaic Idealize.ShloMosaic.ValueIdx

abbrev SFeat : Shape := ⟨3, ![8, 131072, 64]⟩
abbrev SPe : Shape := ⟨4, ![64, 64, 32, 64]⟩
abbrev SW : Shape := ⟨2, ![64, 64]⟩
abbrev SB : Shape := ⟨1, ![64]⟩

/-- The first voxel coordinate of position `n`. -/
def vx (n : Fin 131072) : Fin 64 := ⟨n.val / 2048, by have := n.isLt; omega⟩
/-- The second voxel coordinate of position `n`. -/
def vy (n : Fin 131072) : Fin 64 := ⟨n.val % 2048 / 32, by omega⟩
/-- The third voxel coordinate of position `n`. -/
def vz (n : Fin 131072) : Fin 32 := ⟨n.val % 32, by omega⟩

/-- The projected table row of position `n` at channel `c`, plus the bias. -/
def proj (pe : FVec Ideal SPe .f32) (W : FVec Ideal SW .f32) (b : FVec Ideal SB .f32) (n : Fin 131072) (c : Fin 64) : EReal :=
  (∑ k : Fin 64, pe (ix4 (vx n) (vy n) (vz n) k) * W (ix2 c k)) + b (ix1 c)

/-- The result at batch `bb`, position `n`, channel `c`. -/
def Gc (feat : FVec Ideal SFeat .f32) (pe : FVec Ideal SPe .f32) (W : FVec Ideal SW .f32) (b : FVec Ideal SB .f32)
    (bb : Fin 8) (n : Fin 131072) (c : Fin 64) : EReal :=
  feat (ix3 bb n c) + proj pe W b n c

/-- The result array. -/
def G (feat : FVec Ideal SFeat .f32) (pe : FVec Ideal SPe .f32) (W : FVec Ideal SW .f32) (b : FVec Ideal SB .f32) :
    FVec Ideal SFeat .f32 :=
  fun i => Gc feat pe W b (i 0) (i 1) (i 2)

theorem G_apply (feat : FVec Ideal SFeat .f32) (pe : FVec Ideal SPe .f32) (W : FVec Ideal SW .f32) (b : FVec Ideal SB .f32)
    (bb : Fin 8) (n : Fin 131072) (c : Fin 64) : G feat pe W b (ix3 bb n c) = Gc feat pe W b bb n c := rfl

end Cert.Spec

end
-- ==== Proof.KerAlgebra.lean ====
/-
  Sums over 128 lanes that are really sums over 64.

  The kernel multiplies a 128-wide row (two adjacent 64-wide table rows side by side) by a 128 × 128 matrix that
  carries the 64 × 64 weight block twice on its diagonal and zeros elsewhere.  In every column of that matrix one
  half of the 128 entries is zero, so the 128-term sum of products is the 64-term sum over the other half: a
  product with zero is zero for every extended real, infinite ones included, and adding zero changes nothing.
-/
import Mathlib.Data.EReal.Basic
import Mathlib.Algebra.BigOperators.Fin

open scoped BigOperators

namespace Cert.KerAlgebra

/-- If the second factor vanishes on the upper 64 lanes, the 128-term sum is the sum over the lower 64 lanes. -/
theorem sum_lower (P Q : Fin 128 → EReal) (hQ : ∀ k : Fin 128, 64 ≤ k.val → Q k = 0) :
    ∑ k : Fin 128, P k * Q k = ∑ k : Fin 64, P ⟨k.val, by omega⟩ * Q ⟨k.val, by omega⟩ := by
  have hsplit := Fin.sum_univ_add (fun k : Fin (64 + 64) => P k * Q k)
  have hupper : ∑ i : Fin 64, P (Fin.natAdd 64 i) * Q (Fin.natAdd 64 i) = 0 :=
    Finset.sum_eq_zero fun i _ => by
      rw [hQ (Fin.natAdd 64 i) (by show 64 ≤ 64 + i.val; omega), mul_zero]
  refine hsplit.trans ?_
  rw [hupper, add_zero]
  exact Finset.sum_congr rfl fun i _ => rfl

/-- If the second factor vanishes on the lower 64 lanes, the 128-term sum is the sum over the upper 64 lanes. -/
theorem sum_upper (P Q : Fin 128 → EReal) (hQ : ∀ k : Fin 128, k.val < 64 → Q k = 0) :
    ∑ k : Fin 128, P k * Q k = ∑ k : Fin 64, P ⟨64 + k.val, by omega⟩ * Q ⟨64 + k.val, by omega⟩ := by
  have hsplit := Fin.sum_univ_add (fun k : Fin (64 + 64) => P k * Q k)
  have hlower : ∑ i : Fin 64, P (Fin.castAdd 64 i) * Q (Fin.castAdd 64 i) = 0 :=
    Finset.sum_eq_zero fun i _ => by
      rw [hQ (Fin.castAdd 64 i) (by show i.val < 64; omega), mul_zero]
  refine hsplit.trans ?_
  rw [hlower, zero_add]
  exact Finset.sum_congr rfl fun i _ => rfl

end Cert.KerAlgebra
-- ==== Proof.KerPack.lean ====
/-
  The packed layout the kernel works in, read at coordinates.

  Two adjacent positions 2r and 2r + 1 share one 128-lane row r: lane `l` of row `r` is channel `l mod 64` of
  position `2r + l div 64`.  The host program around the kernel makes four packed arrays — the features
  [8, 65536, 128], the table rows [65536, 128] (the [64, 64, 32, 64] table flattened row-major over its three voxel axes, then
  paired), the 128 × 128 matrix with the transposed weights twice on its diagonal and zeros elsewhere, and the bias
  twice in one row — and unpacks the kernel's [8, 65536, 128] result.  Every step is a row-major regrouping, a
  transpose or a join, so each packed array at an index is an argument array at an index computed by arithmetic.

  `packedResult` is what the kernel computes in this layout from ANY four packed arrays; `packedResult_eq` says that
  on the host's four it is the specification `Cert.Spec.Gc` at the unpacked position and channel: the 128-term
  sum of each row against a column of the block-diagonal matrix keeps only the 64 terms of the half the column lies in.
-/
import proofs.«141609_j22247930593290_2_alg».proof.KernelIdeal
import proofs.«141609_j22247930593290_2_alg».proof.Proof.Gen.KernelIdeal
import proofs.«141609_j22247930593290_2_alg».proof.Proof.LibJoin
import proofs.«141609_j22247930593290_2_alg».proof.Proof.Spec
import proofs.«141609_j22247930593290_2_alg».proof.Proof.KerAlgebra
import Idealize.ShloMosaic.Lib.ValueLayout
import Idealize.ShloMosaic.Lib.Pipeline.Value
import Idealize.ShloMosaic.PureOps.Ideal.Laws

noncomputable section

open scoped BigOperators

namespace Cert.KernelIdeal.KerValue

open Cert.KernelIdeal Cert.KernelIdeal.Facts₀ Idealize.ShloMosaic Idealize.ShloMosaic.ValueIdx Cert.Spec

/-- The position that lane `l` of packed row `r` belongs to. -/
def posOf (r : Fin 65536) (l : Fin 128) : Fin 131072 := ⟨2 * r.val + l.val / 64, by have := r.isLt; have := l.isLt; omega⟩
/-- The channel that lane `l` carries. -/
def chanOf (l : Fin 128) : Fin 64 := ⟨l.val % 64, by omega⟩

/-! ## The four packed arrays -/

/-- The features, two positions per row. -/
def packFeat (a0 : FVec Ideal S8x131072x64 .f32) : FVec Ideal S8x65536x128 .f32 :=
  shapeCast S8x65536x128 a0 shapeCasts_S8x131072x64_S8x65536x128

/-- The table flattened over its voxel axes, then two rows per packed row. -/
def packPe (a1 : FVec Ideal S64x64x32x64 .f32) : FVec Ideal S65536x128 .f32 :=
  shapeCast S65536x128 (shapeCast S131072x64 a1 shapeCasts_S64x64x32x64_S131072x64) shapeCasts_S131072x64_S65536x128

/-- A 64 × 64 block of zeros. -/
def zeros64 : FVec Ideal S64x64 .f32 :=
  broadcastInDim S64x64 ![] bcast_S_S64x64 (constant (F := Ideal) S_ .f32 0x00000000#32)

/-- The transposed weights twice on the diagonal of a 128 × 128 matrix, zeros elsewhere. -/
def blockDiag (a2 : FVec Ideal S64x64 .f32) : FVec Ideal S128x128 .f32 :=
  concatenate S128x128 0
    [⟨S64x128, concatenate S64x128 1
        [⟨S64x64, transpose S64x64 [1, 0] a2 transposes_S64x64_S64x64_1_0⟩, ⟨S64x64, zeros64⟩]
        concatenates_S64x64_S64x64_S64x128_d1⟩,
     ⟨S64x128, concatenate S64x128 1
        [⟨S64x64, zeros64⟩, ⟨S64x64, transpose S64x64 [1, 0] a2 transposes_S64x64_S64x64_1_0⟩]
        concatenates_S64x64_S64x64_S64x128_d1⟩]
    concatenates_S64x128_S64x128_S128x128_d0

/-- The bias twice, as one row. -/
def biasRow (a3 : FVec Ideal S64 .f32) : FVec Ideal S1x128 .f32 :=
  shapeCast S1x128 (concatenate S128 0 [⟨S64, a3⟩, ⟨S64, a3⟩] concatenates_S64_S64_S128_d0) shapeCasts_S128_S1x128

/-! ## Each packed array at an index -/

theorem packFeat_apply (a0 : FVec Ideal S8x131072x64 .f32) (b : Fin 8) (r : Fin 65536) (l : Fin 128) :
    packFeat a0 (ix3 b r l) = a0 (ix3 b (posOf r l) (chanOf l)) :=
  shapeCast_apply a0 shapeCasts_S8x131072x64_S8x65536x128 (ix3 b r l) (ix3 b (posOf r l) (chanOf l)) (by
    rw [Shape.rowMajor_val_three, Shape.rowMajor_val_three]
    show (b.val * 131072 + (2 * r.val + l.val / 64)) * 64 + l.val % 64 = (b.val * 65536 + r.val) * 128 + l.val
    omega)

theorem packPe_apply (a1 : FVec Ideal S64x64x32x64 .f32) (r : Fin 65536) (l : Fin 128) :
    packPe a1 (ix2 r l) = a1 (ix4 (vx (posOf r l)) (vy (posOf r l)) (vz (posOf r l)) (chanOf l)) := by
  unfold packPe
  refine (shapeCast_apply _ shapeCasts_S131072x64_S65536x128 (ix2 r l) (ix2 (posOf r l) (chanOf l)) ?_).trans
    (shapeCast_apply a1 shapeCasts_S64x64x32x64_S131072x64 (ix2 (posOf r l) (chanOf l))
      (ix4 (vx (posOf r l)) (vy (posOf r l)) (vz (posOf r l)) (chanOf l)) ?_)
  · rw [Shape.rowMajor_val_two, Shape.rowMajor_val_two]
    show (2 * r.val + l.val / 64) * 64 + l.val % 64 = r.val * 128 + l.val
    omega
  · rw [Shape.rowMajor_val_four, Shape.rowMajor_val_two]
    show (((2 * r.val + l.val / 64) / 2048 * 64 + (2 * r.val + l.val / 64) % 2048 / 32) * 32 + (2 * r.val + l.val / 64) % 32) * 64
        + l.val % 64 = (2 * r.val + l.val / 64) * 64 + l.val % 64
    omega

theorem zeros64_apply (i : S64x64.Idx) : zeros64 i = 0 := by
  show Ideal.ofBits .f32 0x00000000#32 = 0
  exact Ideal.ofBits_zero_f32

/-- The transposed weights at row `k`, column `l`. -/
theorem wt_apply (a2 : FVec Ideal S64x64 .f32) (k l : Fin 64) :
    transpose S64x64 [1, 0] a2 transposes_S64x64_S64x64_1_0 (ix2 k l) = a2 (ix2 l k) :=
  transpose_ix2_apply a2 transposes_S64x64_S64x64_1_0 k l

/-- Upper-left block: the transposed weights. -/
theorem blockDiag_ul (a2 : FVec Ideal S64x64 .f32) (k l : Fin 128) (hk : k.val < 64) (hl : l.val < 64) :
    blockDiag a2 (ix2 k l) = a2 (ix2 ⟨l.val, hl⟩ ⟨k.val, hk⟩) := by
  unfold blockDiag
  refine (concatenate_pair_apply_left 0 _ _ concatenates_S64x128_S64x128_S128x128_d0 (ix2 k l) rfl (ix2 (⟨k.val, hk⟩ : Fin 64) l)
    fun d => by match d with | ⟨0, _⟩ => rfl | ⟨1, _⟩ => rfl).trans ?_
  refine (Cert.LibJoin.join_left _ _ concatenates_S64x64_S64x64_S64x128_d1 (⟨k.val, hk⟩ : Fin 64) l (⟨l.val, hl⟩ : Fin 64) rfl).trans ?_
  exact wt_apply a2 _ _

/-- Upper-right block: zeros. -/
theorem blockDiag_ur (a2 : FVec Ideal S64x64 .f32) (k l : Fin 128) (hk : k.val < 64) (hl : 64 ≤ l.val) :
    blockDiag a2 (ix2 k l) = 0 := by
  unfold blockDiag
  refine (concatenate_pair_apply_left 0 _ _ concatenates_S64x128_S64x128_S128x128_d0 (ix2 k l) rfl (ix2 (⟨k.val, hk⟩ : Fin 64) l)
    fun d => by match d with | ⟨0, _⟩ => rfl | ⟨1, _⟩ => rfl).trans ?_
  refine (Cert.LibJoin.join_right _ _ concatenates_S64x64_S64x64_S64x128_d1 (⟨k.val, hk⟩ : Fin 64) l
    (⟨l.val - 64, by have := l.isLt; omega⟩ : Fin 64) (by show l.val - 64 + 64 = l.val; omega)).trans ?_
  exact zeros64_apply _

/-- Lower-left block: zeros. -/
theorem blockDiag_ll (a2 : FVec Ideal S64x64 .f32) (k l : Fin 128) (hk : 64 ≤ k.val) (hl : l.val < 64) :
    blockDiag a2 (ix2 k l) = 0 := by
  unfold blockDiag
  refine (concatenate_pair_apply_right 0 _ _ concatenates_S64x128_S64x128_S128x128_d0 (ix2 k l) rfl rfl
    (ix2 (⟨k.val - 64, by have := k.isLt; omega⟩ : Fin 64) l)
    (fun d hd => by match d with | ⟨0, _⟩ => exact absurd rfl hd | ⟨1, _⟩ => rfl)
    (by show k.val - 64 + 64 = k.val; omega)).trans ?_
  refine (Cert.LibJoin.join_left _ _ concatenates_S64x64_S64x64_S64x128_d1 _ l (⟨l.val, hl⟩ : Fin 64) rfl).trans ?_
  exact zeros64_apply _

/-- Lower-right block: the transposed weights again. -/
theorem blockDiag_lr (a2 : FVec Ideal S64x64 .f32) (k l : Fin 128) (hk : 64 ≤ k.val) (hl : 64 ≤ l.val) :
    blockDiag a2 (ix2 k l)
      = a2 (ix2 ⟨l.val - 64, by have := l.isLt; omega⟩ ⟨k.val - 64, by have := k.isLt; omega⟩) := by
  unfold blockDiag
  refine (concatenate_pair_apply_right 0 _ _ concatenates_S64x128_S64x128_S128x128_d0 (ix2 k l) rfl rfl
    (ix2 (⟨k.val - 64, by have := k.isLt; omega⟩ : Fin 64) l)
    (fun d hd => by match d with | ⟨0, _⟩ => exact absurd rfl hd | ⟨1, _⟩ => rfl)
    (by show k.val - 64 + 64 = k.val; omega)).trans ?_
  refine (Cert.LibJoin.join_right _ _ concatenates_S64x64_S64x64_S64x128_d1 _ l
    (⟨l.val - 64, by have := l.isLt; omega⟩ : Fin 64) (by show l.val - 64 + 64 = l.val; omega)).trans ?_
  exact wt_apply a2 _ _

/-- The bias row at lane `l`: the bias at the lane's channel. -/
theorem biasRow_apply (a3 : FVec Ideal S64 .f32) (u : Fin 1) (l : Fin 128) : biasRow a3 (ix2 u l) = a3 (ix1 (chanOf l)) := by
  unfold biasRow
  refine (shapeCast_a_1a_apply _ shapeCasts_S128_S1x128 u l).trans ?_
  by_cases hl : l.val < 64
  · refine (concatenate_pair_apply_left 0 a3 a3 concatenates_S64_S64_S128_d0 (ix1 l) rfl (ix1 (chanOf l))
      fun d => by match d with | ⟨0, _⟩ => (show l.val % 64 = l.val; omega))
  · refine (concatenate_pair_apply_right 0 a3 a3 concatenates_S64_S64_S128_d0 (ix1 l) rfl rfl (ix1 (chanOf l))
      (fun d hd => by match d with | ⟨0, _⟩ => exact absurd rfl hd)
      (by show l.val % 64 + 64 = l.val; have := l.isLt; omega))

/-! ## The kernel's result in the packed layout -/

/-- What the kernel leaves at batch `b`, packed row `r`, lane `l`, from any four packed arrays. -/
def packedResult (f : FVec Ideal S8x65536x128 .f32) (p : FVec Ideal S65536x128 .f32) (w : FVec Ideal S128x128 .f32)
    (bias : FVec Ideal S1x128 .f32) : FVec Ideal S8x65536x128 .f32 :=
  fun i => f i + ((∑ k : Fin 128, p (ix2 (i 1 : Fin 65536) k) * w (ix2 k (i 2 : Fin 128))) + bias (ix2 (0 : Fin 1) (i 2 : Fin 128)))

/-- The 128-term sum of a packed table row against a column of the block-diagonal matrix is the 64-term sum of the
    column's own half of the row against the weights. -/
theorem packed_sum (a1 : FVec Ideal S64x64x32x64 .f32) (a2 : FVec Ideal S64x64 .f32) (r : Fin 65536) (l : Fin 128) :
    ∑ k : Fin 128, packPe a1 (ix2 r k) * blockDiag a2 (ix2 k l)
      = ∑ k : Fin 64, a1 (ix4 (vx (posOf r l)) (vy (posOf r l)) (vz (posOf r l)) k) * a2 (ix2 (chanOf l) k) := by
  by_cases hl : l.val < 64
  · refine (Cert.KerAlgebra.sum_lower (fun k => packPe a1 (ix2 r k)) (fun k => blockDiag a2 (ix2 k l))
      fun k hk => blockDiag_ll a2 k l hk hl).trans ?_
    refine Finset.sum_congr rfl fun k _ => ?_
    have hp : posOf r (⟨k.val, by omega⟩ : Fin 128) = posOf r l := Fin.ext (by
      show 2 * r.val + k.val / 64 = 2 * r.val + l.val / 64; have := k.isLt; omega)
    have hc : chanOf (⟨k.val, by omega⟩ : Fin 128) = k := Fin.ext (by show k.val % 64 = k.val; have := k.isLt; omega)
    have hcl : (⟨l.val, hl⟩ : Fin 64) = chanOf l := Fin.ext (by show l.val = l.val % 64; omega)
    show packPe a1 (ix2 r ⟨k.val, _⟩) * blockDiag a2 (ix2 ⟨k.val, _⟩ l) = _
    rw [packPe_apply, blockDiag_ul a2 _ l (by show k.val < 64; exact k.isLt) hl, hp, hc, hcl]
  · have hl' : 64 ≤ l.val := Nat.le_of_not_lt hl
    refine (Cert.KerAlgebra.sum_upper (fun k => packPe a1 (ix2 r k)) (fun k => blockDiag a2 (ix2 k l))
      fun k hk => blockDiag_ur a2 k l hk hl').trans ?_
    refine Finset.sum_congr rfl fun k _ => ?_
    have hp : posOf r (⟨64 + k.val, by omega⟩ : Fin 128) = posOf r l := Fin.ext (by
      show 2 * r.val + (64 + k.val) / 64 = 2 * r.val + l.val / 64; have := k.isLt; have := l.isLt; omega)
    have hc : chanOf (⟨64 + k.val, by omega⟩ : Fin 128) = k := Fin.ext (by show (64 + k.val) % 64 = k.val; have := k.isLt; omega)
    have hcl : (⟨l.val - 64, by have := l.isLt; omega⟩ : Fin 64) = chanOf l := Fin.ext (by
      show l.val - 64 = l.val % 64; have := l.isLt; omega)
    have hck : (⟨64 + k.val - 64, by have := k.isLt; omega⟩ : Fin 64) = k := Fin.ext (by show 64 + k.val - 64 = k.val; omega)
    show packPe a1 (ix2 r ⟨64 + k.val, _⟩) * blockDiag a2 (ix2 ⟨64 + k.val, _⟩ l) = _
    rw [packPe_apply, blockDiag_lr a2 _ l (by show 64 ≤ 64 + k.val; omega) hl', hp, hc, hcl, hck]

/-- On the host's four packed arrays the kernel's packed result is the specification at the unpacked position
    and channel. -/
theorem packedResult_eq (a0 : FVec Ideal S8x131072x64 .f32) (a1 : FVec Ideal S64x64x32x64 .f32) (a2 : FVec Ideal S64x64 .f32)
    (a3 : FVec Ideal S64 .f32) (b : Fin 8) (r : Fin 65536) (l : Fin 128) :
    packedResult (packFeat a0) (packPe a1) (blockDiag a2) (biasRow a3) (ix3 b r l) = Gc a0 a1 a2 a3 b (posOf r l) (chanOf l) := by
  show packFeat a0 (ix3 b r l) + ((∑ k : Fin 128, packPe a1 (ix2 r k) * blockDiag a2 (ix2 k l)) + biasRow a3 (ix2 (0 : Fin 1) l)) = _
  rw [packFeat_apply, packed_sum, biasRow_apply]
  rfl

end Cert.KernelIdeal.KerValue

end
-- ==== Proof.KerBlocks.lean ====
/-
  From the blocks the grid points write to the kernel's whole result array.

  The grid is 8 × 8: point `t` has a row-tile number `j` and a batch number `i`.  It reads block (i, j) of the
  packed features ([1, 8192, 128]: batch i, packed rows 8192·j … 8192·j + 8191), block j of the packed table (the
  same rows), the whole 128 × 128 matrix and the whole bias row, and writes block (i, j) of the result.  An element of
  a block sits in its array at block number × block extent + its coordinate inside the block, axis by axis.  So what
  point `t` writes is block `t` of ONE whole-array function (`packedResult` of the four arrays as the region
  finds them), and since the 64 blocks tile the [8, 65536, 128] result, the result array ends as that function.
-/
import proofs.«141609_j22247930593290_2_alg».proof.Proof.Gen.KernelIdeal.Frame
import proofs.«141609_j22247930593290_2_alg».proof.Proof.KerPayload
import proofs.«141609_j22247930593290_2_alg».proof.Proof.KerPack
import Idealize.ShloMosaic.Lib.Pipeline.Value

set_option maxRecDepth 16384

noncomputable section

open scoped BigOperators

namespace Cert.KernelIdeal.KerValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (c : Dev nD)

theorem zero2 : (![0, 0] : Fin 2 → Nat) = fun _ => 0 := funext fun a => by fin_cases a <;> rfl
theorem zero3 : (![0, 0, 0] : Fin 3 → Nat) = fun _ => 0 := funext fun a => by fin_cases a <;> rfl

/-- The printed index maps over the grid: the feature window moves with the result window; the table window's one
    moving block number is the result window's row-tile number; the matrix and the bias stay put; and the result
    window's block numbers stay below 8. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0 ∧ win0_4.index t (2 : Fin 3) = 0
    ∧ win0_1.index t (0 : Fin 2) = win0_4.index t (1 : Fin 3) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) ≤ 7 ∧ win0_4.index t (1 : Fin 3) ≤ 7 :=
  (by decide +kernel : ∀ t : Fin grid0.N, _)

/-- Every (batch, row-tile) pair is some point's. -/
theorem idx_onto : ∀ (q0 : Fin 8) (q1 : Fin 8), ∃ t : Fin cfg0.N, win0_4.index t = ![q0.val, q1.val, 0] :=
  (by decide +kernel : ∀ (q0 : Fin 8) (q1 : Fin 8), ∃ t : Fin grid0.N, win0_4.index t = ![q0.val, q1.val, 0])

/-- The packed row of the arrays that row `r` of point `t`'s blocks is. -/
def rowAt (t : Fin cfg0.N) (r : Fin 8192) : Fin 65536 :=
  ⟨win0_4.index t (1 : Fin 3) * 8192 + r.val, by
    obtain ⟨-, -, -, -, -, -, -, -, -, -, -, e11⟩ := idx_facts t; have := r.isLt; omega⟩

/-- The batch of point `t`. -/
def batchAt (t : Fin cfg0.N) : Fin 8 :=
  ⟨win0_4.index t (0 : Fin 3), by obtain ⟨-, -, -, -, -, -, -, -, -, -, e10, -⟩ := idx_facts t; omega⟩

/-- Where element (u, r, l) of point `t`'s result block sits in the result array. -/
theorem emb_out (t : Fin cfg0.N) (u : Fin 1) (r : Fin 8192) (l : Fin 128) :
    ((cfg0.win 4).blk t).view.emb (ix3 u r l) = ix3 (batchAt t) (rowAt t r) l := by
  obtain ⟨e0, e1, e2, e3, e4, e5, e6, e7, e8, e9, e10, e11⟩ := idx_facts t
  funext a; apply Fin.ext
  match a with
  | ⟨0, _⟩ => show win0_4.index t (0 : Fin 3) * 1 + 1 * u.val = win0_4.index t (0 : Fin 3); have := u.isLt; omega
  | ⟨1, _⟩ => show win0_4.index t (1 : Fin 3) * 8192 + 1 * r.val = win0_4.index t (1 : Fin 3) * 8192 + r.val; omega
  | ⟨2, _⟩ => show win0_4.index t (2 : Fin 3) * 128 + 1 * l.val = l.val; omega

/-- The feature block of point `t` at (u, r, l). -/
theorem blk_feat (t : Fin cfg0.N) (u : Fin 1) (r : Fin 8192) (l : Fin 128) :
    iblk m c 0 t (ix3 u r l) = V m c main_v1 (ix3 (batchAt t) (rowAt t r) l) := by
  obtain ⟨e0, e1, e2, e3, e4, e5, e6, e7, e8, e9, e10, e11⟩ := idx_facts t
  show V m c main_v1 (((cfg0.win 0).blk t).view.emb (ix3 u r l)) = V m c main_v1 (ix3 (batchAt t) (rowAt t r) l)
  refine congrArg _ (funext fun a => Fin.ext ?_)
  match a with
  | ⟨0, _⟩ => show win0_0.index t (0 : Fin 3) * 1 + 1 * u.val = win0_4.index t (0 : Fin 3); have := u.isLt; omega
  | ⟨1, _⟩ => show win0_0.index t (1 : Fin 3) * 8192 + 1 * r.val = win0_4.index t (1 : Fin 3) * 8192 + r.val; omega
  | ⟨2, _⟩ => show win0_0.index t (2 : Fin 3) * 128 + 1 * l.val = l.val; omega

/-- The table block of point `t` at (r, k). -/
theorem blk_pe (t : Fin cfg0.N) (r : Fin 8192) (k : Fin 128) :
    iblk m c 1 t (ix2 r k) = V m c main_v2 (ix2 (rowAt t r) k) := by
  obtain ⟨e0, e1, e2, e3, e4, e5, e6, e7, e8, e9, e10, e11⟩ := idx_facts t
  show V m c main_v2 (((cfg0.win 1).blk t).view.emb (ix2 r k)) = V m c main_v2 (ix2 (rowAt t r) k)
  refine congrArg _ (funext fun a => Fin.ext ?_)
  match a with
  | ⟨0, _⟩ => show win0_1.index t (0 : Fin 2) * 8192 + 1 * r.val = win0_4.index t (1 : Fin 3) * 8192 + r.val; omega
  | ⟨1, _⟩ => show win0_1.index t (1 : Fin 2) * 128 + 1 * k.val = k.val; omega

/-- The matrix block of every point is the whole matrix. -/
theorem blk_w (t : Fin cfg0.N) (k l : Fin 128) : iblk m c 2 t (ix2 k l) = V m c main_v7 (ix2 k l) := by
  obtain ⟨e0, e1, e2, e3, e4, e5, e6, e7, e8, e9, e10, e11⟩ := idx_facts t
  show V m c main_v7 (((cfg0.win 2).blk t).view.emb (ix2 k l)) = V m c main_v7 (ix2 k l)
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * l.val = l.val; omega

/-- The bias block of every point is the whole bias row. -/
theorem blk_bias (t : Fin cfg0.N) (u : Fin 1) (l : Fin 128) : iblk m c 3 t (ix2 u l) = V m c main_v9 (ix2 u l) := by
  obtain ⟨e0, e1, e2, e3, e4, e5, e6, e7, e8, e9, e10, e11⟩ := idx_facts t
  show V m c main_v9 (((cfg0.win 3).blk t).view.emb (ix2 u l)) = V m c main_v9 (ix2 u l)
  refine congrArg _ (funext fun a => Fin.ext ?_)
  match a with
  | ⟨0, _⟩ => show win0_3.index t (0 : Fin 2) * 1 + 1 * u.val = u.val; omega
  | ⟨1, _⟩ => show win0_3.index t (1 : Fin 2) * 128 + 1 * l.val = l.val; omega

/-- The packed result at batch `b`, packed row `r`, lane `l`, spelt out. -/
theorem packedResult_apply (f : FVec Ideal S8x65536x128 .f32) (p : FVec Ideal S65536x128 .f32) (w : FVec Ideal S128x128 .f32)
    (bias : FVec Ideal S1x128 .f32) (b : Fin 8) (r : Fin 65536) (l : Fin 128) :
    packedResult f p w bias (ix3 b r l)
      = f (ix3 b r l) + ((∑ k : Fin 128, p (ix2 r k) * w (ix2 k l)) + bias (ix2 (0 : Fin 1) l)) := rfl

/-- WHAT POINT `t` WRITES BACK is block `t` of the packed result of the four arrays as the region finds them. -/
theorem flushed_eq (t : Fin cfg0.N) :
    (dats m 0 c).flushed 4 t = ((cfg0.win 4).blk t).view.read (Elt Ideal)
      (packedResult (V m c main_v1) (V m c main_v2) (V m c main_v7) (V m c main_v9)) := by
  show (cfg0.win 4).cut (grid0.coords t) ((dats m 0 c).after 4 t) = _
  rw [after0_4]
  unfold out0_4
  rw [View.canon_unit_zero zero3]
  simp only [View.ld_unit_zero (S := S8192x128) zero2, View.ld_unit_zero (S := S128x128) zero2,
    View.ld_unit_zero (S := S1x128) zero2, View.ld_unit_zero (S := S1x8192x128) zero3]
  funext y
  obtain ⟨u, r, l, rfl⟩ : ∃ (u : Fin 1) (r : Fin 8192) (l : Fin 128), y = ix3 u r l := ⟨y 0, y 1, y 2, eq_ix3 y⟩
  show k0_pay1 (iblk m c 1 t) (iblk m c 2 t) (iblk m c 3 t) (iblk m c 0 t) (ix3 u r l)
    = packedResult (V m c main_v1) (V m c main_v2) (V m c main_v7) (V m c main_v9) (((cfg0.win 4).blk t).view.emb (ix3 u r l))
  refine (pay_apply (iblk m c 1 t) (iblk m c 2 t) (iblk m c 3 t) (iblk m c 0 t) u r l).trans ?_
  rw [emb_out t u r l]
  refine Eq.trans ?_ (packedResult_apply (V m c main_v1) (V m c main_v2) (V m c main_v7) (V m c main_v9)
    (batchAt t) (rowAt t r) l).symm
  rw [blk_feat m c t u r l, blk_bias m c t 0 l]
  refine congrArg₂ (· + ·) rfl (congrArg₂ (· + ·) (Finset.sum_congr rfl fun k _ => ?_) rfl)
  rw [blk_pe m c t r k, blk_w m c t k l]

/-- An index of the result array is in point `t`'s block iff each coordinate is in the block's range on its axis. -/
theorem mem_blk (t : Fin cfg0.N) (i : S8x65536x128.Idx) :
    i ∈ ((cfg0.win 4).blk t).view.set ↔ ∀ a : Fin 3, win0_4.index t a * S1x8192x128.size a ≤ (i a).val
      ∧ (i a).val < win0_4.index t a * S1x8192x128.size a + S1x8192x128.size a := by
  show i ∈ ((View.whole main_v10).slice (win0_4.rect t)).set ↔ _
  rw [View.set_slice_whole, Rect.mem_set_unit]
  exact Iff.rfl

/-- The 64 blocks tile the result array: index (b, R, l) is in the block of batch b, row tile R div 8192. -/
theorem cover (i : S8x65536x128.Idx) :
    ∃ t : Fin cfg0.N, (cfg0.win 4).flush t = true ∧ i ∈ ((cfg0.win 4).blk t).view.set := by
  have hi0 : (i 0).val < 8 := (i 0).isLt
  have hi1 : (i 1).val < 65536 := (i 1).isLt
  have hi2 : (i 2).val < 128 := (i 2).isLt
  obtain ⟨t, ht⟩ := idx_onto ⟨(i 0).val, hi0⟩ ⟨(i 1).val / 8192, by omega⟩
  have q0 : win0_4.index t (0 : Fin 3) = (i 0).val := congrFun ht 0
  have q1 : win0_4.index t (1 : Fin 3) = (i 1).val / 8192 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 8192 ≤ (i 1).val ∧ (i 1).val < win0_4.index t (1 : Fin 3) * 8192 + 8192; omega
  | ⟨2, _⟩ => show win0_4.index t (2 : Fin 3) * 128 ≤ (i 2).val ∧ (i 2).val < win0_4.index t (2 : Fin 3) * 128 + 128; omega

/-- THE RESULT ARRAY after the region: the packed result of the four arrays as the region finds them. -/
theorem final : (dats m 0 c).arrAt 4 cfg0.N
    = packedResult (V m c main_v1) (V m c main_v2) (V m c main_v7) (V m c main_v9) :=
  (dats m 0 c).arrAt_eq_of_cover 4 _ (fun t _ => flushed_eq m c t) cover

end Cert.KernelIdeal.KerValue

end
-- ==== Proof.KerHost.lean ====
/-
  What the kernel's region finds in its four input arrays.

  The host operations before the region write the packed features, the packed table, the block-diagonal matrix and
  the doubled bias row; each is a fixed composition of regroupings, a transpose and joins of the program's argument
  arrays — the four functions of the packing module, applied to the arguments as launched.
-/
import proofs.«141609_j22247930593290_2_alg».proof.Proof.Gen.KernelIdeal.Frame
import proofs.«141609_j22247930593290_2_alg».proof.Proof.KerPack
import Idealize.ShloMosaic.Lib.StableHlo.Run

noncomputable section

namespace Cert.KernelIdeal.KerValue

open Cert.KernelIdeal Cert.KernelIdeal.Facts₀ Idealize.ShloMosaic Idealize.ShloMosaic.TcCoe Idealize.SL.Sem
open Cert.KernelIdeal.Gen (V hostOps0)

variable (m : (ℓ : Loc nD τ sig) → Buf (Elt Ideal) ℓ) (c : Dev nD)

/-- Window 0's array: the packed features. -/
theorem V_feat : (V m c main_v1 : S8x65536x128.Idx → EReal) = packFeat (m ((c : Thread nD τ).loc main_arg0)) := by
  show StableHlo.after hostOps0 (fun b => m (c, b)) (Proc.devRef .tc main_v1) = _
  after_results
  rfl

/-- Window 1's array: the packed table. -/
theorem V_pe : (V m c main_v2 : S65536x128.Idx → EReal) = packPe (m ((c : Thread nD τ).loc main_arg1)) := by
  show StableHlo.after hostOps0 (fun b => m (c, b)) (Proc.devRef .tc main_v2) = _
  after_results
  rfl

/-- Window 2's array: the block-diagonal matrix. -/
theorem V_w : (V m c main_v7 : S128x128.Idx → EReal) = blockDiag (m ((c : Thread nD τ).loc main_arg2)) := by
  show StableHlo.after hostOps0 (fun b => m (c, b)) (Proc.devRef .tc main_v7) = _
  after_results
  rfl

/-- Window 3's array: the doubled bias row. -/
theorem V_bias : (V m c main_v9 : S1x128.Idx → EReal) = biasRow (m ((c : Thread nD τ).loc main_arg3)) := by
  show StableHlo.after hostOps0 (fun b => m (c, b)) (Proc.devRef .tc main_v9) = _
  after_results
  rfl

end Cert.KernelIdeal.KerValue

end
-- ==== Proof.KerRun.lean ====
/-
  The kernel program's run, read: its result array is the specification of its argument arrays.

  After the region the one remaining host operation regroups the [8, 65536, 128] packed result row-major into
  [8, 131072, 64]: position `n`, channel `c` is lane `(n mod 2)·64 + c` of packed row `n div 2`.  Unpacking the
  packed result of the host's four packed arrays gives the specification index by index.
-/
import proofs.«141609_j22247930593290_2_alg».proof.Proof.KerBlocks
import proofs.«141609_j22247930593290_2_alg».proof.Proof.KerHost
import Idealize.ShloMosaic.Lib.StableHlo.Run

noncomputable section

namespace Cert.KernelIdeal.KerValue

open Cert.KernelIdeal Cert.KernelIdeal.Facts₀ Idealize.ShloMosaic Idealize.ShloMosaic.TcCoe Idealize.SL.Sem
open Idealize.ShloMosaic.ValueIdx
open Cert.KernelIdeal.Gen (V V0 dats hostOps1 run_main launch0 W_main_arg0 W_main_arg1 W_main_arg2 W_main_arg3)

/-- Unpacking the packed result of the host's four packed arrays is the specification. -/
theorem unpack_eq (a0 : FVec Ideal S8x131072x64 .f32) (a1 : FVec Ideal S64x64x32x64 .f32) (a2 : FVec Ideal S64x64 .f32)
    (a3 : FVec Ideal S64 .f32) :
    shapeCast S8x131072x64 (packedResult (packFeat a0) (packPe a1) (blockDiag a2) (biasRow a3)) shapeCasts_S8x65536x128_S8x131072x64
      = Cert.Spec.G a0 a1 a2 a3 := by
  funext i
  obtain ⟨b, n, ch, rfl⟩ : ∃ (b : Fin 8) (n : Fin 131072) (ch : Fin 64), i = ix3 b n ch := ⟨i 0, i 1, i 2, eq_ix3 i⟩
  have hr : n.val / 2 < 65536 := by have := n.isLt; omega
  have hl : n.val % 2 * 64 + ch.val < 128 := by have := ch.isLt; omega
  refine (shapeCast_apply _ shapeCasts_S8x65536x128_S8x131072x64 (ix3 b n ch)
    (ix3 b (⟨n.val / 2, hr⟩ : Fin 65536) (⟨n.val % 2 * 64 + ch.val, hl⟩ : Fin 128)) ?_).trans ?_
  · rw [Shape.rowMajor_val_three, Shape.rowMajor_val_three]
    show (b.val * 65536 + n.val / 2) * 128 + (n.val % 2 * 64 + ch.val) = (b.val * 131072 + n.val) * 64 + ch.val
    omega
  · rw [packedResult_eq]
    have hp : posOf (⟨n.val / 2, hr⟩ : Fin 65536) (⟨n.val % 2 * 64 + ch.val, hl⟩ : Fin 128) = n := Fin.ext (by
      show 2 * (n.val / 2) + (n.val % 2 * 64 + ch.val) / 64 = n.val; have := ch.isLt; omega)
    have hc : chanOf (⟨n.val % 2 * 64 + ch.val, hl⟩ : Fin 128) = ch := Fin.ext (by
      show (n.val % 2 * 64 + ch.val) % 64 = ch.val; have := ch.isLt; omega)
    rw [hp, hc]
    rfl

variable (m : (ℓ : Loc nD τ sig) → Buf (Elt Ideal) ℓ)

/-- The program's result buffer after the host operation that follows the region: the specification of the
    argument arrays as launched. -/
theorem tail_eq (c : Dev nD) :
    Pipeline.afterTail₀ cfgs (dats m) 0 (V0 m) [hostOps1] c main_v11
      = Cert.Spec.G (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v11) = _
  after_results
  rw [(Pipeline.withArrays_arr spec0 launch0.win.arr_inj c _ _ 4).trans (final m c), V_feat, V_pe, V_w, V_bias]
  exact unpack_eq _ _ _ _

/-- Every weakly fair execution of the idealized kernel program terminates with its result array at the
    specification of the argument arrays and the argument arrays unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v11)
          = Cert.Spec.G (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v11 (Pipeline.mem_restRefs_of main_v11 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.KerValue

end
-- ==== Proof.RefTerm.lean ====
/-
  The reference program's result as ONE pure term of its four argument arrays.

  The reference computes positions `0 … 131071`, splits each position `p` into the three voxel coordinates
  `p div 2048`, `(p mod 2048) div 32`, `p mod 32` with jnp's floor division and floor remainder on 32-bit signed
  words (each lowered to a truncated quotient / remainder and a correcting select), wraps a negative coordinate by the
  axis length, gathers the row of the table at those three coordinates, multiplies the gathered rows by the transposed
  weight matrix, adds the bias along the rows and adds the result to every batch slice of the features.

  The definitions below spell that composition once: `floorDiv`, `floorRem`, `wrapNeg` (integer vectors),
  `startIdx` (the [131072, 3] array of start indices, a closed term) and `out` (the result array).
-/
import proofs.«141609_j22247930593290_2_alg».proof.ReferenceIdeal
import proofs.«141609_j22247930593290_2_alg».proof.Proof.Gen.ReferenceIdeal

noncomputable section

namespace Cert.ReferenceIdeal.RefValue

open Cert.ReferenceIdeal Cert.ReferenceIdeal.Facts₀ Idealize.ShloMosaic

variable {F : FTy → Type} [FloatOps F]

/-- A scalar word repeated along the 131072 positions. -/
abbrev rep {α : Type} (x : S_.Idx → α) : S131072.Idx → α := broadcastInDim S131072 ![] bcast_S_S131072 x

/-- A vector of 131072 words as the one column of a [131072, 1] array. -/
abbrev col {α : Type} (x : S131072.Idx → α) : S131072x1.Idx → α := broadcastInDim S131072x1 ![0] bcast_S131072_S131072x1_0 x

/-- Floor division of each word by the scalar `d`, as jnp lowers it: the quotient truncated toward zero, less one
    where dividend and divisor differ in sign and the remainder is not zero. -/
def floorDiv (x : IVec S131072 32) (d : IVec S_ 32) : IVec S131072 32 :=
  select
    (andi (cmpi .ne (signi x) (rep (signi d)))
          (cmpi .ne (Host.remsi x (rep d)) (rep (constantI S_ 32 0#32))))
    (subi (Host.divsi x (rep d)) (rep (constantI S_ 32 1#32)))
    (Host.divsi x (rep d))

/-- The divisor a floor remainder really divides by: one in place of zero. -/
def safeDiv (d : IVec S_ 32) : IVec S_ 32 :=
  select (cmpi .eq d (constantI S_ 32 0#32)) (constantI S_ 32 1#32) d

/-- Floor remainder of each word by the scalar `d`, as jnp lowers it: the truncated remainder, plus the divisor
    where the remainder is not zero and its sign differs from the divisor's. -/
def floorRem (x : IVec S131072 32) (d : IVec S_ 32) : IVec S131072 32 :=
  select
    (andi (cmpi .ne (cmpi .slt (Host.remsi x (rep (safeDiv d))) (rep (constantI S_ 32 0#32)))
                    (rep (cmpi .slt (safeDiv d) (constantI S_ 32 0#32))))
          (cmpi .ne (Host.remsi x (rep (safeDiv d))) (rep (constantI S_ 32 0#32))))
    (addi (Host.remsi x (rep (safeDiv d))) (rep (safeDiv d)))
    (Host.remsi x (rep (safeDiv d)))

/-- A negative coordinate counted from the end of an axis of length `k`. -/
def wrapNeg (x : IVec S131072 32) (k : BitVec 32) : IVec S131072 32 :=
  select (cmpi .slt x (rep (constantI S_ 32 0#32))) (addi x (rep (constantI S_ 32 k))) x

/-- The positions `0 … 131071`. -/
abbrev pos : IVec S131072 32 := iotaInDim S131072 32 0

/-- The start indices of the gather: row `p` holds the three voxel coordinates of position `p`. -/
def startIdx : IVec S131072x3 32 :=
  concatenate S131072x3 1
    [⟨S131072x1, col (wrapNeg (floorDiv pos (constantI S_ 32 2048#32)) 64#32)⟩,
     ⟨S131072x1, col (wrapNeg (floorDiv (floorRem pos (constantI S_ 32 2048#32)) (constantI S_ 32 32#32)) 64#32)⟩,
     ⟨S131072x1, col (wrapNeg (floorRem pos (constantI S_ 32 32#32)) 32#32)⟩]
    concatenates_S131072x1_S131072x1_S131072x1_S131072x3_d1

/-- The reference's result array as a function of its argument arrays: features plus, on every batch slice, the
    gathered table rows times the transposed weights plus the bias. -/
def out (a0 : FVec F S8x131072x64 .f32) (a1 : FVec F S64x64x32x64 .f32) (a2 : FVec F S64x64 .f32) (a3 : FVec F S64 .f32) :
    FVec F S8x131072x64 .f32 :=
  addf a0
    (broadcastInDim S8x131072x64 ![0, 1, 2] bcast_S1x131072x64_S8x131072x64_0_1_2
      (broadcastInDim S1x131072x64 ![1, 2] bcast_S131072x64_S1x131072x64_1_2
        (addf
          (Host.dotGeneral dot_S131072x64_S64x64_S131072x64_1_0_0_1_n_n none
            (Host.gather gather_S64x64x32x64_S131072x3_S131072x64_1_012_n_n_012_1_11164 a1 startIdx)
            (transpose S64x64 [1, 0] a2 transposes_S64x64_S64x64_1_0))
          (broadcastInDim S131072x64 ![0, 1] bcast_S1x64_S131072x64_0_1
            (broadcastInDim S1x64 ![1] bcast_S64_S1x64_1 a3)))))

end Cert.ReferenceIdeal.RefValue

end
-- ==== Proof.RefRun.lean ====
/-
  The reference program's run, read back as one pure term.

  @main is a straight line of 115 host operations once the outlined functions (floor division, floor remainder
  and the two selects they call) are unfolded at their four call sites. The line is listed once (`ops`) and cut into six
  pieces: the positions and their floor quotient by 2048; the floor remainder by 2048; its floor quotient by 32; the
  floor remainder by 32; the three negative-index wraps, the columns and their concatenation into the start indices;
  and the gather, product, bias and final sum. Each piece's result is read back as the corresponding definition of
  RefTerm.lean applied to the contents the piece found in the buffers it reads, and each piece leaves the buffers the
  later pieces read untouched; composing the six gives `out` of the argument arrays.
-/
import proofs.«141609_j22247930593290_2_alg».proof.Proof.RefTerm
import Idealize.ShloMosaic.Lib.StableHlo.Run

noncomputable section

namespace Cert.ReferenceIdeal.RefValue

open Cert.ReferenceIdeal Cert.ReferenceIdeal.Facts₀ Idealize.ShloMosaic Idealize.ShloMosaic.TcCoe Idealize.SL.Sem Idealize.ShloMosaic.StableHlo

variable {F : FTy → Type} [FloatOps F]

/-- Operations 0 … 18 of @main, the calls unfolded. -/
abbrev opsA : List (HloOp τ sig (Elt F)) :=
  [ StableHlo.nullary main_v0 (iotaInDim S131072 32 0),
    StableHlo.nullary main_c (constantI S_ 32 2048#32),
    StableHlo.unary main_c main_call0_v0 (id : (⟨S_, .i32⟩ : BufTy).Contents (Elt F) → (⟨S_, .i32⟩ : BufTy).Contents (Elt F)),
    StableHlo.unary main_call0_v0 main_call0_v1 ((broadcastInDim S131072 ![] bcast_S_S131072) : (⟨S_, .i32⟩ : BufTy).Contents (Elt F) → (⟨S131072, .i32⟩ : BufTy).Contents (Elt F)),
    StableHlo.binary main_v0 main_call0_v1 main_call0_v2 (Host.divsi : (⟨S131072, .i32⟩ : BufTy).Contents (Elt F) → (⟨S131072, .i32⟩ : BufTy).Contents (Elt F) → (⟨S131072, .i32⟩ : BufTy).Contents (Elt F)),
    StableHlo.unary main_v0 main_call0_v3 (signi : (⟨S131072, .i32⟩ : BufTy).Contents (Elt F) → (⟨S131072, .i32⟩ : BufTy).Contents (Elt F)),
    StableHlo.unary main_call0_v0 main_call0_v4 (signi : (⟨S_, .i32⟩ : BufTy).Contents (Elt F) → (⟨S_, .i32⟩ : BufTy).Contents (Elt F)),
    StableHlo.unary main_call0_v4 main_call0_v5 ((broadcastInDim S131072 ![] bcast_S_S131072) : (⟨S_, .i32⟩ : BufTy).Contents (Elt F) → (⟨S131072, .i32⟩ : BufTy).Contents (Elt F)),
    StableHlo.binary main_call0_v3 main_call0_v5 main_call0_v6 ((cmpi .ne) : (⟨S131072, .i32⟩ : BufTy).Contents (Elt F) → (⟨S131072, .i32⟩ : BufTy).Contents (Elt F) → (⟨S131072, .i1⟩ : BufTy).Contents (Elt F)),
    StableHlo.unary main_call0_v0 main_call0_v7 ((broadcastInDim S131072 ![] bcast_S_S131072) : (⟨S_, .i32⟩ : BufTy).Contents (Elt F) → (⟨S131072, .i32⟩ : BufTy).Contents (Elt F)),
    StableHlo.binary main_v0 main_call0_v7 main_call0_v8 (Host.remsi : (⟨S131072, .i32⟩ : BufTy).Contents (Elt F) → (⟨S131072, .i32⟩ : BufTy).Contents (Elt F) → (⟨S131072, .i32⟩ : BufTy).Contents (Elt F)),
    StableHlo.nullary main_call0_c ((constantI S_ 32 0#32) : (⟨S_, .i32⟩ : BufTy).Contents (Elt F)),
    StableHlo.unary main_call0_c main_call0_v9 ((broadcastInDim S131072 ![] bcast_S_S131072) : (⟨S_, .i32⟩ : BufTy).Contents (Elt F) → (⟨S131072, .i32⟩ : BufTy).Contents (Elt F)),
    StableHlo.binary main_call0_v8 main_call0_v9 main_call0_v10 ((cmpi .ne) : (⟨S131072, .i32⟩ : BufTy).Contents (Elt F) → (⟨S131072, .i32⟩ : BufTy).Contents (Elt F) → (⟨S131072, .i1⟩ : BufTy).Contents (Elt F)),
    StableHlo.binary main_call0_v6 main_call0_v10 main_call0_v11 (andi : (⟨S131072, .i1⟩ : BufTy).Contents (Elt F) → (⟨S131072, .i1⟩ : BufTy).Contents (Elt F) → (⟨S131072, .i1⟩ : BufTy).Contents (Elt F)),
    StableHlo.nullary main_call0_c_0 ((constantI S_ 32 1#32) : (⟨S_, .i32⟩ : BufTy).Contents (Elt F)),
    StableHlo.unary main_call0_c_0 main_call0_v12 ((broadcastInDim S131072 ![] bcast_S_S131072) : (⟨S_, .i32⟩ : BufTy).Contents (Elt F) → (⟨S131072, .i32⟩ : BufTy).Contents (Elt F)),
    StableHlo.binary main_call0_v2 main_call0_v12 main_call0_v13 (subi : (⟨S131072, .i32⟩ : BufTy).Contents (Elt F) → (⟨S131072, .i32⟩ : BufTy).Contents (Elt F) → (⟨S131072, .i32⟩ : BufTy).Contents (Elt F)),
    StableHlo.ternary main_call0_v11 main_call0_v13 main_call0_v2 main_v1 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)) ]

/-- Operations 19 … 40 of @main, the calls unfolded. -/
abbrev opsB : List (HloOp τ sig (Elt F)) :=
  [ StableHlo.nullary main_c_0 (constantI S_ 32 2048#32),
    StableHlo.unary main_c_0 main_call1_v0 (id : (⟨S_, .i32⟩ : BufTy).Contents (Elt F) → (⟨S_, .i32⟩ : BufTy).Contents (Elt F)),
    StableHlo.nullary main_call1_c ((constantI S_ 32 0#32) : (⟨S_, .i32⟩ : BufTy).Contents (Elt F)),
    StableHlo.binary main_call1_v0 main_call1_c main_call1_v1 ((cmpi .eq) : (⟨S_, .i32⟩ : BufTy).Contents (Elt F) → (⟨S_, .i32⟩ : BufTy).Contents (Elt F) → (⟨S_, .i1⟩ : BufTy).Contents (Elt F)),
    StableHlo.nullary main_call1_c_0 ((constantI S_ 32 1#32) : (⟨S_, .i32⟩ : BufTy).Contents (Elt F)),
    StableHlo.ternary main_call1_v1 main_call1_c_0 main_call1_v0 main_call1_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call1_v2 main_call1_v3 ((broadcastInDim S131072 ![] bcast_S_S131072) : (⟨S_, .i32⟩ : BufTy).Contents (Elt F) → (⟨S131072, .i32⟩ : BufTy).Contents (Elt F)),
    StableHlo.binary main_v0 main_call1_v3 main_call1_v4 (Host.remsi : (⟨S131072, .i32⟩ : BufTy).Contents (Elt F) → (⟨S131072, .i32⟩ : BufTy).Contents (Elt F) → (⟨S131072, .i32⟩ : BufTy).Contents (Elt F)),
    StableHlo.nullary main_call1_c_1 ((constantI S_ 32 0#32) : (⟨S_, .i32⟩ : BufTy).Contents (Elt F)),
    StableHlo.unary main_call1_c_1 main_call1_v5 ((broadcastInDim S131072 ![] bcast_S_S131072) : (⟨S_, .i32⟩ : BufTy).Contents (Elt F) → (⟨S131072, .i32⟩ : BufTy).Contents (Elt F)),
    StableHlo.binary main_call1_v4 main_call1_v5 main_call1_v6 ((cmpi .ne) : (⟨S131072, .i32⟩ : BufTy).Contents (Elt F) → (⟨S131072, .i32⟩ : BufTy).Contents (Elt F) → (⟨S131072, .i1⟩ : BufTy).Contents (Elt F)),
    StableHlo.nullary main_call1_c_2 ((constantI S_ 32 0#32) : (⟨S_, .i32⟩ : BufTy).Contents (Elt F)),
    StableHlo.unary main_call1_c_2 main_call1_v7 ((broadcastInDim S131072 ![] bcast_S_S131072) : (⟨S_, .i32⟩ : BufTy).Contents (Elt F) → (⟨S131072, .i32⟩ : BufTy).Contents (Elt F)),
    StableHlo.binary main_call1_v4 main_call1_v7 main_call1_v8 ((cmpi .slt) : (⟨S131072, .i32⟩ : BufTy).Contents (Elt F) → (⟨S131072, .i32⟩ : BufTy).Contents (Elt F) → (⟨S131072, .i1⟩ : BufTy).Contents (Elt F)),
    StableHlo.nullary main_call1_c_3 ((constantI S_ 32 0#32) : (⟨S_, .i32⟩ : BufTy).Contents (Elt F)),
    StableHlo.binary main_call1_v2 main_call1_c_3 main_call1_v9 ((cmpi .slt) : (⟨S_, .i32⟩ : BufTy).Contents (Elt F) → (⟨S_, .i32⟩ : BufTy).Contents (Elt F) → (⟨S_, .i1⟩ : BufTy).Contents (Elt F)),
    StableHlo.unary main_call1_v9 main_call1_v10 ((broadcastInDim S131072 ![] bcast_S_S131072) : (⟨S_, .i1⟩ : BufTy).Contents (Elt F) → (⟨S131072, .i1⟩ : BufTy).Contents (Elt F)),
    StableHlo.binary main_call1_v8 main_call1_v10 main_call1_v11 ((cmpi .ne) : (⟨S131072, .i1⟩ : BufTy).Contents (Elt F) → (⟨S131072, .i1⟩ : BufTy).Contents (Elt F) → (⟨S131072, .i1⟩ : BufTy).Contents (Elt F)),
    StableHlo.binary main_call1_v11 main_call1_v6 main_call1_v12 (andi : (⟨S131072, .i1⟩ : BufTy).Contents (Elt F) → (⟨S131072, .i1⟩ : BufTy).Contents (Elt F) → (⟨S131072, .i1⟩ : BufTy).Contents (Elt F)),
    StableHlo.unary main_call1_v2 main_call1_v13 ((broadcastInDim S131072 ![] bcast_S_S131072) : (⟨S_, .i32⟩ : BufTy).Contents (Elt F) → (⟨S131072, .i32⟩ : BufTy).Contents (Elt F)),
    StableHlo.binary main_call1_v4 main_call1_v13 main_call1_v14 (addi : (⟨S131072, .i32⟩ : BufTy).Contents (Elt F) → (⟨S131072, .i32⟩ : BufTy).Contents (Elt F) → (⟨S131072, .i32⟩ : BufTy).Contents (Elt F)),
    StableHlo.ternary main_call1_v12 main_call1_v14 main_call1_v4 main_v2 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)) ]

/-- Operations 41 … 58 of @main, the calls unfolded. -/
abbrev opsC : List (HloOp τ sig (Elt F)) :=
  [ StableHlo.nullary main_c_1 (constantI S_ 32 32#32),
    StableHlo.unary main_c_1 main_call2_v0 (id : (⟨S_, .i32⟩ : BufTy).Contents (Elt F) → (⟨S_, .i32⟩ : BufTy).Contents (Elt F)),
    StableHlo.unary main_call2_v0 main_call2_v1 ((broadcastInDim S131072 ![] bcast_S_S131072) : (⟨S_, .i32⟩ : BufTy).Contents (Elt F) → (⟨S131072, .i32⟩ : BufTy).Contents (Elt F)),
    StableHlo.binary main_v2 main_call2_v1 main_call2_v2 (Host.divsi : (⟨S131072, .i32⟩ : BufTy).Contents (Elt F) → (⟨S131072, .i32⟩ : BufTy).Contents (Elt F) → (⟨S131072, .i32⟩ : BufTy).Contents (Elt F)),
    StableHlo.unary main_v2 main_call2_v3 (signi : (⟨S131072, .i32⟩ : BufTy).Contents (Elt F) → (⟨S131072, .i32⟩ : BufTy).Contents (Elt F)),
    StableHlo.unary main_call2_v0 main_call2_v4 (signi : (⟨S_, .i32⟩ : BufTy).Contents (Elt F) → (⟨S_, .i32⟩ : BufTy).Contents (Elt F)),
    StableHlo.unary main_call2_v4 main_call2_v5 ((broadcastInDim S131072 ![] bcast_S_S131072) : (⟨S_, .i32⟩ : BufTy).Contents (Elt F) → (⟨S131072, .i32⟩ : BufTy).Contents (Elt F)),
    StableHlo.binary main_call2_v3 main_call2_v5 main_call2_v6 ((cmpi .ne) : (⟨S131072, .i32⟩ : BufTy).Contents (Elt F) → (⟨S131072, .i32⟩ : BufTy).Contents (Elt F) → (⟨S131072, .i1⟩ : BufTy).Contents (Elt F)),
    StableHlo.unary main_call2_v0 main_call2_v7 ((broadcastInDim S131072 ![] bcast_S_S131072) : (⟨S_, .i32⟩ : BufTy).Contents (Elt F) → (⟨S131072, .i32⟩ : BufTy).Contents (Elt F)),
    StableHlo.binary main_v2 main_call2_v7 main_call2_v8 (Host.remsi : (⟨S131072, .i32⟩ : BufTy).Contents (Elt F) → (⟨S131072, .i32⟩ : BufTy).Contents (Elt F) → (⟨S131072, .i32⟩ : BufTy).Contents (Elt F)),
    StableHlo.nullary main_call2_c ((constantI S_ 32 0#32) : (⟨S_, .i32⟩ : BufTy).Contents (Elt F)),
    StableHlo.unary main_call2_c main_call2_v9 ((broadcastInDim S131072 ![] bcast_S_S131072) : (⟨S_, .i32⟩ : BufTy).Contents (Elt F) → (⟨S131072, .i32⟩ : BufTy).Contents (Elt F)),
    StableHlo.binary main_call2_v8 main_call2_v9 main_call2_v10 ((cmpi .ne) : (⟨S131072, .i32⟩ : BufTy).Contents (Elt F) → (⟨S131072, .i32⟩ : BufTy).Contents (Elt F) → (⟨S131072, .i1⟩ : BufTy).Contents (Elt F)),
    StableHlo.binary main_call2_v6 main_call2_v10 main_call2_v11 (andi : (⟨S131072, .i1⟩ : BufTy).Contents (Elt F) → (⟨S131072, .i1⟩ : BufTy).Contents (Elt F) → (⟨S131072, .i1⟩ : BufTy).Contents (Elt F)),
    StableHlo.nullary main_call2_c_0 ((constantI S_ 32 1#32) : (⟨S_, .i32⟩ : BufTy).Contents (Elt F)),
    StableHlo.unary main_call2_c_0 main_call2_v12 ((broadcastInDim S131072 ![] bcast_S_S131072) : (⟨S_, .i32⟩ : BufTy).Contents (Elt F) → (⟨S131072, .i32⟩ : BufTy).Contents (Elt F)),
    StableHlo.binary main_call2_v2 main_call2_v12 main_call2_v13 (subi : (⟨S131072, .i32⟩ : BufTy).Contents (Elt F) → (⟨S131072, .i32⟩ : BufTy).Contents (Elt F) → (⟨S131072, .i32⟩ : BufTy).Contents (Elt F)),
    StableHlo.ternary main_call2_v11 main_call2_v13 main_call2_v2 main_v3 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)) ]

/-- Operations 59 … 80 of @main, the calls unfolded. -/
abbrev opsD : List (HloOp τ sig (Elt F)) :=
  [ StableHlo.nullary main_c_2 (constantI S_ 32 32#32),
    StableHlo.unary main_c_2 main_call3_v0 (id : (⟨S_, .i32⟩ : BufTy).Contents (Elt F) → (⟨S_, .i32⟩ : BufTy).Contents (Elt F)),
    StableHlo.nullary main_call3_c ((constantI S_ 32 0#32) : (⟨S_, .i32⟩ : BufTy).Contents (Elt F)),
    StableHlo.binary main_call3_v0 main_call3_c main_call3_v1 ((cmpi .eq) : (⟨S_, .i32⟩ : BufTy).Contents (Elt F) → (⟨S_, .i32⟩ : BufTy).Contents (Elt F) → (⟨S_, .i1⟩ : BufTy).Contents (Elt F)),
    StableHlo.nullary main_call3_c_0 ((constantI S_ 32 1#32) : (⟨S_, .i32⟩ : BufTy).Contents (Elt F)),
    StableHlo.ternary main_call3_v1 main_call3_c_0 main_call3_v0 main_call3_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call3_v2 main_call3_v3 ((broadcastInDim S131072 ![] bcast_S_S131072) : (⟨S_, .i32⟩ : BufTy).Contents (Elt F) → (⟨S131072, .i32⟩ : BufTy).Contents (Elt F)),
    StableHlo.binary main_v0 main_call3_v3 main_call3_v4 (Host.remsi : (⟨S131072, .i32⟩ : BufTy).Contents (Elt F) → (⟨S131072, .i32⟩ : BufTy).Contents (Elt F) → (⟨S131072, .i32⟩ : BufTy).Contents (Elt F)),
    StableHlo.nullary main_call3_c_1 ((constantI S_ 32 0#32) : (⟨S_, .i32⟩ : BufTy).Contents (Elt F)),
    StableHlo.unary main_call3_c_1 main_call3_v5 ((broadcastInDim S131072 ![] bcast_S_S131072) : (⟨S_, .i32⟩ : BufTy).Contents (Elt F) → (⟨S131072, .i32⟩ : BufTy).Contents (Elt F)),
    StableHlo.binary main_call3_v4 main_call3_v5 main_call3_v6 ((cmpi .ne) : (⟨S131072, .i32⟩ : BufTy).Contents (Elt F) → (⟨S131072, .i32⟩ : BufTy).Contents (Elt F) → (⟨S131072, .i1⟩ : BufTy).Contents (Elt F)),
    StableHlo.nullary main_call3_c_2 ((constantI S_ 32 0#32) : (⟨S_, .i32⟩ : BufTy).Contents (Elt F)),
    StableHlo.unary main_call3_c_2 main_call3_v7 ((broadcastInDim S131072 ![] bcast_S_S131072) : (⟨S_, .i32⟩ : BufTy).Contents (Elt F) → (⟨S131072, .i32⟩ : BufTy).Contents (Elt F)),
    StableHlo.binary main_call3_v4 main_call3_v7 main_call3_v8 ((cmpi .slt) : (⟨S131072, .i32⟩ : BufTy).Contents (Elt F) → (⟨S131072, .i32⟩ : BufTy).Contents (Elt F) → (⟨S131072, .i1⟩ : BufTy).Contents (Elt F)),
    StableHlo.nullary main_call3_c_3 ((constantI S_ 32 0#32) : (⟨S_, .i32⟩ : BufTy).Contents (Elt F)),
    StableHlo.binary main_call3_v2 main_call3_c_3 main_call3_v9 ((cmpi .slt) : (⟨S_, .i32⟩ : BufTy).Contents (Elt F) → (⟨S_, .i32⟩ : BufTy).Contents (Elt F) → (⟨S_, .i1⟩ : BufTy).Contents (Elt F)),
    StableHlo.unary main_call3_v9 main_call3_v10 ((broadcastInDim S131072 ![] bcast_S_S131072) : (⟨S_, .i1⟩ : BufTy).Contents (Elt F) → (⟨S131072, .i1⟩ : BufTy).Contents (Elt F)),
    StableHlo.binary main_call3_v8 main_call3_v10 main_call3_v11 ((cmpi .ne) : (⟨S131072, .i1⟩ : BufTy).Contents (Elt F) → (⟨S131072, .i1⟩ : BufTy).Contents (Elt F) → (⟨S131072, .i1⟩ : BufTy).Contents (Elt F)),
    StableHlo.binary main_call3_v11 main_call3_v6 main_call3_v12 (andi : (⟨S131072, .i1⟩ : BufTy).Contents (Elt F) → (⟨S131072, .i1⟩ : BufTy).Contents (Elt F) → (⟨S131072, .i1⟩ : BufTy).Contents (Elt F)),
    StableHlo.unary main_call3_v2 main_call3_v13 ((broadcastInDim S131072 ![] bcast_S_S131072) : (⟨S_, .i32⟩ : BufTy).Contents (Elt F) → (⟨S131072, .i32⟩ : BufTy).Contents (Elt F)),
    StableHlo.binary main_call3_v4 main_call3_v13 main_call3_v14 (addi : (⟨S131072, .i32⟩ : BufTy).Contents (Elt F) → (⟨S131072, .i32⟩ : BufTy).Contents (Elt F) → (⟨S131072, .i32⟩ : BufTy).Contents (Elt F)),
    StableHlo.ternary main_call3_v12 main_call3_v14 main_call3_v4 main_v4 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)) ]

/-- Operations 81 … 105 of @main, the calls unfolded. -/
abbrev opsE : List (HloOp τ sig (Elt F)) :=
  [ StableHlo.nullary main_c_3 (constantI S_ 32 0#32),
    StableHlo.unary main_c_3 main_v5 (broadcastInDim S131072 ![] bcast_S_S131072 : (⟨S_, .i32⟩ : BufTy).Contents (Elt F) → (⟨S131072, .i32⟩ : BufTy).Contents (Elt F)),
    StableHlo.binary main_v1 main_v5 main_v6 (cmpi .slt : (⟨S131072, .i32⟩ : BufTy).Contents (Elt F) → (⟨S131072, .i32⟩ : BufTy).Contents (Elt F) → (⟨S131072, .i1⟩ : BufTy).Contents (Elt F)),
    StableHlo.nullary main_c_4 (constantI S_ 32 64#32),
    StableHlo.unary main_c_4 main_v7 (broadcastInDim S131072 ![] bcast_S_S131072 : (⟨S_, .i32⟩ : BufTy).Contents (Elt F) → (⟨S131072, .i32⟩ : BufTy).Contents (Elt F)),
    StableHlo.binary main_v1 main_v7 main_v8 (addi : (⟨S131072, .i32⟩ : BufTy).Contents (Elt F) → (⟨S131072, .i32⟩ : BufTy).Contents (Elt F) → (⟨S131072, .i32⟩ : BufTy).Contents (Elt F)),
    StableHlo.ternary main_v6 main_v8 main_v1 main_v9 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_5 (constantI S_ 32 0#32),
    StableHlo.unary main_c_5 main_v10 (broadcastInDim S131072 ![] bcast_S_S131072 : (⟨S_, .i32⟩ : BufTy).Contents (Elt F) → (⟨S131072, .i32⟩ : BufTy).Contents (Elt F)),
    StableHlo.binary main_v3 main_v10 main_v11 (cmpi .slt : (⟨S131072, .i32⟩ : BufTy).Contents (Elt F) → (⟨S131072, .i32⟩ : BufTy).Contents (Elt F) → (⟨S131072, .i1⟩ : BufTy).Contents (Elt F)),
    StableHlo.nullary main_c_6 (constantI S_ 32 64#32),
    StableHlo.unary main_c_6 main_v12 (broadcastInDim S131072 ![] bcast_S_S131072 : (⟨S_, .i32⟩ : BufTy).Contents (Elt F) → (⟨S131072, .i32⟩ : BufTy).Contents (Elt F)),
    StableHlo.binary main_v3 main_v12 main_v13 (addi : (⟨S131072, .i32⟩ : BufTy).Contents (Elt F) → (⟨S131072, .i32⟩ : BufTy).Contents (Elt F) → (⟨S131072, .i32⟩ : BufTy).Contents (Elt F)),
    StableHlo.ternary main_v11 main_v13 main_v3 main_v14 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_7 (constantI S_ 32 0#32),
    StableHlo.unary main_c_7 main_v15 (broadcastInDim S131072 ![] bcast_S_S131072 : (⟨S_, .i32⟩ : BufTy).Contents (Elt F) → (⟨S131072, .i32⟩ : BufTy).Contents (Elt F)),
    StableHlo.binary main_v4 main_v15 main_v16 (cmpi .slt : (⟨S131072, .i32⟩ : BufTy).Contents (Elt F) → (⟨S131072, .i32⟩ : BufTy).Contents (Elt F) → (⟨S131072, .i1⟩ : BufTy).Contents (Elt F)),
    StableHlo.nullary main_c_8 (constantI S_ 32 32#32),
    StableHlo.unary main_c_8 main_v17 (broadcastInDim S131072 ![] bcast_S_S131072 : (⟨S_, .i32⟩ : BufTy).Contents (Elt F) → (⟨S131072, .i32⟩ : BufTy).Contents (Elt F)),
    StableHlo.binary main_v4 main_v17 main_v18 (addi : (⟨S131072, .i32⟩ : BufTy).Contents (Elt F) → (⟨S131072, .i32⟩ : BufTy).Contents (Elt F) → (⟨S131072, .i32⟩ : BufTy).Contents (Elt F)),
    StableHlo.ternary main_v16 main_v18 main_v4 main_v19 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v9 main_v20 (broadcastInDim S131072x1 ![0] bcast_S131072_S131072x1_0 : (⟨S131072, .i32⟩ : BufTy).Contents (Elt F) → (⟨S131072x1, .i32⟩ : BufTy).Contents (Elt F)),
    StableHlo.unary main_v14 main_v21 (broadcastInDim S131072x1 ![0] bcast_S131072_S131072x1_0 : (⟨S131072, .i32⟩ : BufTy).Contents (Elt F) → (⟨S131072x1, .i32⟩ : BufTy).Contents (Elt F)),
    StableHlo.unary main_v19 main_v22 (broadcastInDim S131072x1 ![0] bcast_S131072_S131072x1_0 : (⟨S131072, .i32⟩ : BufTy).Contents (Elt F) → (⟨S131072x1, .i32⟩ : BufTy).Contents (Elt F)),
    StableHlo.nary ![main_v20, main_v21, main_v22] main_v23 (fun u => concatenate S131072x3 1 [⟨S131072x1, u 0⟩, ⟨S131072x1, u 1⟩, ⟨S131072x1, u 2⟩] concatenates_S131072x1_S131072x1_S131072x1_S131072x3_d1) ]

/-- Operations 106 … 114 of @main, the calls unfolded. -/
abbrev opsT : List (HloOp τ sig (Elt F)) :=
  [ StableHlo.binary main_arg1 main_v23 main_v24 ((fun x i => Host.gather gather_S64x64x32x64_S131072x3_S131072x64_1_012_n_n_012_1_11164 x i) : (⟨S64x64x32x64, .f32⟩ : BufTy).Contents (Elt F) → (⟨S131072x3, .i32⟩ : BufTy).Contents (Elt F) → (⟨S131072x64, .f32⟩ : BufTy).Contents (Elt F)),
    StableHlo.unary main_arg2 main_v25 ((transpose S64x64 [1, 0] · transposes_S64x64_S64x64_1_0) : (⟨S64x64, .f32⟩ : BufTy).Contents (Elt F) → (⟨S64x64, .f32⟩ : BufTy).Contents (Elt F)),
    StableHlo.binary main_v24 main_v25 main_v26 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    StableHlo.unary main_arg3 main_v27 (broadcastInDim S1x64 ![1] bcast_S64_S1x64_1 : (⟨S64, .f32⟩ : BufTy).Contents (Elt F) → (⟨S1x64, .f32⟩ : BufTy).Contents (Elt F)),
    StableHlo.unary main_v27 main_v28 (broadcastInDim S131072x64 ![0, 1] bcast_S1x64_S131072x64_0_1 : (⟨S1x64, .f32⟩ : BufTy).Contents (Elt F) → (⟨S131072x64, .f32⟩ : BufTy).Contents (Elt F)),
    StableHlo.binary main_v26 main_v28 main_v29 (addf : (⟨S131072x64, .f32⟩ : BufTy).Contents (Elt F) → (⟨S131072x64, .f32⟩ : BufTy).Contents (Elt F) → (⟨S131072x64, .f32⟩ : BufTy).Contents (Elt F)),
    StableHlo.unary main_v29 main_v30 (broadcastInDim S1x131072x64 ![1, 2] bcast_S131072x64_S1x131072x64_1_2 : (⟨S131072x64, .f32⟩ : BufTy).Contents (Elt F) → (⟨S1x131072x64, .f32⟩ : BufTy).Contents (Elt F)),
    StableHlo.unary main_v30 main_v31 (broadcastInDim S8x131072x64 ![0, 1, 2] bcast_S1x131072x64_S8x131072x64_0_1_2 : (⟨S1x131072x64, .f32⟩ : BufTy).Contents (Elt F) → (⟨S8x131072x64, .f32⟩ : BufTy).Contents (Elt F)),
    StableHlo.binary main_arg0 main_v31 main_v32 (addf : (⟨S8x131072x64, .f32⟩ : BufTy).Contents (Elt F) → (⟨S8x131072x64, .f32⟩ : BufTy).Contents (Elt F) → (⟨S8x131072x64, .f32⟩ : BufTy).Contents (Elt F)) ]

/-- @main's 115 operations in order, the calls unfolded. -/
abbrev ops : List (HloOp τ sig (Elt F)) :=
  [ StableHlo.nullary main_v0 (iotaInDim S131072 32 0),
    StableHlo.nullary main_c (constantI S_ 32 2048#32),
    StableHlo.unary main_c main_call0_v0 (id : (⟨S_, .i32⟩ : BufTy).Contents (Elt F) → (⟨S_, .i32⟩ : BufTy).Contents (Elt F)),
    StableHlo.unary main_call0_v0 main_call0_v1 ((broadcastInDim S131072 ![] bcast_S_S131072) : (⟨S_, .i32⟩ : BufTy).Contents (Elt F) → (⟨S131072, .i32⟩ : BufTy).Contents (Elt F)),
    StableHlo.binary main_v0 main_call0_v1 main_call0_v2 (Host.divsi : (⟨S131072, .i32⟩ : BufTy).Contents (Elt F) → (⟨S131072, .i32⟩ : BufTy).Contents (Elt F) → (⟨S131072, .i32⟩ : BufTy).Contents (Elt F)),
    StableHlo.unary main_v0 main_call0_v3 (signi : (⟨S131072, .i32⟩ : BufTy).Contents (Elt F) → (⟨S131072, .i32⟩ : BufTy).Contents (Elt F)),
    StableHlo.unary main_call0_v0 main_call0_v4 (signi : (⟨S_, .i32⟩ : BufTy).Contents (Elt F) → (⟨S_, .i32⟩ : BufTy).Contents (Elt F)),
    StableHlo.unary main_call0_v4 main_call0_v5 ((broadcastInDim S131072 ![] bcast_S_S131072) : (⟨S_, .i32⟩ : BufTy).Contents (Elt F) → (⟨S131072, .i32⟩ : BufTy).Contents (Elt F)),
    StableHlo.binary main_call0_v3 main_call0_v5 main_call0_v6 ((cmpi .ne) : (⟨S131072, .i32⟩ : BufTy).Contents (Elt F) → (⟨S131072, .i32⟩ : BufTy).Contents (Elt F) → (⟨S131072, .i1⟩ : BufTy).Contents (Elt F)),
    StableHlo.unary main_call0_v0 main_call0_v7 ((broadcastInDim S131072 ![] bcast_S_S131072) : (⟨S_, .i32⟩ : BufTy).Contents (Elt F) → (⟨S131072, .i32⟩ : BufTy).Contents (Elt F)),
    StableHlo.binary main_v0 main_call0_v7 main_call0_v8 (Host.remsi : (⟨S131072, .i32⟩ : BufTy).Contents (Elt F) → (⟨S131072, .i32⟩ : BufTy).Contents (Elt F) → (⟨S131072, .i32⟩ : BufTy).Contents (Elt F)),
    StableHlo.nullary main_call0_c ((constantI S_ 32 0#32) : (⟨S_, .i32⟩ : BufTy).Contents (Elt F)),
    StableHlo.unary main_call0_c main_call0_v9 ((broadcastInDim S131072 ![] bcast_S_S131072) : (⟨S_, .i32⟩ : BufTy).Contents (Elt F) → (⟨S131072, .i32⟩ : BufTy).Contents (Elt F)),
    StableHlo.binary main_call0_v8 main_call0_v9 main_call0_v10 ((cmpi .ne) : (⟨S131072, .i32⟩ : BufTy).Contents (Elt F) → (⟨S131072, .i32⟩ : BufTy).Contents (Elt F) → (⟨S131072, .i1⟩ : BufTy).Contents (Elt F)),
    StableHlo.binary main_call0_v6 main_call0_v10 main_call0_v11 (andi : (⟨S131072, .i1⟩ : BufTy).Contents (Elt F) → (⟨S131072, .i1⟩ : BufTy).Contents (Elt F) → (⟨S131072, .i1⟩ : BufTy).Contents (Elt F)),
    StableHlo.nullary main_call0_c_0 ((constantI S_ 32 1#32) : (⟨S_, .i32⟩ : BufTy).Contents (Elt F)),
    StableHlo.unary main_call0_c_0 main_call0_v12 ((broadcastInDim S131072 ![] bcast_S_S131072) : (⟨S_, .i32⟩ : BufTy).Contents (Elt F) → (⟨S131072, .i32⟩ : BufTy).Contents (Elt F)),
    StableHlo.binary main_call0_v2 main_call0_v12 main_call0_v13 (subi : (⟨S131072, .i32⟩ : BufTy).Contents (Elt F) → (⟨S131072, .i32⟩ : BufTy).Contents (Elt F) → (⟨S131072, .i32⟩ : BufTy).Contents (Elt F)),
    StableHlo.ternary main_call0_v11 main_call0_v13 main_call0_v2 main_v1 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_0 (constantI S_ 32 2048#32),
    StableHlo.unary main_c_0 main_call1_v0 (id : (⟨S_, .i32⟩ : BufTy).Contents (Elt F) → (⟨S_, .i32⟩ : BufTy).Contents (Elt F)),
    StableHlo.nullary main_call1_c ((constantI S_ 32 0#32) : (⟨S_, .i32⟩ : BufTy).Contents (Elt F)),
    StableHlo.binary main_call1_v0 main_call1_c main_call1_v1 ((cmpi .eq) : (⟨S_, .i32⟩ : BufTy).Contents (Elt F) → (⟨S_, .i32⟩ : BufTy).Contents (Elt F) → (⟨S_, .i1⟩ : BufTy).Contents (Elt F)),
    StableHlo.nullary main_call1_c_0 ((constantI S_ 32 1#32) : (⟨S_, .i32⟩ : BufTy).Contents (Elt F)),
    StableHlo.ternary main_call1_v1 main_call1_c_0 main_call1_v0 main_call1_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call1_v2 main_call1_v3 ((broadcastInDim S131072 ![] bcast_S_S131072) : (⟨S_, .i32⟩ : BufTy).Contents (Elt F) → (⟨S131072, .i32⟩ : BufTy).Contents (Elt F)),
    StableHlo.binary main_v0 main_call1_v3 main_call1_v4 (Host.remsi : (⟨S131072, .i32⟩ : BufTy).Contents (Elt F) → (⟨S131072, .i32⟩ : BufTy).Contents (Elt F) → (⟨S131072, .i32⟩ : BufTy).Contents (Elt F)),
    StableHlo.nullary main_call1_c_1 ((constantI S_ 32 0#32) : (⟨S_, .i32⟩ : BufTy).Contents (Elt F)),
    StableHlo.unary main_call1_c_1 main_call1_v5 ((broadcastInDim S131072 ![] bcast_S_S131072) : (⟨S_, .i32⟩ : BufTy).Contents (Elt F) → (⟨S131072, .i32⟩ : BufTy).Contents (Elt F)),
    StableHlo.binary main_call1_v4 main_call1_v5 main_call1_v6 ((cmpi .ne) : (⟨S131072, .i32⟩ : BufTy).Contents (Elt F) → (⟨S131072, .i32⟩ : BufTy).Contents (Elt F) → (⟨S131072, .i1⟩ : BufTy).Contents (Elt F)),
    StableHlo.nullary main_call1_c_2 ((constantI S_ 32 0#32) : (⟨S_, .i32⟩ : BufTy).Contents (Elt F)),
    StableHlo.unary main_call1_c_2 main_call1_v7 ((broadcastInDim S131072 ![] bcast_S_S131072) : (⟨S_, .i32⟩ : BufTy).Contents (Elt F) → (⟨S131072, .i32⟩ : BufTy).Contents (Elt F)),
    StableHlo.binary main_call1_v4 main_call1_v7 main_call1_v8 ((cmpi .slt) : (⟨S131072, .i32⟩ : BufTy).Contents (Elt F) → (⟨S131072, .i32⟩ : BufTy).Contents (Elt F) → (⟨S131072, .i1⟩ : BufTy).Contents (Elt F)),
    StableHlo.nullary main_call1_c_3 ((constantI S_ 32 0#32) : (⟨S_, .i32⟩ : BufTy).Contents (Elt F)),
    StableHlo.binary main_call1_v2 main_call1_c_3 main_call1_v9 ((cmpi .slt) : (⟨S_, .i32⟩ : BufTy).Contents (Elt F) → (⟨S_, .i32⟩ : BufTy).Contents (Elt F) → (⟨S_, .i1⟩ : BufTy).Contents (Elt F)),
    StableHlo.unary main_call1_v9 main_call1_v10 ((broadcastInDim S131072 ![] bcast_S_S131072) : (⟨S_, .i1⟩ : BufTy).Contents (Elt F) → (⟨S131072, .i1⟩ : BufTy).Contents (Elt F)),
    StableHlo.binary main_call1_v8 main_call1_v10 main_call1_v11 ((cmpi .ne) : (⟨S131072, .i1⟩ : BufTy).Contents (Elt F) → (⟨S131072, .i1⟩ : BufTy).Contents (Elt F) → (⟨S131072, .i1⟩ : BufTy).Contents (Elt F)),
    StableHlo.binary main_call1_v11 main_call1_v6 main_call1_v12 (andi : (⟨S131072, .i1⟩ : BufTy).Contents (Elt F) → (⟨S131072, .i1⟩ : BufTy).Contents (Elt F) → (⟨S131072, .i1⟩ : BufTy).Contents (Elt F)),
    StableHlo.unary main_call1_v2 main_call1_v13 ((broadcastInDim S131072 ![] bcast_S_S131072) : (⟨S_, .i32⟩ : BufTy).Contents (Elt F) → (⟨S131072, .i32⟩ : BufTy).Contents (Elt F)),
    StableHlo.binary main_call1_v4 main_call1_v13 main_call1_v14 (addi : (⟨S131072, .i32⟩ : BufTy).Contents (Elt F) → (⟨S131072, .i32⟩ : BufTy).Contents (Elt F) → (⟨S131072, .i32⟩ : BufTy).Contents (Elt F)),
    StableHlo.ternary main_call1_v12 main_call1_v14 main_call1_v4 main_v2 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_1 (constantI S_ 32 32#32),
    StableHlo.unary main_c_1 main_call2_v0 (id : (⟨S_, .i32⟩ : BufTy).Contents (Elt F) → (⟨S_, .i32⟩ : BufTy).Contents (Elt F)),
    StableHlo.unary main_call2_v0 main_call2_v1 ((broadcastInDim S131072 ![] bcast_S_S131072) : (⟨S_, .i32⟩ : BufTy).Contents (Elt F) → (⟨S131072, .i32⟩ : BufTy).Contents (Elt F)),
    StableHlo.binary main_v2 main_call2_v1 main_call2_v2 (Host.divsi : (⟨S131072, .i32⟩ : BufTy).Contents (Elt F) → (⟨S131072, .i32⟩ : BufTy).Contents (Elt F) → (⟨S131072, .i32⟩ : BufTy).Contents (Elt F)),
    StableHlo.unary main_v2 main_call2_v3 (signi : (⟨S131072, .i32⟩ : BufTy).Contents (Elt F) → (⟨S131072, .i32⟩ : BufTy).Contents (Elt F)),
    StableHlo.unary main_call2_v0 main_call2_v4 (signi : (⟨S_, .i32⟩ : BufTy).Contents (Elt F) → (⟨S_, .i32⟩ : BufTy).Contents (Elt F)),
    StableHlo.unary main_call2_v4 main_call2_v5 ((broadcastInDim S131072 ![] bcast_S_S131072) : (⟨S_, .i32⟩ : BufTy).Contents (Elt F) → (⟨S131072, .i32⟩ : BufTy).Contents (Elt F)),
    StableHlo.binary main_call2_v3 main_call2_v5 main_call2_v6 ((cmpi .ne) : (⟨S131072, .i32⟩ : BufTy).Contents (Elt F) → (⟨S131072, .i32⟩ : BufTy).Contents (Elt F) → (⟨S131072, .i1⟩ : BufTy).Contents (Elt F)),
    StableHlo.unary main_call2_v0 main_call2_v7 ((broadcastInDim S131072 ![] bcast_S_S131072) : (⟨S_, .i32⟩ : BufTy).Contents (Elt F) → (⟨S131072, .i32⟩ : BufTy).Contents (Elt F)),
    StableHlo.binary main_v2 main_call2_v7 main_call2_v8 (Host.remsi : (⟨S131072, .i32⟩ : BufTy).Contents (Elt F) → (⟨S131072, .i32⟩ : BufTy).Contents (Elt F) → (⟨S131072, .i32⟩ : BufTy).Contents (Elt F)),
    StableHlo.nullary main_call2_c ((constantI S_ 32 0#32) : (⟨S_, .i32⟩ : BufTy).Contents (Elt F)),
    StableHlo.unary main_call2_c main_call2_v9 ((broadcastInDim S131072 ![] bcast_S_S131072) : (⟨S_, .i32⟩ : BufTy).Contents (Elt F) → (⟨S131072, .i32⟩ : BufTy).Contents (Elt F)),
    StableHlo.binary main_call2_v8 main_call2_v9 main_call2_v10 ((cmpi .ne) : (⟨S131072, .i32⟩ : BufTy).Contents (Elt F) → (⟨S131072, .i32⟩ : BufTy).Contents (Elt F) → (⟨S131072, .i1⟩ : BufTy).Contents (Elt F)),
    StableHlo.binary main_call2_v6 main_call2_v10 main_call2_v11 (andi : (⟨S131072, .i1⟩ : BufTy).Contents (Elt F) → (⟨S131072, .i1⟩ : BufTy).Contents (Elt F) → (⟨S131072, .i1⟩ : BufTy).Contents (Elt F)),
    StableHlo.nullary main_call2_c_0 ((constantI S_ 32 1#32) : (⟨S_, .i32⟩ : BufTy).Contents (Elt F)),
    StableHlo.unary main_call2_c_0 main_call2_v12 ((broadcastInDim S131072 ![] bcast_S_S131072) : (⟨S_, .i32⟩ : BufTy).Contents (Elt F) → (⟨S131072, .i32⟩ : BufTy).Contents (Elt F)),
    StableHlo.binary main_call2_v2 main_call2_v12 main_call2_v13 (subi : (⟨S131072, .i32⟩ : BufTy).Contents (Elt F) → (⟨S131072, .i32⟩ : BufTy).Contents (Elt F) → (⟨S131072, .i32⟩ : BufTy).Contents (Elt F)),
    StableHlo.ternary main_call2_v11 main_call2_v13 main_call2_v2 main_v3 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_2 (constantI S_ 32 32#32),
    StableHlo.unary main_c_2 main_call3_v0 (id : (⟨S_, .i32⟩ : BufTy).Contents (Elt F) → (⟨S_, .i32⟩ : BufTy).Contents (Elt F)),
    StableHlo.nullary main_call3_c ((constantI S_ 32 0#32) : (⟨S_, .i32⟩ : BufTy).Contents (Elt F)),
    StableHlo.binary main_call3_v0 main_call3_c main_call3_v1 ((cmpi .eq) : (⟨S_, .i32⟩ : BufTy).Contents (Elt F) → (⟨S_, .i32⟩ : BufTy).Contents (Elt F) → (⟨S_, .i1⟩ : BufTy).Contents (Elt F)),
    StableHlo.nullary main_call3_c_0 ((constantI S_ 32 1#32) : (⟨S_, .i32⟩ : BufTy).Contents (Elt F)),
    StableHlo.ternary main_call3_v1 main_call3_c_0 main_call3_v0 main_call3_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call3_v2 main_call3_v3 ((broadcastInDim S131072 ![] bcast_S_S131072) : (⟨S_, .i32⟩ : BufTy).Contents (Elt F) → (⟨S131072, .i32⟩ : BufTy).Contents (Elt F)),
    StableHlo.binary main_v0 main_call3_v3 main_call3_v4 (Host.remsi : (⟨S131072, .i32⟩ : BufTy).Contents (Elt F) → (⟨S131072, .i32⟩ : BufTy).Contents (Elt F) → (⟨S131072, .i32⟩ : BufTy).Contents (Elt F)),
    StableHlo.nullary main_call3_c_1 ((constantI S_ 32 0#32) : (⟨S_, .i32⟩ : BufTy).Contents (Elt F)),
    StableHlo.unary main_call3_c_1 main_call3_v5 ((broadcastInDim S131072 ![] bcast_S_S131072) : (⟨S_, .i32⟩ : BufTy).Contents (Elt F) → (⟨S131072, .i32⟩ : BufTy).Contents (Elt F)),
    StableHlo.binary main_call3_v4 main_call3_v5 main_call3_v6 ((cmpi .ne) : (⟨S131072, .i32⟩ : BufTy).Contents (Elt F) → (⟨S131072, .i32⟩ : BufTy).Contents (Elt F) → (⟨S131072, .i1⟩ : BufTy).Contents (Elt F)),
    StableHlo.nullary main_call3_c_2 ((constantI S_ 32 0#32) : (⟨S_, .i32⟩ : BufTy).Contents (Elt F)),
    StableHlo.unary main_call3_c_2 main_call3_v7 ((broadcastInDim S131072 ![] bcast_S_S131072) : (⟨S_, .i32⟩ : BufTy).Contents (Elt F) → (⟨S131072, .i32⟩ : BufTy).Contents (Elt F)),
    StableHlo.binary main_call3_v4 main_call3_v7 main_call3_v8 ((cmpi .slt) : (⟨S131072, .i32⟩ : BufTy).Contents (Elt F) → (⟨S131072, .i32⟩ : BufTy).Contents (Elt F) → (⟨S131072, .i1⟩ : BufTy).Contents (Elt F)),
    StableHlo.nullary main_call3_c_3 ((constantI S_ 32 0#32) : (⟨S_, .i32⟩ : BufTy).Contents (Elt F)),
    StableHlo.binary main_call3_v2 main_call3_c_3 main_call3_v9 ((cmpi .slt) : (⟨S_, .i32⟩ : BufTy).Contents (Elt F) → (⟨S_, .i32⟩ : BufTy).Contents (Elt F) → (⟨S_, .i1⟩ : BufTy).Contents (Elt F)),
    StableHlo.unary main_call3_v9 main_call3_v10 ((broadcastInDim S131072 ![] bcast_S_S131072) : (⟨S_, .i1⟩ : BufTy).Contents (Elt F) → (⟨S131072, .i1⟩ : BufTy).Contents (Elt F)),
    StableHlo.binary main_call3_v8 main_call3_v10 main_call3_v11 ((cmpi .ne) : (⟨S131072, .i1⟩ : BufTy).Contents (Elt F) → (⟨S131072, .i1⟩ : BufTy).Contents (Elt F) → (⟨S131072, .i1⟩ : BufTy).Contents (Elt F)),
    StableHlo.binary main_call3_v11 main_call3_v6 main_call3_v12 (andi : (⟨S131072, .i1⟩ : BufTy).Contents (Elt F) → (⟨S131072, .i1⟩ : BufTy).Contents (Elt F) → (⟨S131072, .i1⟩ : BufTy).Contents (Elt F)),
    StableHlo.unary main_call3_v2 main_call3_v13 ((broadcastInDim S131072 ![] bcast_S_S131072) : (⟨S_, .i32⟩ : BufTy).Contents (Elt F) → (⟨S131072, .i32⟩ : BufTy).Contents (Elt F)),
    StableHlo.binary main_call3_v4 main_call3_v13 main_call3_v14 (addi : (⟨S131072, .i32⟩ : BufTy).Contents (Elt F) → (⟨S131072, .i32⟩ : BufTy).Contents (Elt F) → (⟨S131072, .i32⟩ : BufTy).Contents (Elt F)),
    StableHlo.ternary main_call3_v12 main_call3_v14 main_call3_v4 main_v4 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_3 (constantI S_ 32 0#32),
    StableHlo.unary main_c_3 main_v5 (broadcastInDim S131072 ![] bcast_S_S131072 : (⟨S_, .i32⟩ : BufTy).Contents (Elt F) → (⟨S131072, .i32⟩ : BufTy).Contents (Elt F)),
    StableHlo.binary main_v1 main_v5 main_v6 (cmpi .slt : (⟨S131072, .i32⟩ : BufTy).Contents (Elt F) → (⟨S131072, .i32⟩ : BufTy).Contents (Elt F) → (⟨S131072, .i1⟩ : BufTy).Contents (Elt F)),
    StableHlo.nullary main_c_4 (constantI S_ 32 64#32),
    StableHlo.unary main_c_4 main_v7 (broadcastInDim S131072 ![] bcast_S_S131072 : (⟨S_, .i32⟩ : BufTy).Contents (Elt F) → (⟨S131072, .i32⟩ : BufTy).Contents (Elt F)),
    StableHlo.binary main_v1 main_v7 main_v8 (addi : (⟨S131072, .i32⟩ : BufTy).Contents (Elt F) → (⟨S131072, .i32⟩ : BufTy).Contents (Elt F) → (⟨S131072, .i32⟩ : BufTy).Contents (Elt F)),
    StableHlo.ternary main_v6 main_v8 main_v1 main_v9 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_5 (constantI S_ 32 0#32),
    StableHlo.unary main_c_5 main_v10 (broadcastInDim S131072 ![] bcast_S_S131072 : (⟨S_, .i32⟩ : BufTy).Contents (Elt F) → (⟨S131072, .i32⟩ : BufTy).Contents (Elt F)),
    StableHlo.binary main_v3 main_v10 main_v11 (cmpi .slt : (⟨S131072, .i32⟩ : BufTy).Contents (Elt F) → (⟨S131072, .i32⟩ : BufTy).Contents (Elt F) → (⟨S131072, .i1⟩ : BufTy).Contents (Elt F)),
    StableHlo.nullary main_c_6 (constantI S_ 32 64#32),
    StableHlo.unary main_c_6 main_v12 (broadcastInDim S131072 ![] bcast_S_S131072 : (⟨S_, .i32⟩ : BufTy).Contents (Elt F) → (⟨S131072, .i32⟩ : BufTy).Contents (Elt F)),
    StableHlo.binary main_v3 main_v12 main_v13 (addi : (⟨S131072, .i32⟩ : BufTy).Contents (Elt F) → (⟨S131072, .i32⟩ : BufTy).Contents (Elt F) → (⟨S131072, .i32⟩ : BufTy).Contents (Elt F)),
    StableHlo.ternary main_v11 main_v13 main_v3 main_v14 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_7 (constantI S_ 32 0#32),
    StableHlo.unary main_c_7 main_v15 (broadcastInDim S131072 ![] bcast_S_S131072 : (⟨S_, .i32⟩ : BufTy).Contents (Elt F) → (⟨S131072, .i32⟩ : BufTy).Contents (Elt F)),
    StableHlo.binary main_v4 main_v15 main_v16 (cmpi .slt : (⟨S131072, .i32⟩ : BufTy).Contents (Elt F) → (⟨S131072, .i32⟩ : BufTy).Contents (Elt F) → (⟨S131072, .i1⟩ : BufTy).Contents (Elt F)),
    StableHlo.nullary main_c_8 (constantI S_ 32 32#32),
    StableHlo.unary main_c_8 main_v17 (broadcastInDim S131072 ![] bcast_S_S131072 : (⟨S_, .i32⟩ : BufTy).Contents (Elt F) → (⟨S131072, .i32⟩ : BufTy).Contents (Elt F)),
    StableHlo.binary main_v4 main_v17 main_v18 (addi : (⟨S131072, .i32⟩ : BufTy).Contents (Elt F) → (⟨S131072, .i32⟩ : BufTy).Contents (Elt F) → (⟨S131072, .i32⟩ : BufTy).Contents (Elt F)),
    StableHlo.ternary main_v16 main_v18 main_v4 main_v19 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v9 main_v20 (broadcastInDim S131072x1 ![0] bcast_S131072_S131072x1_0 : (⟨S131072, .i32⟩ : BufTy).Contents (Elt F) → (⟨S131072x1, .i32⟩ : BufTy).Contents (Elt F)),
    StableHlo.unary main_v14 main_v21 (broadcastInDim S131072x1 ![0] bcast_S131072_S131072x1_0 : (⟨S131072, .i32⟩ : BufTy).Contents (Elt F) → (⟨S131072x1, .i32⟩ : BufTy).Contents (Elt F)),
    StableHlo.unary main_v19 main_v22 (broadcastInDim S131072x1 ![0] bcast_S131072_S131072x1_0 : (⟨S131072, .i32⟩ : BufTy).Contents (Elt F) → (⟨S131072x1, .i32⟩ : BufTy).Contents (Elt F)),
    StableHlo.nary ![main_v20, main_v21, main_v22] main_v23 (fun u => concatenate S131072x3 1 [⟨S131072x1, u 0⟩, ⟨S131072x1, u 1⟩, ⟨S131072x1, u 2⟩] concatenates_S131072x1_S131072x1_S131072x1_S131072x3_d1),
    StableHlo.binary main_arg1 main_v23 main_v24 ((fun x i => Host.gather gather_S64x64x32x64_S131072x3_S131072x64_1_012_n_n_012_1_11164 x i) : (⟨S64x64x32x64, .f32⟩ : BufTy).Contents (Elt F) → (⟨S131072x3, .i32⟩ : BufTy).Contents (Elt F) → (⟨S131072x64, .f32⟩ : BufTy).Contents (Elt F)),
    StableHlo.unary main_arg2 main_v25 ((transpose S64x64 [1, 0] · transposes_S64x64_S64x64_1_0) : (⟨S64x64, .f32⟩ : BufTy).Contents (Elt F) → (⟨S64x64, .f32⟩ : BufTy).Contents (Elt F)),
    StableHlo.binary main_v24 main_v25 main_v26 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    StableHlo.unary main_arg3 main_v27 (broadcastInDim S1x64 ![1] bcast_S64_S1x64_1 : (⟨S64, .f32⟩ : BufTy).Contents (Elt F) → (⟨S1x64, .f32⟩ : BufTy).Contents (Elt F)),
    StableHlo.unary main_v27 main_v28 (broadcastInDim S131072x64 ![0, 1] bcast_S1x64_S131072x64_0_1 : (⟨S1x64, .f32⟩ : BufTy).Contents (Elt F) → (⟨S131072x64, .f32⟩ : BufTy).Contents (Elt F)),
    StableHlo.binary main_v26 main_v28 main_v29 (addf : (⟨S131072x64, .f32⟩ : BufTy).Contents (Elt F) → (⟨S131072x64, .f32⟩ : BufTy).Contents (Elt F) → (⟨S131072x64, .f32⟩ : BufTy).Contents (Elt F)),
    StableHlo.unary main_v29 main_v30 (broadcastInDim S1x131072x64 ![1, 2] bcast_S131072x64_S1x131072x64_1_2 : (⟨S131072x64, .f32⟩ : BufTy).Contents (Elt F) → (⟨S1x131072x64, .f32⟩ : BufTy).Contents (Elt F)),
    StableHlo.unary main_v30 main_v31 (broadcastInDim S8x131072x64 ![0, 1, 2] bcast_S1x131072x64_S8x131072x64_0_1_2 : (⟨S1x131072x64, .f32⟩ : BufTy).Contents (Elt F) → (⟨S8x131072x64, .f32⟩ : BufTy).Contents (Elt F)),
    StableHlo.binary main_arg0 main_v31 main_v32 (addf : (⟨S8x131072x64, .f32⟩ : BufTy).Contents (Elt F) → (⟨S8x131072x64, .f32⟩ : BufTy).Contents (Elt F) → (⟨S8x131072x64, .f32⟩ : BufTy).Contents (Elt F)) ]

/-- The concatenation's result with each operand's contents read at its own reference. -/
theorem concat_result' (G : Valuation τ sig (Elt F)) :
    (StableHlo.nary ![main_v20, main_v21, main_v22] main_v23 (fun u => concatenate S131072x3 1 [⟨S131072x1, u 0⟩, ⟨S131072x1, u 1⟩, ⟨S131072x1, u 2⟩] concatenates_S131072x1_S131072x1_S131072x1_S131072x3_d1) : HloOp τ sig (Elt F)).result G (no_index (Proc.devRef .tc main_v23))
      = concatenate S131072x3 1 [⟨S131072x1, G (Proc.devRef .tc main_v20)⟩, ⟨S131072x1, G (Proc.devRef .tc main_v21)⟩, ⟨S131072x1, G (Proc.devRef .tc main_v22)⟩] concatenates_S131072x1_S131072x1_S131072x1_S131072x3_d1 :=
  (nary_result _ _ _ _ _ G).trans rfl

attribute [local irreducible] Host.gather concatenate transpose Host.divsi Host.remsi signi in
theorem A_v0 (W : Valuation τ sig (Elt F)) : after opsA W (main_v0 : DevRef τ sig) = pos := by
  simp (disch := decide) only [after_cons, after_nil, id_eq,
      nullary_result', unary_result', binary_result', ternary_result', concat_result',
      nullary_result_ne', unary_result_ne', binary_result_ne', ternary_result_ne', nary_result_ne']

attribute [local irreducible] Host.gather concatenate transpose Host.divsi Host.remsi signi in
theorem A_v1 (W : Valuation τ sig (Elt F)) : after opsA W (main_v1 : DevRef τ sig) = floorDiv pos (constantI S_ 32 2048#32) := by
  simp (disch := decide) only [after_cons, after_nil, id_eq,
      nullary_result', unary_result', binary_result', ternary_result', concat_result',
      nullary_result_ne', unary_result_ne', binary_result_ne', ternary_result_ne', nary_result_ne']
  rfl

attribute [local irreducible] Host.gather concatenate transpose Host.divsi Host.remsi signi in
theorem B_v2 (W : Valuation τ sig (Elt F)) (x : IVec S131072 32) (h0 : W (main_v0 : DevRef τ sig) = x) :
    after opsB W (main_v2 : DevRef τ sig) = floorRem x (constantI S_ 32 2048#32) := by
  subst h0
  simp (disch := decide) only [after_cons, after_nil, id_eq,
      nullary_result', unary_result', binary_result', ternary_result', concat_result',
      nullary_result_ne', unary_result_ne', binary_result_ne', ternary_result_ne', nary_result_ne']
  rfl

attribute [local irreducible] Host.gather concatenate transpose Host.divsi Host.remsi signi in
theorem C_v3 (W : Valuation τ sig (Elt F)) (x : IVec S131072 32) (h2 : W (main_v2 : DevRef τ sig) = x) :
    after opsC W (main_v3 : DevRef τ sig) = floorDiv x (constantI S_ 32 32#32) := by
  subst h2
  simp (disch := decide) only [after_cons, after_nil, id_eq,
      nullary_result', unary_result', binary_result', ternary_result', concat_result',
      nullary_result_ne', unary_result_ne', binary_result_ne', ternary_result_ne', nary_result_ne']
  rfl

attribute [local irreducible] Host.gather concatenate transpose Host.divsi Host.remsi signi in
theorem D_v4 (W : Valuation τ sig (Elt F)) (x : IVec S131072 32) (h0 : W (main_v0 : DevRef τ sig) = x) :
    after opsD W (main_v4 : DevRef τ sig) = floorRem x (constantI S_ 32 32#32) := by
  subst h0
  simp (disch := decide) only [after_cons, after_nil, id_eq,
      nullary_result', unary_result', binary_result', ternary_result', concat_result',
      nullary_result_ne', unary_result_ne', binary_result_ne', ternary_result_ne', nary_result_ne']
  rfl

attribute [local irreducible] Host.gather concatenate transpose Host.divsi Host.remsi signi in
theorem E_v23 (W : Valuation τ sig (Elt F)) (x1 x3 x4 : IVec S131072 32)
    (h1 : W (main_v1 : DevRef τ sig) = x1) (h3 : W (main_v3 : DevRef τ sig) = x3) (h4 : W (main_v4 : DevRef τ sig) = x4) :
    after opsE W (main_v23 : DevRef τ sig)
      = concatenate S131072x3 1
          [⟨S131072x1, col (wrapNeg x1 64#32)⟩, ⟨S131072x1, col (wrapNeg x3 64#32)⟩, ⟨S131072x1, col (wrapNeg x4 32#32)⟩]
          concatenates_S131072x1_S131072x1_S131072x1_S131072x3_d1 := by
  subst h1 h3 h4
  simp (disch := decide) only [after_cons, after_nil, id_eq,
      nullary_result', unary_result', binary_result', ternary_result', concat_result',
      nullary_result_ne', unary_result_ne', binary_result_ne', ternary_result_ne', nary_result_ne']
  rfl

attribute [local irreducible] Host.gather concatenate transpose Host.divsi Host.remsi signi in
theorem T_v32 (W : Valuation τ sig (Elt F)) (idx : IVec S131072x3 32)
    (a0 : FVec F S8x131072x64 .f32) (a1 : FVec F S64x64x32x64 .f32) (a2 : FVec F S64x64 .f32) (a3 : FVec F S64 .f32)
    (h23 : W (main_v23 : DevRef τ sig) = idx) (h0 : W (main_arg0 : DevRef τ sig) = a0) (h1 : W (main_arg1 : DevRef τ sig) = a1)
    (h2 : W (main_arg2 : DevRef τ sig) = a2) (h3 : W (main_arg3 : DevRef τ sig) = a3) :
    after opsT W (main_v32 : DevRef τ sig)
      = addf a0
          (broadcastInDim S8x131072x64 ![0, 1, 2] bcast_S1x131072x64_S8x131072x64_0_1_2
            (broadcastInDim S1x131072x64 ![1, 2] bcast_S131072x64_S1x131072x64_1_2
              (addf
                (Host.dotGeneral dot_S131072x64_S64x64_S131072x64_1_0_0_1_n_n none
                  (Host.gather gather_S64x64x32x64_S131072x3_S131072x64_1_012_n_n_012_1_11164 a1 idx)
                  (transpose S64x64 [1, 0] a2 transposes_S64x64_S64x64_1_0))
                (broadcastInDim S131072x64 ![0, 1] bcast_S1x64_S131072x64_0_1
                  (broadcastInDim S1x64 ![1] bcast_S64_S1x64_1 a3))))) := by
  subst h23 h0 h1 h2 h3
  simp (disch := decide) only [after_cons, after_nil, id_eq,
      nullary_result', unary_result', binary_result', ternary_result', concat_result',
      nullary_result_ne', unary_result_ne', binary_result_ne', ternary_result_ne', nary_result_ne']

theorem A_keep_main_arg0 (W : Valuation τ sig (Elt F)) : after opsA W (main_arg0 : DevRef τ sig) = W (main_arg0 : DevRef τ sig) := by
  simp (disch := decide) only [after_cons, after_nil, id_eq,
      nullary_result', unary_result', binary_result', ternary_result', concat_result',
      nullary_result_ne', unary_result_ne', binary_result_ne', ternary_result_ne', nary_result_ne']

theorem A_keep_main_arg1 (W : Valuation τ sig (Elt F)) : after opsA W (main_arg1 : DevRef τ sig) = W (main_arg1 : DevRef τ sig) := by
  simp (disch := decide) only [after_cons, after_nil, id_eq,
      nullary_result', unary_result', binary_result', ternary_result', concat_result',
      nullary_result_ne', unary_result_ne', binary_result_ne', ternary_result_ne', nary_result_ne']

theorem A_keep_main_arg2 (W : Valuation τ sig (Elt F)) : after opsA W (main_arg2 : DevRef τ sig) = W (main_arg2 : DevRef τ sig) := by
  simp (disch := decide) only [after_cons, after_nil, id_eq,
      nullary_result', unary_result', binary_result', ternary_result', concat_result',
      nullary_result_ne', unary_result_ne', binary_result_ne', ternary_result_ne', nary_result_ne']

theorem A_keep_main_arg3 (W : Valuation τ sig (Elt F)) : after opsA W (main_arg3 : DevRef τ sig) = W (main_arg3 : DevRef τ sig) := by
  simp (disch := decide) only [after_cons, after_nil, id_eq,
      nullary_result', unary_result', binary_result', ternary_result', concat_result',
      nullary_result_ne', unary_result_ne', binary_result_ne', ternary_result_ne', nary_result_ne']

theorem B_keep_main_v0 (W : Valuation τ sig (Elt F)) : after opsB W (main_v0 : DevRef τ sig) = W (main_v0 : DevRef τ sig) := by
  simp (disch := decide) only [after_cons, after_nil, id_eq,
      nullary_result', unary_result', binary_result', ternary_result', concat_result',
      nullary_result_ne', unary_result_ne', binary_result_ne', ternary_result_ne', nary_result_ne']

theorem B_keep_main_v1 (W : Valuation τ sig (Elt F)) : after opsB W (main_v1 : DevRef τ sig) = W (main_v1 : DevRef τ sig) := by
  simp (disch := decide) only [after_cons, after_nil, id_eq,
      nullary_result', unary_result', binary_result', ternary_result', concat_result',
      nullary_result_ne', unary_result_ne', binary_result_ne', ternary_result_ne', nary_result_ne']

theorem B_keep_main_arg0 (W : Valuation τ sig (Elt F)) : after opsB W (main_arg0 : DevRef τ sig) = W (main_arg0 : DevRef τ sig) := by
  simp (disch := decide) only [after_cons, after_nil, id_eq,
      nullary_result', unary_result', binary_result', ternary_result', concat_result',
      nullary_result_ne', unary_result_ne', binary_result_ne', ternary_result_ne', nary_result_ne']

theorem B_keep_main_arg1 (W : Valuation τ sig (Elt F)) : after opsB W (main_arg1 : DevRef τ sig) = W (main_arg1 : DevRef τ sig) := by
  simp (disch := decide) only [after_cons, after_nil, id_eq,
      nullary_result', unary_result', binary_result', ternary_result', concat_result',
      nullary_result_ne', unary_result_ne', binary_result_ne', ternary_result_ne', nary_result_ne']

theorem B_keep_main_arg2 (W : Valuation τ sig (Elt F)) : after opsB W (main_arg2 : DevRef τ sig) = W (main_arg2 : DevRef τ sig) := by
  simp (disch := decide) only [after_cons, after_nil, id_eq,
      nullary_result', unary_result', binary_result', ternary_result', concat_result',
      nullary_result_ne', unary_result_ne', binary_result_ne', ternary_result_ne', nary_result_ne']

theorem B_keep_main_arg3 (W : Valuation τ sig (Elt F)) : after opsB W (main_arg3 : DevRef τ sig) = W (main_arg3 : DevRef τ sig) := by
  simp (disch := decide) only [after_cons, after_nil, id_eq,
      nullary_result', unary_result', binary_result', ternary_result', concat_result',
      nullary_result_ne', unary_result_ne', binary_result_ne', ternary_result_ne', nary_result_ne']

theorem C_keep_main_v0 (W : Valuation τ sig (Elt F)) : after opsC W (main_v0 : DevRef τ sig) = W (main_v0 : DevRef τ sig) := by
  simp (disch := decide) only [after_cons, after_nil, id_eq,
      nullary_result', unary_result', binary_result', ternary_result', concat_result',
      nullary_result_ne', unary_result_ne', binary_result_ne', ternary_result_ne', nary_result_ne']

theorem C_keep_main_v1 (W : Valuation τ sig (Elt F)) : after opsC W (main_v1 : DevRef τ sig) = W (main_v1 : DevRef τ sig) := by
  simp (disch := decide) only [after_cons, after_nil, id_eq,
      nullary_result', unary_result', binary_result', ternary_result', concat_result',
      nullary_result_ne', unary_result_ne', binary_result_ne', ternary_result_ne', nary_result_ne']

theorem C_keep_main_arg0 (W : Valuation τ sig (Elt F)) : after opsC W (main_arg0 : DevRef τ sig) = W (main_arg0 : DevRef τ sig) := by
  simp (disch := decide) only [after_cons, after_nil, id_eq,
      nullary_result', unary_result', binary_result', ternary_result', concat_result',
      nullary_result_ne', unary_result_ne', binary_result_ne', ternary_result_ne', nary_result_ne']

theorem C_keep_main_arg1 (W : Valuation τ sig (Elt F)) : after opsC W (main_arg1 : DevRef τ sig) = W (main_arg1 : DevRef τ sig) := by
  simp (disch := decide) only [after_cons, after_nil, id_eq,
      nullary_result', unary_result', binary_result', ternary_result', concat_result',
      nullary_result_ne', unary_result_ne', binary_result_ne', ternary_result_ne', nary_result_ne']

theorem C_keep_main_arg2 (W : Valuation τ sig (Elt F)) : after opsC W (main_arg2 : DevRef τ sig) = W (main_arg2 : DevRef τ sig) := by
  simp (disch := decide) only [after_cons, after_nil, id_eq,
      nullary_result', unary_result', binary_result', ternary_result', concat_result',
      nullary_result_ne', unary_result_ne', binary_result_ne', ternary_result_ne', nary_result_ne']

theorem C_keep_main_arg3 (W : Valuation τ sig (Elt F)) : after opsC W (main_arg3 : DevRef τ sig) = W (main_arg3 : DevRef τ sig) := by
  simp (disch := decide) only [after_cons, after_nil, id_eq,
      nullary_result', unary_result', binary_result', ternary_result', concat_result',
      nullary_result_ne', unary_result_ne', binary_result_ne', ternary_result_ne', nary_result_ne']

theorem D_keep_main_v1 (W : Valuation τ sig (Elt F)) : after opsD W (main_v1 : DevRef τ sig) = W (main_v1 : DevRef τ sig) := by
  simp (disch := decide) only [after_cons, after_nil, id_eq,
      nullary_result', unary_result', binary_result', ternary_result', concat_result',
      nullary_result_ne', unary_result_ne', binary_result_ne', ternary_result_ne', nary_result_ne']

theorem D_keep_main_v3 (W : Valuation τ sig (Elt F)) : after opsD W (main_v3 : DevRef τ sig) = W (main_v3 : DevRef τ sig) := by
  simp (disch := decide) only [after_cons, after_nil, id_eq,
      nullary_result', unary_result', binary_result', ternary_result', concat_result',
      nullary_result_ne', unary_result_ne', binary_result_ne', ternary_result_ne', nary_result_ne']

theorem D_keep_main_arg0 (W : Valuation τ sig (Elt F)) : after opsD W (main_arg0 : DevRef τ sig) = W (main_arg0 : DevRef τ sig) := by
  simp (disch := decide) only [after_cons, after_nil, id_eq,
      nullary_result', unary_result', binary_result', ternary_result', concat_result',
      nullary_result_ne', unary_result_ne', binary_result_ne', ternary_result_ne', nary_result_ne']

theorem D_keep_main_arg1 (W : Valuation τ sig (Elt F)) : after opsD W (main_arg1 : DevRef τ sig) = W (main_arg1 : DevRef τ sig) := by
  simp (disch := decide) only [after_cons, after_nil, id_eq,
      nullary_result', unary_result', binary_result', ternary_result', concat_result',
      nullary_result_ne', unary_result_ne', binary_result_ne', ternary_result_ne', nary_result_ne']

theorem D_keep_main_arg2 (W : Valuation τ sig (Elt F)) : after opsD W (main_arg2 : DevRef τ sig) = W (main_arg2 : DevRef τ sig) := by
  simp (disch := decide) only [after_cons, after_nil, id_eq,
      nullary_result', unary_result', binary_result', ternary_result', concat_result',
      nullary_result_ne', unary_result_ne', binary_result_ne', ternary_result_ne', nary_result_ne']

theorem D_keep_main_arg3 (W : Valuation τ sig (Elt F)) : after opsD W (main_arg3 : DevRef τ sig) = W (main_arg3 : DevRef τ sig) := by
  simp (disch := decide) only [after_cons, after_nil, id_eq,
      nullary_result', unary_result', binary_result', ternary_result', concat_result',
      nullary_result_ne', unary_result_ne', binary_result_ne', ternary_result_ne', nary_result_ne']

theorem E_keep_main_arg0 (W : Valuation τ sig (Elt F)) : after opsE W (main_arg0 : DevRef τ sig) = W (main_arg0 : DevRef τ sig) := by
  simp (disch := decide) only [after_cons, after_nil, id_eq,
      nullary_result', unary_result', binary_result', ternary_result', concat_result',
      nullary_result_ne', unary_result_ne', binary_result_ne', ternary_result_ne', nary_result_ne']

theorem E_keep_main_arg1 (W : Valuation τ sig (Elt F)) : after opsE W (main_arg1 : DevRef τ sig) = W (main_arg1 : DevRef τ sig) := by
  simp (disch := decide) only [after_cons, after_nil, id_eq,
      nullary_result', unary_result', binary_result', ternary_result', concat_result',
      nullary_result_ne', unary_result_ne', binary_result_ne', ternary_result_ne', nary_result_ne']

theorem E_keep_main_arg2 (W : Valuation τ sig (Elt F)) : after opsE W (main_arg2 : DevRef τ sig) = W (main_arg2 : DevRef τ sig) := by
  simp (disch := decide) only [after_cons, after_nil, id_eq,
      nullary_result', unary_result', binary_result', ternary_result', concat_result',
      nullary_result_ne', unary_result_ne', binary_result_ne', ternary_result_ne', nary_result_ne']

theorem E_keep_main_arg3 (W : Valuation τ sig (Elt F)) : after opsE W (main_arg3 : DevRef τ sig) = W (main_arg3 : DevRef τ sig) := by
  simp (disch := decide) only [after_cons, after_nil, id_eq,
      nullary_result', unary_result', binary_result', ternary_result', concat_result',
      nullary_result_ne', unary_result_ne', binary_result_ne', ternary_result_ne', nary_result_ne']

theorem T_keep_main_arg0 (W : Valuation τ sig (Elt F)) : after opsT W (main_arg0 : DevRef τ sig) = W (main_arg0 : DevRef τ sig) := by
  simp (disch := decide) only [after_cons, after_nil, id_eq,
      nullary_result', unary_result', binary_result', ternary_result', concat_result',
      nullary_result_ne', unary_result_ne', binary_result_ne', ternary_result_ne', nary_result_ne']

theorem T_keep_main_arg1 (W : Valuation τ sig (Elt F)) : after opsT W (main_arg1 : DevRef τ sig) = W (main_arg1 : DevRef τ sig) := by
  simp (disch := decide) only [after_cons, after_nil, id_eq,
      nullary_result', unary_result', binary_result', ternary_result', concat_result',
      nullary_result_ne', unary_result_ne', binary_result_ne', ternary_result_ne', nary_result_ne']

theorem T_keep_main_arg2 (W : Valuation τ sig (Elt F)) : after opsT W (main_arg2 : DevRef τ sig) = W (main_arg2 : DevRef τ sig) := by
  simp (disch := decide) only [after_cons, after_nil, id_eq,
      nullary_result', unary_result', binary_result', ternary_result', concat_result',
      nullary_result_ne', unary_result_ne', binary_result_ne', ternary_result_ne', nary_result_ne']

theorem T_keep_main_arg3 (W : Valuation τ sig (Elt F)) : after opsT W (main_arg3 : DevRef τ sig) = W (main_arg3 : DevRef τ sig) := by
  simp (disch := decide) only [after_cons, after_nil, id_eq,
      nullary_result', unary_result', binary_result', ternary_result', concat_result',
      nullary_result_ne', unary_result_ne', binary_result_ne', ternary_result_ne', nary_result_ne']

/-- The contents after two lines run one after the other. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-- The contents after the first piece, the first two, … the first five. -/
abbrev st1 (V : Valuation τ sig (Elt F)) : Valuation τ sig (Elt F) := after opsA V
@[inherit_doc st1] abbrev st2 (V : Valuation τ sig (Elt F)) : Valuation τ sig (Elt F) := after opsB (st1 V)
@[inherit_doc st1] abbrev st3 (V : Valuation τ sig (Elt F)) : Valuation τ sig (Elt F) := after opsC (st2 V)
@[inherit_doc st1] abbrev st4 (V : Valuation τ sig (Elt F)) : Valuation τ sig (Elt F) := after opsD (st3 V)
@[inherit_doc st1] abbrev st5 (V : Valuation τ sig (Elt F)) : Valuation τ sig (Elt F) := after opsE (st4 V)

/-- The whole line is the six pieces in order. -/
theorem ops_eq : (ops : List (HloOp τ sig (Elt F))) = opsA ++ (opsB ++ (opsC ++ (opsD ++ (opsE ++ opsT)))) := rfl

theorem after_split (V : Valuation τ sig (Elt F)) :
    after ops V = after opsT (st5 V) := by
  rw [ops_eq, after_append', after_append', after_append', after_append', after_append']

/-- The contents of the result buffer after @main's operations: `out` of the argument arrays' launch contents. The
    positions and their floor quotient by 2048 come from the first piece; the floor remainder by 2048, its floor quotient
    by 32 and the floor remainder by 32 from the next three, each read from the positions the pieces before left in
    place; the fifth piece wraps the three coordinates and joins them into the start indices; the last gathers,
    multiplies and adds. -/
theorem out_eq (V : Valuation τ sig (Elt F)) :
    after ops V (main_v32 : DevRef τ sig)
      = out (V (main_arg0 : DevRef τ sig)) (V (main_arg1 : DevRef τ sig)) (V (main_arg2 : DevRef τ sig)) (V (main_arg3 : DevRef τ sig)) := by
  have h1_v0 : (st1 V) (main_v0 : DevRef τ sig) = pos := A_v0 V
  have h1_v1 : (st1 V) (main_v1 : DevRef τ sig) = floorDiv pos (constantI S_ 32 2048#32) := A_v1 V
  have h2_v0 : (st2 V) (main_v0 : DevRef τ sig) = pos := (B_keep_main_v0 (st1 V)).trans h1_v0
  have h2_v1 : (st2 V) (main_v1 : DevRef τ sig) = floorDiv pos (constantI S_ 32 2048#32) := (B_keep_main_v1 (st1 V)).trans h1_v1
  have h2_v2 : (st2 V) (main_v2 : DevRef τ sig) = floorRem pos (constantI S_ 32 2048#32) := B_v2 (st1 V) pos h1_v0
  have h3_v0 : (st3 V) (main_v0 : DevRef τ sig) = pos := (C_keep_main_v0 (st2 V)).trans h2_v0
  have h3_v1 : (st3 V) (main_v1 : DevRef τ sig) = floorDiv pos (constantI S_ 32 2048#32) := (C_keep_main_v1 (st2 V)).trans h2_v1
  have h3_v3 : (st3 V) (main_v3 : DevRef τ sig) = floorDiv (floorRem pos (constantI S_ 32 2048#32)) (constantI S_ 32 32#32) := C_v3 (st2 V) _ h2_v2
  have h4_v1 : (st4 V) (main_v1 : DevRef τ sig) = floorDiv pos (constantI S_ 32 2048#32) := (D_keep_main_v1 (st3 V)).trans h3_v1
  have h4_v3 : (st4 V) (main_v3 : DevRef τ sig) = floorDiv (floorRem pos (constantI S_ 32 2048#32)) (constantI S_ 32 32#32) := (D_keep_main_v3 (st3 V)).trans h3_v3
  have h4_v4 : (st4 V) (main_v4 : DevRef τ sig) = floorRem pos (constantI S_ 32 32#32) := D_v4 (st3 V) pos h3_v0
  have h5_v23 : (st5 V) (main_v23 : DevRef τ sig) = startIdx := E_v23 (st4 V) _ _ _ h4_v1 h4_v3 h4_v4
  have h5_a0 : (st5 V) (main_arg0 : DevRef τ sig) = V (main_arg0 : DevRef τ sig) :=
    (E_keep_main_arg0 (st4 V)).trans ((D_keep_main_arg0 (st3 V)).trans ((C_keep_main_arg0 (st2 V)).trans ((B_keep_main_arg0 (st1 V)).trans (A_keep_main_arg0 V))))
  have h5_a1 : (st5 V) (main_arg1 : DevRef τ sig) = V (main_arg1 : DevRef τ sig) :=
    (E_keep_main_arg1 (st4 V)).trans ((D_keep_main_arg1 (st3 V)).trans ((C_keep_main_arg1 (st2 V)).trans ((B_keep_main_arg1 (st1 V)).trans (A_keep_main_arg1 V))))
  have h5_a2 : (st5 V) (main_arg2 : DevRef τ sig) = V (main_arg2 : DevRef τ sig) :=
    (E_keep_main_arg2 (st4 V)).trans ((D_keep_main_arg2 (st3 V)).trans ((C_keep_main_arg2 (st2 V)).trans ((B_keep_main_arg2 (st1 V)).trans (A_keep_main_arg2 V))))
  have h5_a3 : (st5 V) (main_arg3 : DevRef τ sig) = V (main_arg3 : DevRef τ sig) :=
    (E_keep_main_arg3 (st4 V)).trans ((D_keep_main_arg3 (st3 V)).trans ((C_keep_main_arg3 (st2 V)).trans ((B_keep_main_arg3 (st1 V)).trans (A_keep_main_arg3 V))))
  rw [after_split]
  exact T_v32 (st5 V) _ _ _ _ _ h5_v23 h5_a0 h5_a1 h5_a2 h5_a3

theorem arg0_eq (V : Valuation τ sig (Elt F)) : after ops V (main_arg0 : DevRef τ sig) = V (main_arg0 : DevRef τ sig) :=
  (congrFun (after_split V) (main_arg0 : DevRef τ sig)).trans
    ((T_keep_main_arg0 (st5 V)).trans ((E_keep_main_arg0 (st4 V)).trans ((D_keep_main_arg0 (st3 V)).trans ((C_keep_main_arg0 (st2 V)).trans ((B_keep_main_arg0 (st1 V)).trans (A_keep_main_arg0 V))))))

theorem arg1_eq (V : Valuation τ sig (Elt F)) : after ops V (main_arg1 : DevRef τ sig) = V (main_arg1 : DevRef τ sig) :=
  (congrFun (after_split V) (main_arg1 : DevRef τ sig)).trans
    ((T_keep_main_arg1 (st5 V)).trans ((E_keep_main_arg1 (st4 V)).trans ((D_keep_main_arg1 (st3 V)).trans ((C_keep_main_arg1 (st2 V)).trans ((B_keep_main_arg1 (st1 V)).trans (A_keep_main_arg1 V))))))

theorem arg2_eq (V : Valuation τ sig (Elt F)) : after ops V (main_arg2 : DevRef τ sig) = V (main_arg2 : DevRef τ sig) :=
  (congrFun (after_split V) (main_arg2 : DevRef τ sig)).trans
    ((T_keep_main_arg2 (st5 V)).trans ((E_keep_main_arg2 (st4 V)).trans ((D_keep_main_arg2 (st3 V)).trans ((C_keep_main_arg2 (st2 V)).trans ((B_keep_main_arg2 (st1 V)).trans (A_keep_main_arg2 V))))))

theorem arg3_eq (V : Valuation τ sig (Elt F)) : after ops V (main_arg3 : DevRef τ sig) = V (main_arg3 : DevRef τ sig) :=
  (congrFun (after_split V) (main_arg3 : DevRef τ sig)).trans
    ((T_keep_main_arg3 (st5 V)).trans ((E_keep_main_arg3 (st4 V)).trans ((D_keep_main_arg3 (st3 V)).trans ((C_keep_main_arg3 (st2 V)).trans ((B_keep_main_arg3 (st1 V)).trans (A_keep_main_arg3 V))))))

set_option maxRecDepth 8192 in
set_option maxHeartbeats 2000000 in
/-- @main is that straight line: the functions' definitions unfolded at their calls and the records at their fields,
    both sides are one chain of `hlo` steps once sequencing is reassociated; a typed reference's transport of an
    operation's function along the buffer's type is the identity at these literal references. -/
theorem main_eq (c : Dev nD) : main (F := F) c = seq ops := by
  simp only [main, fn_floor_divide.body, fn_remainder.body, fn_where.body, fn_where_0.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., binary_bufs_sub .., unary_bufs_sub .., unary_bufs_sub .., binary_bufs_sub .., unary_bufs_sub .., unary_bufs_sub .., binary_bufs_sub ..⟩

/-- On every device, for any float values, from any memory with zero counters: every weakly fair execution of @main
    terminates with the result buffer at `out` of the argument arrays' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32)
          = out (m ((c.tc : Thread nD τ).loc main_arg0)) (m ((c.tc : Thread nD τ).loc main_arg1))
                (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v32).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c))⟩)
    (run_seq scopedRefs_eq scopedSems_eq defs main (fun _ => ops) main_eq (fun _ => ops_sub) m ρ)

end Cert.ReferenceIdeal.RefValue

end
-- ==== Proof.LibFloorWords.lean ====
/-
  jnp's floor division, floor remainder and negative-index wrap on non-negative 32-bit words.

  On 32-bit integers `x // d` lowers to the quotient truncated toward zero, less one where dividend and divisor
  differ in sign and the remainder is not zero; `x % d` lowers to the truncated remainder (by one in place of a
  zero divisor), plus the divisor where the remainder is not zero and its sign differs from the divisor's; and an
  index into an axis of length `k` is wrapped by adding `k` where it is negative.  For a dividend `p < 2^31` and a
  divisor `0 < d < 2^31`, as words, the host's signed quotient and remainder are the quotient and remainder of
  the naturals (both words have a clear sign bit, and the division corner — a zero divisor, or the least integer
  by minus one — is excluded), none of the three corrections fires, and so the floor division is `p / d`, the floor
  remainder `p % d`, and a non-negative index is left alone.  Stated on single words (`floorDivW`, `floorRemW`,
  `wrapNegW`: the selects spelt as the vector operations read at one index), generic in `p` and `d`.
-/
import Idealize.ShloMosaic.Lib.WordArith
import Idealize.ShloMosaic.PureOps.Vector
import Idealize.ShloMosaic.Lib.ValueIdx

namespace Cert.LibFloorWords

open Idealize.ShloMosaic Idealize.ShloMosaic.ValueIdx

/-! ## Words: non-negative 32-bit words below `2 ^ 31` -/

/-- A natural below `2 ^ 31` is the unsigned value of its word. -/
theorem toNat_ofNat_small (p : Nat) (hp : p < 2 ^ 31) : (BitVec.ofNat 32 p).toNat = p := by
  rw [BitVec.toNat_ofNat]; exact Nat.mod_eq_of_lt (by omega)

/-- Its word is not negative. -/
theorem msb_ofNat_small (p : Nat) (hp : p < 2 ^ 31) : (BitVec.ofNat 32 p).msb = false := by
  rw [BitVec.msb_eq_false_iff_two_mul_lt, toNat_ofNat_small p hp]; omega

/-- The word of a positive natural below `2 ^ 31` is not the zero word. -/
theorem ofNat_ne_zero (d : Nat) (h0 : 0 < d) (hd : d < 2 ^ 31) : BitVec.ofNat 32 d ≠ 0#32 := by
  intro h
  have := congrArg BitVec.toNat h
  rw [toNat_ofNat_small d hd] at this
  simp at this; omega

/-- The word of zero is the zero word; the word of a positive natural below `2 ^ 31` is not. -/
theorem ofNat_eq_zero_iff (p : Nat) (hp : p < 2 ^ 31) : BitVec.ofNat 32 p = 0#32 ↔ p = 0 := by
  constructor
  · intro h
    by_contra h0
    exact ofNat_ne_zero p (Nat.pos_of_ne_zero h0) hp h
  · rintro rfl; rfl

/-- Dividing a non-negative word by a positive one is not a signed-division corner. -/
theorem not_corner (p d : Nat) (hp : p < 2 ^ 31) (h0 : 0 < d) (hd : d < 2 ^ 31) :
    ¬ IntOp.SDivCorner (BitVec.ofNat 32 p) (BitVec.ofNat 32 d) := by
  rintro (h | ⟨h, -⟩)
  · exact ofNat_ne_zero d h0 hd h
  · have := congrArg BitVec.toNat h
    rw [toNat_ofNat_small p hp, BitVec.toNat_intMin] at this
    omega

/-- The host's signed quotient of a non-negative word by a positive one is the quotient of the naturals. -/
theorem divsi_ofNat (p d : Nat) (hp : p < 2 ^ 31) (h0 : 0 < d) (hd : d < 2 ^ 31) :
    IntOp.divsi .host (BitVec.ofNat 32 p) (BitVec.ofNat 32 d) = BitVec.ofNat 32 (p / d) := by
  unfold IntOp.divsi
  rw [if_neg (not_corner p d hp h0 hd), BitVec.sdiv_eq, msb_ofNat_small p hp, msb_ofNat_small d hd]
  apply BitVec.eq_of_toNat_eq
  show (BitVec.ofNat 32 p / BitVec.ofNat 32 d).toNat = _
  rw [BitVec.toNat_udiv, toNat_ofNat_small p hp, toNat_ofNat_small d hd,
    toNat_ofNat_small _ (lt_of_le_of_lt (Nat.div_le_self _ _) hp)]

/-- The host's signed remainder of a non-negative word by a positive one is the remainder of the naturals. -/
theorem remsi_ofNat (p d : Nat) (hp : p < 2 ^ 31) (h0 : 0 < d) (hd : d < 2 ^ 31) :
    IntOp.remsi .host (BitVec.ofNat 32 p) (BitVec.ofNat 32 d) = BitVec.ofNat 32 (p % d) := by
  unfold IntOp.remsi
  rw [if_neg (not_corner p d hp h0 hd), BitVec.srem_eq, msb_ofNat_small p hp, msb_ofNat_small d hd]
  apply BitVec.eq_of_toNat_eq
  show (BitVec.ofNat 32 p % BitVec.ofNat 32 d).toNat = _
  rw [BitVec.toNat_umod, toNat_ofNat_small p hp, toNat_ofNat_small d hd,
    toNat_ofNat_small _ (lt_of_le_of_lt (Nat.mod_le _ _) hp)]

/-- A non-negative word is not below zero. -/
theorem cmpi_slt_zero_ofNat (p : Nat) (hp : p < 2 ^ 31) : IntOp.cmpi .slt (BitVec.ofNat 32 p) 0#32 = 0#1 := by
  show BitVec.ofBool ((BitVec.ofNat 32 p).slt 0#32) = 0#1
  rw [BitVec.slt_zero_eq_msb, msb_ofNat_small p hp]; rfl

/-! ## The floor division, floor remainder and wrap of the reference, on two words -/

/-- The sign word of a word: `0`, `-1` or `1`. -/
def sgnW (x : BitVec 32) : BitVec 32 := if x = 0 then 0 else if x.msb then -1 else 1

/-- The floor division of the reference on two words: the truncated quotient, less one where the signs differ and the
    remainder is not zero. -/
def floorDivW (x d : BitVec 32) : BitVec 32 :=
  Scalar.select
    (IntOp.andi (IntOp.cmpi .ne (sgnW x) (sgnW d)) (IntOp.cmpi .ne (IntOp.remsi .host x d) 0#32))
    (IntOp.subi (IntOp.divsi .host x d) 1#32) (IntOp.divsi .host x d)

/-- The divisor a floor remainder divides by: one in place of zero. -/
def safeW (d : BitVec 32) : BitVec 32 := Scalar.select (IntOp.cmpi .eq d 0#32) 1#32 d

/-- The floor remainder of the reference on two words: the truncated remainder, plus the divisor where the remainder is
    not zero and its sign differs from the divisor's. -/
def floorRemW (x d : BitVec 32) : BitVec 32 :=
  Scalar.select
    (IntOp.andi
      (IntOp.cmpi .ne (IntOp.cmpi .slt (IntOp.remsi .host x (safeW d)) 0#32) (IntOp.cmpi .slt (safeW d) 0#32))
      (IntOp.cmpi .ne (IntOp.remsi .host x (safeW d)) 0#32))
    (IntOp.addi (IntOp.remsi .host x (safeW d)) (safeW d)) (IntOp.remsi .host x (safeW d))

/-- The wrap of a negative coordinate on two words. -/
def wrapNegW (x k : BitVec 32) : BitVec 32 := Scalar.select (IntOp.cmpi .slt x 0#32) (IntOp.addi x k) x

/-- The sign word of a non-negative word is `0` at zero and `1` elsewhere. -/
theorem sgnW_ofNat (p : Nat) (hp : p < 2 ^ 31) : sgnW (BitVec.ofNat 32 p) = if p = 0 then 0#32 else 1#32 := by
  unfold sgnW
  by_cases h : p = 0
  · subst h; simp
  · have hne : ¬ BitVec.ofNat 32 p = 0 := fun e => h ((ofNat_eq_zero_iff p hp).1 e)
    rw [if_neg hne, msb_ofNat_small p hp, if_neg h]; simp

/-- On a non-negative dividend and a positive divisor the floor division is the quotient of the naturals: the signs
    differ only at the dividend zero, whose remainder is zero, so the correction never fires. -/
theorem floorDivW_ofNat (p d : Nat) (hp : p < 2 ^ 31) (h0 : 0 < d) (hd : d < 2 ^ 31) :
    floorDivW (BitVec.ofNat 32 p) (BitVec.ofNat 32 d) = BitVec.ofNat 32 (p / d) := by
  unfold floorDivW
  rw [remsi_ofNat p d hp h0 hd, divsi_ofNat p d hp h0 hd, sgnW_ofNat p hp, sgnW_ofNat d hd,
    if_neg (show ¬ d = 0 by omega)]
  have hc : IntOp.andi (IntOp.cmpi .ne (if p = 0 then 0#32 else 1#32) 1#32)
      (IntOp.cmpi .ne (BitVec.ofNat 32 (p % d)) 0#32) = 0#1 := by
    by_cases h : p = 0
    · subst h; rw [if_pos rfl, Nat.zero_mod]; decide
    · rw [if_neg h]
      have h1 : IntOp.cmpi .ne 1#32 1#32 = 0#1 := by decide
      rw [h1]; unfold IntOp.andi; exact BitVec.zero_and
  rw [hc, select_zero]

/-- A positive divisor is its own safe divisor. -/
theorem safeW_ofNat (d : Nat) (h0 : 0 < d) (hd : d < 2 ^ 31) : safeW (BitVec.ofNat 32 d) = BitVec.ofNat 32 d := by
  unfold safeW
  have h : IntOp.cmpi .eq (BitVec.ofNat 32 d) 0#32 = 0#1 := by
    show BitVec.ofBool (BitVec.ofNat 32 d == 0#32) = 0#1
    rw [beq_eq_false_iff_ne.2 (ofNat_ne_zero d h0 hd)]; rfl
  rw [h, select_zero]

/-- On a non-negative dividend and a positive divisor the floor remainder is the remainder of the naturals: neither
    the remainder nor the divisor is negative, so the correction never fires. -/
theorem floorRemW_ofNat (p d : Nat) (hp : p < 2 ^ 31) (h0 : 0 < d) (hd : d < 2 ^ 31) :
    floorRemW (BitVec.ofNat 32 p) (BitVec.ofNat 32 d) = BitVec.ofNat 32 (p % d) := by
  unfold floorRemW
  rw [safeW_ofNat d h0 hd, remsi_ofNat p d hp h0 hd,
    cmpi_slt_zero_ofNat (p % d) (lt_of_le_of_lt (Nat.mod_le _ _) hp), cmpi_slt_zero_ofNat d hd]
  have h1 : IntOp.cmpi .ne 0#1 0#1 = 0#1 := by decide
  rw [h1]; unfold IntOp.andi; rw [BitVec.zero_and, select_zero]

/-- A non-negative coordinate is not wrapped. -/
theorem wrapNegW_ofNat (p : Nat) (hp : p < 2 ^ 31) (k : BitVec 32) : wrapNegW (BitVec.ofNat 32 p) k = BitVec.ofNat 32 p := by
  unfold wrapNegW
  rw [cmpi_slt_zero_ofNat p hp, select_zero]

end Cert.LibFloorWords
-- ==== Proof.RefIdx.lean ====
/-
  The gather's start indices, word by word, and the gather read at an index.

  Every position `n < 131072` is a non-negative 32-bit word, and so are the two divisors 2048 and 32. On such words the
  signed truncated quotient and remainder are the unsigned ones, the floor corrections of a floor division and of a
  floor remainder never fire (the signs agree, or the remainder is zero), and a coordinate that is not negative is not
  wrapped. So row `n` of the start-index array holds the words of `n / 2048`, `n % 2048 / 32` and `n % 32`; these
  are inside the table's first three axes, so the gather's clamp is the identity and the gathered row `n` is the
  table's row at that voxel.
-/
import proofs.«141609_j22247930593290_2_alg».proof.Proof.RefTerm
import proofs.«141609_j22247930593290_2_alg».proof.Proof.Spec
import proofs.«141609_j22247930593290_2_alg».proof.Proof.LibFloorWords
import Idealize.ShloMosaic.Lib.ValueIdx
import Idealize.ShloMosaic.Lib.WordArith
import Idealize.ShloMosaic.Lib.Pipeline.Value

noncomputable section

namespace Cert.ReferenceIdeal.RefValue

open Cert.ReferenceIdeal Cert.ReferenceIdeal.Facts₀ Idealize.ShloMosaic Idealize.ShloMosaic.ValueIdx

namespace IdxChain

open Cert.LibFloorWords

/-! ## The integer vectors read at a position -/

/-- The floor division by a scalar constant at a position is the floor division of the words. -/
theorem floorDiv_apply (x : IVec S131072 32) (d : BitVec 32) (i : S131072.Idx) :
    floorDiv x (constantI S_ 32 d) i = floorDivW (x i) d := rfl

/-- The floor remainder by a scalar constant at a position is the floor remainder of the words. -/
theorem floorRem_apply (x : IVec S131072 32) (d : BitVec 32) (i : S131072.Idx) :
    floorRem x (constantI S_ 32 d) i = floorRemW (x i) d := rfl

/-- The wrap at a position is the wrap of the words. -/
theorem wrapNeg_apply (x : IVec S131072 32) (k : BitVec 32) (i : S131072.Idx) :
    wrapNeg x k i = wrapNegW (x i) k := rfl

/-- Position `n` holds the word of `n`. -/
theorem pos_apply (n : Fin 131072) : pos (ix1 n) = BitVec.ofNat 32 n.val := rfl

/-- The first coordinate of position `n`: the word of `n / 2048`. -/
theorem coord0_apply (n : Fin 131072) :
    wrapNeg (floorDiv pos (constantI S_ 32 2048#32)) 64#32 (ix1 n) = BitVec.ofNat 32 (n.val / 2048) := by
  have hn := n.isLt
  rw [wrapNeg_apply, floorDiv_apply, pos_apply, floorDivW_ofNat n.val 2048 (by omega) (by omega) (by omega),
    wrapNegW_ofNat _ (by omega)]

/-- The second coordinate of position `n`: the word of `n % 2048 / 32`. -/
theorem coord1_apply (n : Fin 131072) :
    wrapNeg (floorDiv (floorRem pos (constantI S_ 32 2048#32)) (constantI S_ 32 32#32)) 64#32 (ix1 n)
      = BitVec.ofNat 32 (n.val % 2048 / 32) := by
  have hn := n.isLt
  rw [wrapNeg_apply, floorDiv_apply, floorRem_apply, pos_apply,
    floorRemW_ofNat n.val 2048 (by omega) (by omega) (by omega),
    floorDivW_ofNat (n.val % 2048) 32 (by omega) (by omega) (by omega), wrapNegW_ofNat _ (by omega)]

/-- The third coordinate of position `n`: the word of `n % 32`. -/
theorem coord2_apply (n : Fin 131072) :
    wrapNeg (floorRem pos (constantI S_ 32 32#32)) 32#32 (ix1 n) = BitVec.ofNat 32 (n.val % 32) := by
  have hn := n.isLt
  rw [wrapNeg_apply, floorRem_apply, pos_apply, floorRemW_ofNat n.val 32 (by omega) (by omega) (by omega),
    wrapNegW_ofNat _ (by omega)]

/-! ## The start-index array -/

/-- A vector as a one-column array, read at a row. -/
theorem col_apply {α : Type} (x : S131072.Idx → α) (n : Fin 131072) (c : Fin 1) : col x (ix2 n c) = x (ix1 n) := by
  refine broadcastInDim_apply _ _ x (ix2 n c) (ix1 n) fun a => ?_
  match a with
  | ⟨0, _⟩ => rfl

/-- Row `n`, column 0 of the start-index array: the word of `n / 2048`. -/
theorem startIdx_apply0 (n : Fin 131072) : startIdx (ix2 n (0 : Fin 3)) = BitVec.ofNat 32 (n.val / 2048) := by
  unfold startIdx
  refine (concatenate_apply_piece (1 : Fin S131072x3.rank) _ _ (ix2 n (0 : Fin 3)) 0 (by decide) S131072x1 _ rfl rfl 0 rfl
    (ix2 n (0 : Fin 1)) (fun b hb => ?_) rfl).trans ?_
  · match b with
    | ⟨0, _⟩ => rfl
    | ⟨1, _⟩ => exact absurd rfl hb
  · rw [col_apply, coord0_apply]

/-- Row `n`, column 1 of the start-index array: the word of `n % 2048 / 32`. -/
theorem startIdx_apply1 (n : Fin 131072) : startIdx (ix2 n (1 : Fin 3)) = BitVec.ofNat 32 (n.val % 2048 / 32) := by
  unfold startIdx
  refine (concatenate_apply_piece (1 : Fin S131072x3.rank) _ _ (ix2 n (1 : Fin 3)) 1 (by decide) S131072x1 _ rfl rfl 1 rfl
    (ix2 n (0 : Fin 1)) (fun b hb => ?_) rfl).trans ?_
  · match b with
    | ⟨0, _⟩ => rfl
    | ⟨1, _⟩ => exact absurd rfl hb
  · rw [col_apply, coord1_apply]

/-- Row `n`, column 2 of the start-index array: the word of `n % 32`. -/
theorem startIdx_apply2 (n : Fin 131072) : startIdx (ix2 n (2 : Fin 3)) = BitVec.ofNat 32 (n.val % 32) := by
  unfold startIdx
  refine (concatenate_apply_piece (1 : Fin S131072x3.rank) _ _ (ix2 n (2 : Fin 3)) 2 (by decide) S131072x1 _ rfl rfl 2 rfl
    (ix2 n (0 : Fin 1)) (fun b hb => ?_) rfl).trans ?_
  · match b with
    | ⟨0, _⟩ => rfl
    | ⟨1, _⟩ => exact absurd rfl hb
  · rw [col_apply, coord2_apply]

/-! ## The gather read at an index -/

/-- The gather's dimension numbers: the three start-index components address the table's first three axes, which are
    collapsed; the result's column runs along the fourth. -/
abbrev gd : GatherDims S64x64x32x64 S131072x3 S131072x64 := gather_S64x64x32x64_S131072x3_S131072x64_1_012_n_n_012_1_11164

/-- Component `c` of the start index of result row `n` is read at row `n`, column `c` of the start-index array. -/
theorem siIdx_eq (n : Fin 131072) (k : Fin 64) (c : Fin 3) (c' : Fin gd.startIndexMap.length) (hc : c'.val = c.val) :
    gd.siIdx (ix2 n k) c' = ix2 n c := by
  funext b
  refine Fin.ext ?_
  match b with
  | ⟨0, _⟩ => rfl
  | ⟨1, _⟩ => exact hc

/-- The slice of result row `n` starts at `n / 2048` on the table's first axis: the start index is in range, so the
    clamp is the identity. -/
theorem start0 (n : Fin 131072) (k : Fin 64) : gd.start (ix2 n k) startIdx (0 : Fin 4) = n.val / 2048 := by
  have hn := n.isLt
  have hm : (0 : Fin 4) ∈ gd.startIndexMap := by decide
  have hsi : gd.siIdx (ix2 n k) ⟨List.idxOf (0 : Fin 4) gd.startIndexMap, List.idxOf_lt_length_iff.2 hm⟩
      = ix2 n (0 : Fin 3) := by
    refine siIdx_eq n k 0 _ ?_
    rfl
  unfold GatherDims.start
  rw [dif_pos hm, hsi, startIdx_apply0, WordArith.toInt_ofNat_small _ (by omega), Int.toNat_natCast]
  exact Nat.min_eq_left (show n.val / 2048 ≤ 64 - 1 by omega)

/-- It starts at `n % 2048 / 32` on the second axis. -/
theorem start1 (n : Fin 131072) (k : Fin 64) : gd.start (ix2 n k) startIdx (1 : Fin 4) = n.val % 2048 / 32 := by
  have hm : (1 : Fin 4) ∈ gd.startIndexMap := by decide
  have hsi : gd.siIdx (ix2 n k) ⟨List.idxOf (1 : Fin 4) gd.startIndexMap, List.idxOf_lt_length_iff.2 hm⟩
      = ix2 n (1 : Fin 3) := by
    refine siIdx_eq n k 1 _ ?_
    rfl
  unfold GatherDims.start
  rw [dif_pos hm, hsi, startIdx_apply1, WordArith.toInt_ofNat_small _ (by omega), Int.toNat_natCast]
  exact Nat.min_eq_left (show n.val % 2048 / 32 ≤ 64 - 1 by omega)

/-- It starts at `n % 32` on the third axis. -/
theorem start2 (n : Fin 131072) (k : Fin 64) : gd.start (ix2 n k) startIdx (2 : Fin 4) = n.val % 32 := by
  have hm : (2 : Fin 4) ∈ gd.startIndexMap := by decide
  have hsi : gd.siIdx (ix2 n k) ⟨List.idxOf (2 : Fin 4) gd.startIndexMap, List.idxOf_lt_length_iff.2 hm⟩
      = ix2 n (2 : Fin 3) := by
    refine siIdx_eq n k 2 _ ?_
    rfl
  unfold GatherDims.start
  rw [dif_pos hm, hsi, startIdx_apply2, WordArith.toInt_ofNat_small _ (by omega), Int.toNat_natCast]
  exact Nat.min_eq_left (show n.val % 32 ≤ 32 - 1 by omega)

/-- The last axis is not indexed: the slice is the whole row, from 0. -/
theorem start3 (n : Fin 131072) (k : Fin 64) : gd.start (ix2 n k) startIdx (3 : Fin 4) = 0 := by
  unfold GatherDims.start
  rw [dif_neg (show (3 : Fin 4) ∉ gd.startIndexMap by decide)]

/-- The first three axes are collapsed: no offset coordinate. -/
theorem offCoord_collapsed (n : Fin 131072) (k : Fin 64) (a : Fin 4) (ha : a ∈ gd.collapsedSliceDims) :
    gd.offCoord (ix2 n k) a = 0 :=
  GatherDims.offCoord_eq_zero gd _ a fun h => ((GatherDims.mem_sKept gd a).mp h).1 ha

/-- On the last axis the offset coordinate is the result's column. -/
theorem offCoord3 (n : Fin 131072) (k : Fin 64) : gd.offCoord (ix2 n k) (3 : Fin 4) = k.val := by
  unfold GatherDims.offCoord
  rw [dif_pos (show (3 : Fin 4) ∈ gd.sKept by decide)]
  rfl

end IdxChain

open IdxChain in
/-- THE GATHER READ AT ROW `n`, COLUMN `k`: the table at the voxel of position `n`, channel `k`. -/
theorem gather_startIdx_apply {α : Type} (pe : S64x64x32x64.Idx → α) (n : Fin 131072) (k : Fin 64) :
    Host.gather gather_S64x64x32x64_S131072x3_S131072x64_1_012_n_n_012_1_11164 pe startIdx (ix2 n k)
      = pe (ix4 (Cert.Spec.vx n) (Cert.Spec.vy n) (Cert.Spec.vz n) k) := by
  unfold Host.gather
  congr 1
  funext a
  refine Fin.ext ?_
  show gd.start (ix2 n k) startIdx a + gd.batchCoord (ix2 n k) a + gd.offCoord (ix2 n k) a = _
  rw [GatherDims.batchCoord_eq_zero gd _ a (show a ∉ gd.operandBatchingDims from List.not_mem_nil), Nat.add_zero]
  match a with
  | ⟨0, _⟩ => exact (congrArg₂ (· + ·) (start0 n k) (offCoord_collapsed n k 0 (by decide))).trans (Nat.add_zero _)
  | ⟨1, _⟩ => exact (congrArg₂ (· + ·) (start1 n k) (offCoord_collapsed n k 1 (by decide))).trans (Nat.add_zero _)
  | ⟨2, _⟩ => exact (congrArg₂ (· + ·) (start2 n k) (offCoord_collapsed n k 2 (by decide))).trans (Nat.add_zero _)
  | ⟨3, _⟩ => exact (congrArg₂ (· + ·) (start3 n k) (offCoord3 n k)).trans (Nat.zero_add _)

end Cert.ReferenceIdeal.RefValue

end
-- ==== Proof.RefOut.lean ====
/-
  The reference's result array is the specified one, index by index, at the ideal values.

  Read at batch `b`, position `n`, channel `c`, the result is the features' element plus the element of a
  [131072, 64] array at `(n, c)`, repeated over the batch axis by two broadcasts. That array is a product plus a
  bias: the bias is `bias[c]`, repeated over the rows by two broadcasts, and the product, at the ideal values, is the
  sum over the contracted axis of the gathered rows times the transposed weights, `Σ_k gathered[n, k] · W[c, k]`. The
  gathered row `n` is the table's row at the voxel of position `n` (taken here as a hypothesis about the gather), which
  is the specified sum.
-/
import proofs.«141609_j22247930593290_2_alg».proof.Proof.RefTerm
import proofs.«141609_j22247930593290_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue

open Cert.ReferenceIdeal Cert.ReferenceIdeal.Facts₀ Idealize.ShloMosaic Idealize.ShloMosaic.ValueIdx

namespace OutChain

/-! ## The product read at an index -/

/-- The product's dimension numbers: rows × contraction times contraction × columns, no batch axis. -/
abbrev dd : DotDims S131072x64 S64x64 S131072x64 := dot_S131072x64_S64x64_S131072x64_1_0_0_1_n_n

/-- The left operand is read at the result's row … -/
theorem lhs_0 (i : S131072x64.Idx) (q : dd.contr.Idx) : (dd.lhsIdx i q 0).val = (i 0).val := by
  unfold DotDims.lhsIdx
  rw [dif_neg (show ¬(0 : Fin S131072x64.rank) ∈ dd.lhsBatch by decide),
    dif_pos (show (0 : Fin S131072x64.rank) ∈ dd.lhsNonContracting by decide)]
  rfl

/-- … and the contraction index; -/
theorem lhs_1 (i : S131072x64.Idx) (q : dd.contr.Idx) : (dd.lhsIdx i q 1).val = (q ⟨0, by decide⟩).val :=
  dd.lhsIdx_val_of_single rfl i q

/-- the right operand at the contraction index … -/
theorem rhs_0 (i : S131072x64.Idx) (q : dd.contr.Idx) : (dd.rhsIdx i q 0).val = (q ⟨0, by decide⟩).val :=
  dd.rhsIdx_val_of_single rfl i q

/-- … and the result's column. -/
theorem rhs_1 (i : S131072x64.Idx) (q : dd.contr.Idx) : (dd.rhsIdx i q 1).val = (i 1).val := by
  unfold DotDims.rhsIdx
  rw [dif_neg (show ¬(1 : Fin S64x64.rank) ∈ dd.rhsBatch by decide),
    dif_pos (show (1 : Fin S64x64.rank) ∈ dd.rhsNonContracting by decide)]
  rfl

/-- THE PRODUCT AT `(n, c)`, at the ideal values: the sum over the contracted axis of row `n` of the left operand times
    column `c` of the right one. -/
theorem dot_apply (x : FVec Ideal S131072x64 .f32) (y : FVec Ideal S64x64 .f32) (n : Fin 131072) (c : Fin 64) :
    Host.dotGeneral dot_S131072x64_S64x64_S131072x64_1_0_0_1_n_n none x y (ix2 n c)
      = ∑ k : Fin 64, x (ix2 n k) * y (ix2 k c) := by
  simp only [Host.dotGeneral]
  rw [Ideal.dotGeneral_apply, ← Equiv.sum_comp (contrEquiv1 dd 64 rfl rfl).symm]
  refine Finset.sum_congr rfl fun k _ => ?_
  have hk := contrEquiv1_symm_val dd 64 rfl rfl k
  have el : dd.lhsIdx (ix2 n c) ((contrEquiv1 dd 64 rfl rfl).symm k) = ix2 n k := funext fun a => Fin.ext (by
    match a with
    | ⟨0, _⟩ => exact lhs_0 _ _
    | ⟨1, _⟩ => exact (lhs_1 _ _).trans hk)
  have er : dd.rhsIdx (ix2 n c) ((contrEquiv1 dd 64 rfl rfl).symm k) = ix2 k c := funext fun a => Fin.ext (by
    match a with
    | ⟨0, _⟩ => exact (rhs_0 _ _).trans hk
    | ⟨1, _⟩ => exact rhs_1 _ _)
  rw [el, er]

/-! ## The result read at an index -/

/-- The bias repeated over the rows reads `bias[c]` at `(n, c)`. -/
theorem bias_apply (a3 : FVec Ideal S64 .f32) (n : Fin 131072) (c : Fin 64) :
    broadcastInDim S131072x64 ![0, 1] bcast_S1x64_S131072x64_0_1 (broadcastInDim S1x64 ![1] bcast_S64_S1x64_1 a3) (ix2 n c)
      = a3 (ix1 c) := by
  refine (broadcastInDim_apply _ _ _ (ix2 n c) (ix2 (0 : Fin 1) c) fun a => ?_).trans ?_
  · match a with
    | ⟨0, _⟩ => rfl
    | ⟨1, _⟩ => rfl
  refine broadcastInDim_apply _ _ _ (ix2 (0 : Fin 1) c) (ix1 c) fun a => ?_
  match a with
  | ⟨0, _⟩ => rfl

/-- A [131072, 64] array repeated over the batch axis reads its `(n, c)` at `(b, n, c)`. -/
theorem batch_apply (x : FVec Ideal S131072x64 .f32) (b : Fin 8) (n : Fin 131072) (c : Fin 64) :
    broadcastInDim S8x131072x64 ![0, 1, 2] bcast_S1x131072x64_S8x131072x64_0_1_2
        (broadcastInDim S1x131072x64 ![1, 2] bcast_S131072x64_S1x131072x64_1_2 x) (ix3 b n c)
      = x (ix2 n c) := by
  refine (broadcastInDim_apply _ _ _ (ix3 b n c) (ix3 (0 : Fin 1) n c) fun a => ?_).trans ?_
  · match a with
    | ⟨0, _⟩ => rfl
    | ⟨1, _⟩ => rfl
    | ⟨2, _⟩ => rfl
  refine broadcastInDim_apply _ _ _ (ix3 (0 : Fin 1) n c) (ix2 n c) fun a => ?_
  match a with
  | ⟨0, _⟩ => rfl
  | ⟨1, _⟩ => rfl

/-- THE RESULT AT `(b, n, c)`: the features' element plus the gathered row `n` times row `c` of the weights plus the
    bias at `c`. -/
theorem out_apply (a0 : FVec Ideal S8x131072x64 .f32) (a1 : FVec Ideal S64x64x32x64 .f32) (a2 : FVec Ideal S64x64 .f32)
    (a3 : FVec Ideal S64 .f32) (b : Fin 8) (n : Fin 131072) (c : Fin 64) :
    out (F := Ideal) a0 a1 a2 a3 (ix3 b n c)
      = a0 (ix3 b n c)
        + ((∑ k : Fin 64,
              Host.gather gather_S64x64x32x64_S131072x3_S131072x64_1_012_n_n_012_1_11164 a1 startIdx (ix2 n k) * a2 (ix2 c k))
            + a3 (ix1 c)) := by
  unfold out
  rw [addf_apply]
  refine congrArg (a0 (ix3 b n c) + ·) ?_
  refine (batch_apply _ b n c).trans ?_
  rw [addf_apply]
  refine congrArg₂ (· + ·) ?_ (bias_apply a3 n c)
  refine (dot_apply _ _ n c).trans (Finset.sum_congr rfl fun k _ => ?_)
  exact congrArg (_ * ·) (transpose_ix2_apply a2 _ k c)

end OutChain

/-- THE REFERENCE'S RESULT IS THE SPECIFIED ARRAY, given the gather read at an index: the gathered row `n` is the
    table's row at the voxel of position `n`. -/
theorem out_eq_spec
    (hg : ∀ (pe : FVec Ideal S64x64x32x64 .f32) (n : Fin 131072) (k : Fin 64),
        Host.gather gather_S64x64x32x64_S131072x3_S131072x64_1_012_n_n_012_1_11164 pe startIdx (ix2 n k)
          = pe (ix4 (Cert.Spec.vx n) (Cert.Spec.vy n) (Cert.Spec.vz n) k))
    (a0 : FVec Ideal S8x131072x64 .f32) (a1 : FVec Ideal S64x64x32x64 .f32) (a2 : FVec Ideal S64x64 .f32) (a3 : FVec Ideal S64 .f32) :
    out (F := Ideal) a0 a1 a2 a3 = Cert.Spec.G a0 a1 a2 a3 := by
  funext i
  obtain ⟨b, n, c, rfl⟩ : ∃ (b : Fin 8) (n : Fin 131072) (c : Fin 64), i = ix3 b n c := ⟨i 0, i 1, i 2, eq_ix3 i⟩
  refine (OutChain.out_apply a0 a1 a2 a3 b n c).trans ?_
  rw [Cert.Spec.G_apply]
  unfold Cert.Spec.Gc Cert.Spec.proj
  refine congrArg (a0 (ix3 b n c) + ·) (congrArg (· + a3 (ix1 c)) (Finset.sum_congr rfl fun k _ => ?_))
  exact congrArg (· * a2 (ix2 c k)) (hg a1 n k)

end Cert.ReferenceIdeal.RefValue

end
-- ==== Proof.lean ====
/-
  The certificate: a fused "add projected positional encoding" kernel against its plain jnp reference.

  The reference gathers, for each of the 131072 positions n, the table row of voxel
  (n div 2048, (n mod 2048) div 32, n mod 32) — positions are listed in row-major voxel order, so the gather is the
  row-major flattening of the table — multiplies by the transposed weights, adds the bias, and adds the result to every
  batch slice of the features.  The kernel flattens the table by a regrouping instead of a gather, packs two
  positions per 128-lane row, multiplies by the block-diagonal matrix diag(Wᵀ, Wᵀ) on an 8 × 8 grid of row tiles and
  batches, and unpacks.  Over the extended reals both results are, at batch b, position n, channel c,

      feat[b, n, c] + ( Σ_{k < 64} table[voxel n, k] · W[c, k] + bias[c] )          (Cert.Spec.G):

  the kernel's 128-term sums differ from the 64-term ones only by products with the zero blocks, which vanish for
  every extended real, so no finiteness of the inputs is used.  The three frames are the generated frame
  certificates (the reference's is its run with the result dropped); the ideal pass rewrote nothing, so the
  idealization claim is trivial.
-/
import proofs.«141609_j22247930593290_2_alg».proof.Defs
import proofs.«141609_j22247930593290_2_alg».proof.Proof.Gen.Kernel
import proofs.«141609_j22247930593290_2_alg».proof.Proof.Gen.Kernel.Frame
import proofs.«141609_j22247930593290_2_alg».proof.Proof.Gen.KernelIdeal
import proofs.«141609_j22247930593290_2_alg».proof.Proof.Gen.KernelIdeal.Frame
import proofs.«141609_j22247930593290_2_alg».proof.Proof.Gen.ReferenceIdeal
import proofs.«141609_j22247930593290_2_alg».proof.Proof.Gen.Pre_finite_inputs
import proofs.«141609_j22247930593290_2_alg».proof.Proof.KerRun
import proofs.«141609_j22247930593290_2_alg».proof.Proof.RefRun
import proofs.«141609_j22247930593290_2_alg».proof.Proof.RefIdx
import proofs.«141609_j22247930593290_2_alg».proof.Proof.RefOut

noncomputable section

namespace Cert.Proof

open Idealize.ShloMosaic Idealize.SL.Sem

/-- The printed kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run, with the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- The ideal pass rewrote no operation. -/
theorem preserves : Cert.preserves_Kernel_KernelIdeal := trivial

/-- Both idealized programs end with the specification of the (agreeing) argument arrays. -/
theorem algebraic : Cert.algebraic_KernelIdeal_ReferenceIdeal := by
  intro m ρ m' ρ' _ hagree
  refine ⟨_, Cert.KernelIdeal.KerValue.run m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2]
  exact Cert.ReferenceIdeal.RefValue.out_eq_spec
    (fun pe n k => Cert.ReferenceIdeal.RefValue.gather_startIdx_apply pe n k) _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
